-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1600x64 : Shape := ⟨3, ![2048, 1600, 64]⟩
abbrev S_ : Shape := ⟨0, ![]⟩

class Facts : Prop where
  bcast_S_S2048x1600x64 : S_.BroadcastsInDim S2048x1600x64 (![] : Fin 0 → Fin S2048x1600x64.rank)
  reducesTo_S2048x1600x64_S_d0_1_2 : S2048x1600x64.ReducesTo [0, 1, 2] S_
  h_S_ : 0 < S_.numel

variable [Facts]

def fn {F : FTy → Type} [FloatOps F] (main_arg0 : FVec F S2048x1600x64 .f32) : IVec S_ 1 :=
  let main_v0 : FVec F S2048x1600x64 .f32 := Host.absf main_arg0
  let main_cst : FVec F S_ .f32 := constant S_ .f32 0x7F800000#32
  let main_v1 : FVec F S2048x1600x64 .f32 := broadcastInDim S2048x1600x64 ![] bcast_S_S2048x1600x64 main_cst
  let main_v2 : IVec S2048x1600x64 1 := cmpf .olt main_v0 main_v1
  let main_c : IVec S_ 1 := constantI S_ 1 1#1
  let main_v3 : IVec S_ 1 := (fun x v => Host.reduce IntOp.andi x v reducesTo_S2048x1600x64_S_d0_1_2 h_S_) main_v2 main_c
  main_v3
-- ==== Kernel.lean ====
abbrev S2048x1600x64 : Shape := ⟨3, ![2048, 1600, 64]⟩
abbrev S2048x780x64 : Shape := ⟨3, ![2048, 780, 64]⟩
abbrev S16x1600x64 : Shape := ⟨3, ![16, 1600, 64]⟩
abbrev S16x780x64 : Shape := ⟨3, ![16, 780, 64]⟩
abbrev S16x39x64 : Shape := ⟨3, ![16, 39, 64]⟩
abbrev S16x1x64 : Shape := ⟨3, ![16, 1, 64]⟩
abbrev S16x64 : Shape := ⟨2, ![16, 64]⟩
abbrev S16x38x64 : Shape := ⟨3, ![16, 38, 64]⟩
abbrev S16x37x64 : Shape := ⟨3, ![16, 37, 64]⟩
abbrev S16x36x64 : Shape := ⟨3, ![16, 36, 64]⟩
abbrev S16x35x64 : Shape := ⟨3, ![16, 35, 64]⟩
abbrev S16x34x64 : Shape := ⟨3, ![16, 34, 64]⟩
abbrev S16x33x64 : Shape := ⟨3, ![16, 33, 64]⟩
abbrev S16x32x64 : Shape := ⟨3, ![16, 32, 64]⟩
abbrev S16x31x64 : Shape := ⟨3, ![16, 31, 64]⟩
abbrev S16x30x64 : Shape := ⟨3, ![16, 30, 64]⟩
abbrev S16x29x64 : Shape := ⟨3, ![16, 29, 64]⟩
abbrev S16x28x64 : Shape := ⟨3, ![16, 28, 64]⟩
abbrev S16x27x64 : Shape := ⟨3, ![16, 27, 64]⟩
abbrev S16x26x64 : Shape := ⟨3, ![16, 26, 64]⟩
abbrev S16x25x64 : Shape := ⟨3, ![16, 25, 64]⟩
abbrev S16x24x64 : Shape := ⟨3, ![16, 24, 64]⟩
abbrev S16x23x64 : Shape := ⟨3, ![16, 23, 64]⟩
abbrev S16x22x64 : Shape := ⟨3, ![16, 22, 64]⟩
abbrev S16x21x64 : Shape := ⟨3, ![16, 21, 64]⟩
abbrev S16x20x64 : Shape := ⟨3, ![16, 20, 64]⟩
abbrev S16x19x64 : Shape := ⟨3, ![16, 19, 64]⟩
abbrev S16x18x64 : Shape := ⟨3, ![16, 18, 64]⟩
abbrev S16x17x64 : Shape := ⟨3, ![16, 17, 64]⟩
abbrev S16x16x64 : Shape := ⟨3, ![16, 16, 64]⟩
abbrev S16x15x64 : Shape := ⟨3, ![16, 15, 64]⟩
abbrev S16x14x64 : Shape := ⟨3, ![16, 14, 64]⟩
abbrev S16x13x64 : Shape := ⟨3, ![16, 13, 64]⟩
abbrev S16x12x64 : Shape := ⟨3, ![16, 12, 64]⟩
abbrev S16x11x64 : Shape := ⟨3, ![16, 11, 64]⟩
abbrev S16x10x64 : Shape := ⟨3, ![16, 10, 64]⟩
abbrev S16x9x64 : Shape := ⟨3, ![16, 9, 64]⟩
abbrev S16x8x64 : Shape := ⟨3, ![16, 8, 64]⟩
abbrev S16x7x64 : Shape := ⟨3, ![16, 7, 64]⟩
abbrev S16x6x64 : Shape := ⟨3, ![16, 6, 64]⟩
abbrev S16x5x64 : Shape := ⟨3, ![16, 5, 64]⟩
abbrev S16x4x64 : Shape := ⟨3, ![16, 4, 64]⟩
abbrev S16x3x64 : Shape := ⟨3, ![16, 3, 64]⟩
abbrev S16x2x64 : Shape := ⟨3, ![16, 2, 64]⟩

abbrev nBuf : Space → Nat
  | .hbm => 2
  | .vmem => 4
  | .smem => 0
  | _ => 0

abbrev bufTy : (tb : Table) → Fin (tcTables nBuf tb) → BufTy
  | .hbm, ⟨0, _⟩ => ⟨S2048x1600x64, .f32⟩
  | .hbm, ⟨1, _⟩ => ⟨S2048x780x64, .f32⟩
  | .local _ .vmem, ⟨0, _⟩ => ⟨S16x1600x64, .f32⟩
  | .local _ .vmem, ⟨1, _⟩ => ⟨S16x1600x64, .f32⟩
  | .local _ .vmem, ⟨2, _⟩ => ⟨S16x780x64, .f32⟩
  | .local _ .vmem, ⟨3, _⟩ => ⟨S16x780x64, .f32⟩
  | _, _ => ⟨S2048x1600x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1600x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x780x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x1600x64_S16x39x64_0_1_0 : ∀ a, (![0, 1, 0] : Fin 3 → Nat) a + S16x39x64.size a ≤ S16x1600x64.size a
  h_S16x39x64 : 0 < S16x39x64.numel
  inb_S16x1600x64_S16x1x64_0_40_0 : ∀ a, (![0, 40, 0] : Fin 3 → Nat) a + S16x1x64.size a ≤ S16x1600x64.size a
  h_S16x1x64 : 0 < S16x1x64.numel
  shapeCasts_S16x1x64_S16x64 : S16x1x64.ShapeCasts S16x64
  inb_S16x1600x64_S16x1x64_0_80_0 : ∀ a, (![0, 80, 0] : Fin 3 → Nat) a + S16x1x64.size a ≤ S16x1600x64.size a
  inb_S16x1600x64_S16x1x64_0_120_0 : ∀ a, (![0, 120, 0] : Fin 3 → Nat) a + S16x1x64.size a ≤ S16x1600x64.size a
  inb_S16x1600x64_S16x1x64_0_160_0 : ∀ a, (![0, 160, 0] : Fin 3 → Nat) a + S16x1x64.size a ≤ S16x1600x64.size a
  inb_S16x1600x64_S16x1x64_0_200_0 : ∀ a, (![0, 200, 0] : Fin 3 → Nat) a + S16x1x64.size a ≤ S16x1600x64.size a
  inb_S16x1600x64_S16x1x64_0_240_0 : ∀ a, (![0, 240, 0] : Fin 3 → Nat) a + S16x1x64.size a ≤ S16x1600x64.size a
  inb_S16x1600x64_S16x1x64_0_280_0 : ∀ a, (![0, 280, 0] : Fin 3 → Nat) a + S16x1x64.size a ≤ S16x1600x64.size a
  inb_S16x1600x64_S16x1x64_0_320_0 : ∀ a, (![0, 320, 0] : Fin 3 → Nat) a + S16x1x64.size a ≤ S16x1600x64.size a
  inb_S16x1600x64_S16x1x64_0_360_0 : ∀ a, (![0, 360, 0] : Fin 3 → Nat) a + S16x1x64.size a ≤ S16x1600x64.size a
  inb_S16x1600x64_S16x1x64_0_400_0 : ∀ a, (![0, 400, 0] : Fin 3 → Nat) a + S16x1x64.size a ≤ S16x1600x64.size a
  inb_S16x1600x64_S16x1x64_0_440_0 : ∀ a, (![0, 440, 0] : Fin 3 → Nat) a + S16x1x64.size a ≤ S16x1600x64.size a
  inb_S16x1600x64_S16x1x64_0_480_0 : ∀ a, (![0, 480, 0] : Fin 3 → Nat) a + S16x1x64.size a ≤ S16x1600x64.size a
  inb_S16x1600x64_S16x1x64_0_520_0 : ∀ a, (![0, 520, 0] : Fin 3 → Nat) a + S16x1x64.size a ≤ S16x1600x64.size a
  inb_S16x1600x64_S16x1x64_0_560_0 : ∀ a, (![0, 560, 0] : Fin 3 → Nat) a + S16x1x64.size a ≤ S16x1600x64.size a
  inb_S16x1600x64_S16x1x64_0_600_0 : ∀ a, (![0, 600, 0] : Fin 3 → Nat) a + S16x1x64.size a ≤ S16x1600x64.size a
  inb_S16x1600x64_S16x1x64_0_640_0 : ∀ a, (![0, 640, 0] : Fin 3 → Nat) a + S16x1x64.size a ≤ S16x1600x64.size a
  inb_S16x1600x64_S16x1x64_0_680_0 : ∀ a, (![0, 680, 0] : Fin 3 → Nat) a + S16x1x64.size a ≤ S16x1600x64.size a
  inb_S16x1600x64_S16x1x64_0_720_0 : ∀ a, (![0, 720, 0] : Fin 3 → Nat) a + S16x1x64.size a ≤ S16x1600x64.size a
  inb_S16x1600x64_S16x1x64_0_760_0 : ∀ a, (![0, 760, 0] : Fin 3 → Nat) a + S16x1x64.size a ≤ S16x1600x64.size a
  inb_S16x1600x64_S16x1x64_0_800_0 : ∀ a, (![0, 800, 0] : Fin 3 → Nat) a + S16x1x64.size a ≤ S16x1600x64.size a
  inb_S16x1600x64_S16x1x64_0_840_0 : ∀ a, (![0, 840, 0] : Fin 3 → Nat) a + S16x1x64.size a ≤ S16x1600x64.size a
  inb_S16x1600x64_S16x1x64_0_880_0 : ∀ a, (![0, 880, 0] : Fin 3 → Nat) a + S16x1x64.size a ≤ S16x1600x64.size a
  inb_S16x1600x64_S16x1x64_0_920_0 : ∀ a, (![0, 920, 0] : Fin 3 → Nat) a + S16x1x64.size a ≤ S16x1600x64.size a
  inb_S16x1600x64_S16x1x64_0_960_0 : ∀ a, (![0, 960, 0] : Fin 3 → Nat) a + S16x1x64.size a ≤ S16x1600x64.size a
  inb_S16x1600x64_S16x1x64_0_1000_0 : ∀ a, (![0, 1000, 0] : Fin 3 → Nat) a + S16x1x64.size a ≤ S16x1600x64.size a
  inb_S16x1600x64_S16x1x64_0_1040_0 : ∀ a, (![0, 1040, 0] : Fin 3 → Nat) a + S16x1x64.size a ≤ S16x1600x64.size a
  inb_S16x1600x64_S16x1x64_0_1080_0 : ∀ a, (![0, 1080, 0] : Fin 3 → Nat) a + S16x1x64.size a ≤ S16x1600x64.size a
  inb_S16x1600x64_S16x1x64_0_1120_0 : ∀ a, (![0, 1120, 0] : Fin 3 → Nat) a + S16x1x64.size a ≤ S16x1600x64.size a
  inb_S16x1600x64_S16x1x64_0_1160_0 : ∀ a, (![0, 1160, 0] : Fin 3 → Nat) a + S16x1x64.size a ≤ S16x1600x64.size a
  inb_S16x1600x64_S16x1x64_0_1200_0 : ∀ a, (![0, 1200, 0] : Fin 3 → Nat) a + S16x1x64.size a ≤ S16x1600x64.size a
  inb_S16x1600x64_S16x1x64_0_1240_0 : ∀ a, (![0, 1240, 0] : Fin 3 → Nat) a + S16x1x64.size a ≤ S16x1600x64.size a
  inb_S16x1600x64_S16x1x64_0_1280_0 : ∀ a, (![0, 1280, 0] : Fin 3 → Nat) a + S16x1x64.size a ≤ S16x1600x64.size a
  inb_S16x1600x64_S16x1x64_0_1320_0 : ∀ a, (![0, 1320, 0] : Fin 3 → Nat) a + S16x1x64.size a ≤ S16x1600x64.size a
  inb_S16x1600x64_S16x1x64_0_1360_0 : ∀ a, (![0, 1360, 0] : Fin 3 → Nat) a + S16x1x64.size a ≤ S16x1600x64.size a
  inb_S16x1600x64_S16x1x64_0_1400_0 : ∀ a, (![0, 1400, 0] : Fin 3 → Nat) a + S16x1x64.size a ≤ S16x1600x64.size a
  inb_S16x1600x64_S16x1x64_0_1440_0 : ∀ a, (![0, 1440, 0] : Fin 3 → Nat) a + S16x1x64.size a ≤ S16x1600x64.size a
  inb_S16x1600x64_S16x1x64_0_1480_0 : ∀ a, (![0, 1480, 0] : Fin 3 → Nat) a + S16x1x64.size a ≤ S16x1600x64.size a
  inb_S16x1600x64_S16x1x64_0_1520_0 : ∀ a, (![0, 1520, 0] : Fin 3 → Nat) a + S16x1x64.size a ≤ S16x1600x64.size a
  inb_S16x1600x64_S16x1x64_0_1560_0 : ∀ a, (![0, 1560, 0] : Fin 3 → Nat) a + S16x1x64.size a ≤ S16x1600x64.size a
  shapeCasts_S16x64_S16x1x64 : S16x64.ShapeCasts S16x1x64
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x39x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x39x64 1
  inb_S16x780x64_S16x39x64_0_0_0 : ∀ a, (![0, 0, 0] : Fin 3 → Nat) a + S16x39x64.size a ≤ S16x780x64.size a
  inb_S16x1600x64_S16x38x64_0_42_0 : ∀ a, (![0, 42, 0] : Fin 3 → Nat) a + S16x38x64.size a ≤ S16x1600x64.size a
  h_S16x38x64 : 0 < S16x38x64.numel
  inb_S16x1600x64_S16x1x64_0_81_0 : ∀ a, (![0, 81, 0] : Fin 3 → Nat) a + S16x1x64.size a ≤ S16x1600x64.size a
  inb_S16x1600x64_S16x1x64_0_121_0 : ∀ a, (![0, 121, 0] : Fin 3 → Nat) a + S16x1x64.size a ≤ S16x1600x64.size a
  inb_S16x1600x64_S16x1x64_0_161_0 : ∀ a, (![0, 161, 0] : Fin 3 → Nat) a + S16x1x64.size a ≤ S16x1600x64.size a
  inb_S16x1600x64_S16x1x64_0_201_0 : ∀ a, (![0, 201, 0] : Fin 3 → Nat) a + S16x1x64.size a ≤ S16x1600x64.size a
  inb_S16x1600x64_S16x1x64_0_241_0 : ∀ a, (![0, 241, 0] : Fin 3 → Nat) a + S16x1x64.size a ≤ S16x1600x64.size a
  inb_S16x1600x64_S16x1x64_0_281_0 : ∀ a, (![0, 281, 0] : Fin 3 → Nat) a + S16x1x64.size a ≤ S16x1600x64.size a
  inb_S16x1600x64_S16x1x64_0_321_0 : ∀ a, (![0, 321, 0] : Fin 3 → Nat) a + S16x1x64.size a ≤ S16x1600x64.size a
  inb_S16x1600x64_S16x1x64_0_361_0 : ∀ a, (![0, 361, 0] : Fin 3 → Nat) a + S16x1x64.size a ≤ S16x1600x64.size a
  inb_S16x1600x64_S16x1x64_0_401_0 : ∀ a, (![0, 401, 0] : Fin 3 → Nat) a + S16x1x64.size a ≤ S16x1600x64.size a
  inb_S16x1600x64_S16x1x64_0_441_0 : ∀ a, (![0, 441, 0] : Fin 3 → Nat) a + S16x1x64.size a ≤ S16x1600x64.size a
  inb_S16x1600x64_S16x1x64_0_481_0 : ∀ a, (![0, 481, 0] : Fin 3 → Nat) a + S16x1x64.size a ≤ S16x1600x64.size a
  inb_S16x1600x64_S16x1x64_0_521_0 : ∀ a, (![0, 521, 0] : Fin 3 → Nat) a + S16x1x64.size a ≤ S16x1600x64.size a
  inb_S16x1600x64_S16x1x64_0_561_0 : ∀ a, (![0, 561, 0] : Fin 3 → Nat) a + S16x1x64.size a ≤ S16x1600x64.size a
  inb_S16x1600x64_S16x1x64_0_601_0 : ∀ a, (![0, 601, 0] : Fin 3 → Nat) a + S16x1x64.size a ≤ S16x1600x64.size a
  inb_S16x1600x64_S16x1x64_0_641_0 : ∀ a, (![0, 641, 0] : Fin 3 → Nat) a + S16x1x64.size a ≤ S16x1600x64.size a
  inb_S16x1600x64_S16x1x64_0_681_0 : ∀ a, (![0, 681, 0] : Fin 3 → Nat) a + S16x1x64.size a ≤ S16x1600x64.size a
  inb_S16x1600x64_S16x1x64_0_721_0 : ∀ a, (![0, 721, 0] : Fin 3 → Nat) a + S16x1x64.size a ≤ S16x1600x64.size a
  inb_S16x1600x64_S16x1x64_0_761_0 : ∀ a, (![0, 761, 0] : Fin 3 → Nat) a + S16x1x64.size a ≤ S16x1600x64.size a
  inb_S16x1600x64_S16x1x64_0_801_0 : ∀ a, (![0, 801, 0] : Fin 3 → Nat) a + S16x1x64.size a ≤ S16x1600x64.size a
  inb_S16x1600x64_S16x1x64_0_841_0 : ∀ a, (![0, 841, 0] : Fin 3 → Nat) a + S16x1x64.size a ≤ S16x1600x64.size a
  inb_S16x1600x64_S16x1x64_0_881_0 : ∀ a, (![0, 881, 0] : Fin 3 → Nat) a + S16x1x64.size a ≤ S16x1600x64.size a
  inb_S16x1600x64_S16x1x64_0_921_0 : ∀ a, (![0, 921, 0] : Fin 3 → Nat) a + S16x1x64.size a ≤ S16x1600x64.size a
  inb_S16x1600x64_S16x1x64_0_961_0 : ∀ a, (![0, 961, 0] : Fin 3 → Nat) a + S16x1x64.size a ≤ S16x1600x64.size a
  inb_S16x1600x64_S16x1x64_0_1001_0 : ∀ a, (![0, 1001, 0] : Fin 3 → Nat) a + S16x1x64.size a ≤ S16x1600x64.size a
  inb_S16x1600x64_S16x1x64_0_1041_0 : ∀ a, (![0, 1041, 0] : Fin 3 → Nat) a + S16x1x64.size a ≤ S16x1600x64.size a
  inb_S16x1600x64_S16x1x64_0_1081_0 : ∀ a, (![0, 1081, 0] : Fin 3 → Nat) a + S16x1x64.size a ≤ S16x1600x64.size a
  inb_S16x1600x64_S16x1x64_0_1121_0 : ∀ a, (![0, 1121, 0] : Fin 3 → Nat) a + S16x1x64.size a ≤ S16x1600x64.size a
  inb_S16x1600x64_S16x1x64_0_1161_0 : ∀ a, (![0, 1161, 0] : Fin 3 → Nat) a + S16x1x64.size a ≤ S16x1600x64.size a
  inb_S16x1600x64_S16x1x64_0_1201_0 : ∀ a, (![0, 1201, 0] : Fin 3 → Nat) a + S16x1x64.size a ≤ S16x1600x64.size a
  inb_S16x1600x64_S16x1x64_0_1241_0 : ∀ a, (![0, 1241, 0] : Fin 3 → Nat) a + S16x1x64.size a ≤ S16x1600x64.size a
  inb_S16x1600x64_S16x1x64_0_1281_0 : ∀ a, (![0, 1281, 0] : Fin 3 → Nat) a + S16x1x64.size a ≤ S16x1600x64.size a
  inb_S16x1600x64_S16x1x64_0_1321_0 : ∀ a, (![0, 1321, 0] : Fin 3 → Nat) a + S16x1x64.size a ≤ S16x1600x64.size a
  inb_S16x1600x64_S16x1x64_0_1361_0 : ∀ a, (![0, 1361, 0] : Fin 3 → Nat) a + S16x1x64.size a ≤ S16x1600x64.size a
  inb_S16x1600x64_S16x1x64_0_1401_0 : ∀ a, (![0, 1401, 0] : Fin 3 → Nat) a + S16x1x64.size a ≤ S16x1600x64.size a
  inb_S16x1600x64_S16x1x64_0_1441_0 : ∀ a, (![0, 1441, 0] : Fin 3 → Nat) a + S16x1x64.size a ≤ S16x1600x64.size a
  inb_S16x1600x64_S16x1x64_0_1481_0 : ∀ a, (![0, 1481, 0] : Fin 3 → Nat) a + S16x1x64.size a ≤ S16x1600x64.size a
  inb_S16x1600x64_S16x1x64_0_1521_0 : ∀ a, (![0, 1521, 0] : Fin 3 → Nat) a + S16x1x64.size a ≤ S16x1600x64.size a
  inb_S16x1600x64_S16x1x64_0_1561_0 : ∀ a, (![0, 1561, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x38x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x38x64 1
  inb_S16x780x64_S16x38x64_0_39_0 : ∀ a, (![0, 39, 0] : Fin 3 → Nat) a + S16x38x64.size a ≤ S16x780x64.size a
  inb_S16x1600x64_S16x37x64_0_83_0 : ∀ a, (![0, 83, 0] : Fin 3 → Nat) a + S16x37x64.size a ≤ S16x1600x64.size a
  h_S16x37x64 : 0 < S16x37x64.numel
  inb_S16x1600x64_S16x1x64_0_122_0 : ∀ a, (![0, 122, 0] : Fin 3 → Nat) a + S16x1x64.size a ≤ S16x1600x64.size a
  inb_S16x1600x64_S16x1x64_0_162_0 : ∀ a, (![0, 162, 0] : Fin 3 → Nat) a + S16x1x64.size a ≤ S16x1600x64.size a
  inb_S16x1600x64_S16x1x64_0_202_0 : ∀ a, (![0, 202, 0] : Fin 3 → Nat) a + S16x1x64.size a ≤ S16x1600x64.size a
  inb_S16x1600x64_S16x1x64_0_242_0 : ∀ a, (![0, 242, 0] : Fin 3 → Nat) a + S16x1x64.size a ≤ S16x1600x64.size a
  inb_S16x1600x64_S16x1x64_0_282_0 : ∀ a, (![0, 282, 0] : Fin 3 → Nat) a + S16x1x64.size a ≤ S16x1600x64.size a
  inb_S16x1600x64_S16x1x64_0_322_0 : ∀ a, (![0, 322, 0] : Fin 3 → Nat) a + S16x1x64.size a ≤ S16x1600x64.size a
  inb_S16x1600x64_S16x1x64_0_362_0 : ∀ a, (![0, 362, 0] : Fin 3 → Nat) a + S16x1x64.size a ≤ S16x1600x64.size a
  inb_S16x1600x64_S16x1x64_0_402_0 : ∀ a, (![0, 402, 0] : Fin 3 → Nat) a + S16x1x64.size a ≤ S16x1600x64.size a
  inb_S16x1600x64_S16x1x64_0_442_0 : ∀ a, (![0, 442, 0] : Fin 3 → Nat) a + S16x1x64.size a ≤ S16x1600x64.size a
  inb_S16x1600x64_S16x1x64_0_482_0 : ∀ a, (![0, 482, 0] : Fin 3 → Nat) a + S16x1x64.size a ≤ S16x1600x64.size a
  inb_S16x1600x64_S16x1x64_0_522_0 : ∀ a, (![0, 522, 0] : Fin 3 → Nat) a + S16x1x64.size a ≤ S16x1600x64.size a
  inb_S16x1600x64_S16x1x64_0_562_0 : ∀ a, (![0, 562, 0] : Fin 3 → Nat) a + S16x1x64.size a ≤ S16x1600x64.size a
  inb_S16x1600x64_S16x1x64_0_602_0 : ∀ a, (![0, 602, 0] : Fin 3 → Nat) a + S16x1x64.size a ≤ S16x1600x64.size a
  inb_S16x1600x64_S16x1x64_0_642_0 : ∀ a, (![0, 642, 0] : Fin 3 → Nat) a + S16x1x64.size a ≤ S16x1600x64.size a
  inb_S16x1600x64_S16x1x64_0_682_0 : ∀ a, (![0, 682, 0] : Fin 3 → Nat) a + S16x1x64.size a ≤ S16x1600x64.size a
  inb_S16x1600x64_S16x1x64_0_722_0 : ∀ a, (![0, 722, 0] : Fin 3 → Nat) a + S16x1x64.size a ≤ S16x1600x64.size a
  inb_S16x1600x64_S16x1x64_0_762_0 : ∀ a, (![0, 762, 0] : Fin 3 → Nat) a + S16x1x64.size a ≤ S16x1600x64.size a
  inb_S16x1600x64_S16x1x64_0_802_0 : ∀ a, (![0, 802, 0] : Fin 3 → Nat) a + S16x1x64.size a ≤ S16x1600x64.size a
  inb_S16x1600x64_S16x1x64_0_842_0 : ∀ a, (![0, 842, 0] : Fin 3 → Nat) a + S16x1x64.size a ≤ S16x1600x64.size a
  inb_S16x1600x64_S16x1x64_0_882_0 : ∀ a, (![0, 882, 0] : Fin 3 → Nat) a + S16x1x64.size a ≤ S16x1600x64.size a
  inb_S16x1600x64_S16x1x64_0_922_0 : ∀ a, (![0, 922, 0] : Fin 3 → Nat) a + S16x1x64.size a ≤ S16x1600x64.size a
  inb_S16x1600x64_S16x1x64_0_962_0 : ∀ a, (![0, 962, 0] : Fin 3 → Nat) a + S16x1x64.size a ≤ S16x1600x64.size a
  inb_S16x1600x64_S16x1x64_0_1002_0 : ∀ a, (![0, 1002, 0] : Fin 3 → Nat) a + S16x1x64.size a ≤ S16x1600x64.size a
  inb_S16x1600x64_S16x1x64_0_1042_0 : ∀ a, (![0, 1042, 0] : Fin 3 → Nat) a + S16x1x64.size a ≤ S16x1600x64.size a
  inb_S16x1600x64_S16x1x64_0_1082_0 : ∀ a, (![0, 1082, 0] : Fin 3 → Nat) a + S16x1x64.size a ≤ S16x1600x64.size a
  inb_S16x1600x64_S16x1x64_0_1122_0 : ∀ a, (![0, 1122, 0] : Fin 3 → Nat) a + S16x1x64.size a ≤ S16x1600x64.size a
  inb_S16x1600x64_S16x1x64_0_1162_0 : ∀ a, (![0, 1162, 0] : Fin 3 → Nat) a + S16x1x64.size a ≤ S16x1600x64.size a
  inb_S16x1600x64_S16x1x64_0_1202_0 : ∀ a, (![0, 1202, 0] : Fin 3 → Nat) a + S16x1x64.size a ≤ S16x1600x64.size a
  inb_S16x1600x64_S16x1x64_0_1242_0 : ∀ a, (![0, 1242, 0] : Fin 3 → Nat) a + S16x1x64.size a ≤ S16x1600x64.size a
  inb_S16x1600x64_S16x1x64_0_1282_0 : ∀ a, (![0, 1282, 0] : Fin 3 → Nat) a + S16x1x64.size a ≤ S16x1600x64.size a
  inb_S16x1600x64_S16x1x64_0_1322_0 : ∀ a, (![0, 1322, 0] : Fin 3 → Nat) a + S16x1x64.size a ≤ S16x1600x64.size a
  inb_S16x1600x64_S16x1x64_0_1362_0 : ∀ a, (![0, 1362, 0] : Fin 3 → Nat) a + S16x1x64.size a ≤ S16x1600x64.size a
  inb_S16x1600x64_S16x1x64_0_1402_0 : ∀ a, (![0, 1402, 0] : Fin 3 → Nat) a + S16x1x64.size a ≤ S16x1600x64.size a
  inb_S16x1600x64_S16x1x64_0_1442_0 : ∀ a, (![0, 1442, 0] : Fin 3 → Nat) a + S16x1x64.size a ≤ S16x1600x64.size a
  inb_S16x1600x64_S16x1x64_0_1482_0 : ∀ a, (![0, 1482, 0] : Fin 3 → Nat) a + S16x1x64.size a ≤ S16x1600x64.size a
  inb_S16x1600x64_S16x1x64_0_1522_0 : ∀ a, (![0, 1522, 0] : Fin 3 → Nat) a + S16x1x64.size a ≤ S16x1600x64.size a
  inb_S16x1600x64_S16x1x64_0_1562_0 : ∀ a, (![0, 1562, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x37x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x37x64 1
  inb_S16x780x64_S16x37x64_0_77_0 : ∀ a, (![0, 77, 0] : Fin 3 → Nat) a + S16x37x64.size a ≤ S16x780x64.size a
  inb_S16x1600x64_S16x36x64_0_124_0 : ∀ a, (![0, 124, 0] : Fin 3 → Nat) a + S16x36x64.size a ≤ S16x1600x64.size a
  h_S16x36x64 : 0 < S16x36x64.numel
  inb_S16x1600x64_S16x1x64_0_163_0 : ∀ a, (![0, 163, 0] : Fin 3 → Nat) a + S16x1x64.size a ≤ S16x1600x64.size a
  inb_S16x1600x64_S16x1x64_0_203_0 : ∀ a, (![0, 203, 0] : Fin 3 → Nat) a + S16x1x64.size a ≤ S16x1600x64.size a
  inb_S16x1600x64_S16x1x64_0_243_0 : ∀ a, (![0, 243, 0] : Fin 3 → Nat) a + S16x1x64.size a ≤ S16x1600x64.size a
  inb_S16x1600x64_S16x1x64_0_283_0 : ∀ a, (![0, 283, 0] : Fin 3 → Nat) a + S16x1x64.size a ≤ S16x1600x64.size a
  inb_S16x1600x64_S16x1x64_0_323_0 : ∀ a, (![0, 323, 0] : Fin 3 → Nat) a + S16x1x64.size a ≤ S16x1600x64.size a
  inb_S16x1600x64_S16x1x64_0_363_0 : ∀ a, (![0, 363, 0] : Fin 3 → Nat) a + S16x1x64.size a ≤ S16x1600x64.size a
  inb_S16x1600x64_S16x1x64_0_403_0 : ∀ a, (![0, 403, 0] : Fin 3 → Nat) a + S16x1x64.size a ≤ S16x1600x64.size a
  inb_S16x1600x64_S16x1x64_0_443_0 : ∀ a, (![0, 443, 0] : Fin 3 → Nat) a + S16x1x64.size a ≤ S16x1600x64.size a
  inb_S16x1600x64_S16x1x64_0_483_0 : ∀ a, (![0, 483, 0] : Fin 3 → Nat) a + S16x1x64.size a ≤ S16x1600x64.size a
  inb_S16x1600x64_S16x1x64_0_523_0 : ∀ a, (![0, 523, 0] : Fin 3 → Nat) a + S16x1x64.size a ≤ S16x1600x64.size a
  inb_S16x1600x64_S16x1x64_0_563_0 : ∀ a, (![0, 563, 0] : Fin 3 → Nat) a + S16x1x64.size a ≤ S16x1600x64.size a
  inb_S16x1600x64_S16x1x64_0_603_0 : ∀ a, (![0, 603, 0] : Fin 3 → Nat) a + S16x1x64.size a ≤ S16x1600x64.size a
  inb_S16x1600x64_S16x1x64_0_643_0 : ∀ a, (![0, 643, 0] : Fin 3 → Nat) a + S16x1x64.size a ≤ S16x1600x64.size a
  inb_S16x1600x64_S16x1x64_0_683_0 : ∀ a, (![0, 683, 0] : Fin 3 → Nat) a + S16x1x64.size a ≤ S16x1600x64.size a
  inb_S16x1600x64_S16x1x64_0_723_0 : ∀ a, (![0, 723, 0] : Fin 3 → Nat) a + S16x1x64.size a ≤ S16x1600x64.size a
  inb_S16x1600x64_S16x1x64_0_763_0 : ∀ a, (![0, 763, 0] : Fin 3 → Nat) a + S16x1x64.size a ≤ S16x1600x64.size a
  inb_S16x1600x64_S16x1x64_0_803_0 : ∀ a, (![0, 803, 0] : Fin 3 → Nat) a + S16x1x64.size a ≤ S16x1600x64.size a
  inb_S16x1600x64_S16x1x64_0_843_0 : ∀ a, (![0, 843, 0] : Fin 3 → Nat) a + S16x1x64.size a ≤ S16x1600x64.size a
  inb_S16x1600x64_S16x1x64_0_883_0 : ∀ a, (![0, 883, 0] : Fin 3 → Nat) a + S16x1x64.size a ≤ S16x1600x64.size a
  inb_S16x1600x64_S16x1x64_0_923_0 : ∀ a, (![0, 923, 0] : Fin 3 → Nat) a + S16x1x64.size a ≤ S16x1600x64.size a
  inb_S16x1600x64_S16x1x64_0_963_0 : ∀ a, (![0, 963, 0] : Fin 3 → Nat) a + S16x1x64.size a ≤ S16x1600x64.size a
  inb_S16x1600x64_S16x1x64_0_1003_0 : ∀ a, (![0, 1003, 0] : Fin 3 → Nat) a + S16x1x64.size a ≤ S16x1600x64.size a
  inb_S16x1600x64_S16x1x64_0_1043_0 : ∀ a, (![0, 1043, 0] : Fin 3 → Nat) a + S16x1x64.size a ≤ S16x1600x64.size a
  inb_S16x1600x64_S16x1x64_0_1083_0 : ∀ a, (![0, 1083, 0] : Fin 3 → Nat) a + S16x1x64.size a ≤ S16x1600x64.size a
  inb_S16x1600x64_S16x1x64_0_1123_0 : ∀ a, (![0, 1123, 0] : Fin 3 → Nat) a + S16x1x64.size a ≤ S16x1600x64.size a
  inb_S16x1600x64_S16x1x64_0_1163_0 : ∀ a, (![0, 1163, 0] : Fin 3 → Nat) a + S16x1x64.size a ≤ S16x1600x64.size a
  inb_S16x1600x64_S16x1x64_0_1203_0 : ∀ a, (![0, 1203, 0] : Fin 3 → Nat) a + S16x1x64.size a ≤ S16x1600x64.size a
  inb_S16x1600x64_S16x1x64_0_1243_0 : ∀ a, (![0, 1243, 0] : Fin 3 → Nat) a + S16x1x64.size a ≤ S16x1600x64.size a
  inb_S16x1600x64_S16x1x64_0_1283_0 : ∀ a, (![0, 1283, 0] : Fin 3 → Nat) a + S16x1x64.size a ≤ S16x1600x64.size a
  inb_S16x1600x64_S16x1x64_0_1323_0 : ∀ a, (![0, 1323, 0] : Fin 3 → Nat) a + S16x1x64.size a ≤ S16x1600x64.size a
  inb_S16x1600x64_S16x1x64_0_1363_0 : ∀ a, (![0, 1363, 0] : Fin 3 → Nat) a + S16x1x64.size a ≤ S16x1600x64.size a
  inb_S16x1600x64_S16x1x64_0_1403_0 : ∀ a, (![0, 1403, 0] : Fin 3 → Nat) a + S16x1x64.size a ≤ S16x1600x64.size a
  inb_S16x1600x64_S16x1x64_0_1443_0 : ∀ a, (![0, 1443, 0] : Fin 3 → Nat) a + S16x1x64.size a ≤ S16x1600x64.size a
  inb_S16x1600x64_S16x1x64_0_1483_0 : ∀ a, (![0, 1483, 0] : Fin 3 → Nat) a + S16x1x64.size a ≤ S16x1600x64.size a
  inb_S16x1600x64_S16x1x64_0_1523_0 : ∀ a, (![0, 1523, 0] : Fin 3 → Nat) a + S16x1x64.size a ≤ S16x1600x64.size a
  inb_S16x1600x64_S16x1x64_0_1563_0 : ∀ a, (![0, 1563, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x36x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x36x64 1
  inb_S16x780x64_S16x36x64_0_114_0 : ∀ a, (![0, 114, 0] : Fin 3 → Nat) a + S16x36x64.size a ≤ S16x780x64.size a
  inb_S16x1600x64_S16x35x64_0_165_0 : ∀ a, (![0, 165, 0] : Fin 3 → Nat) a + S16x35x64.size a ≤ S16x1600x64.size a
  h_S16x35x64 : 0 < S16x35x64.numel
  inb_S16x1600x64_S16x1x64_0_204_0 : ∀ a, (![0, 204, 0] : Fin 3 → Nat) a + S16x1x64.size a ≤ S16x1600x64.size a
  inb_S16x1600x64_S16x1x64_0_244_0 : ∀ a, (![0, 244, 0] : Fin 3 → Nat) a + S16x1x64.size a ≤ S16x1600x64.size a
  inb_S16x1600x64_S16x1x64_0_284_0 : ∀ a, (![0, 284, 0] : Fin 3 → Nat) a + S16x1x64.size a ≤ S16x1600x64.size a
  inb_S16x1600x64_S16x1x64_0_324_0 : ∀ a, (![0, 324, 0] : Fin 3 → Nat) a + S16x1x64.size a ≤ S16x1600x64.size a
  inb_S16x1600x64_S16x1x64_0_364_0 : ∀ a, (![0, 364, 0] : Fin 3 → Nat) a + S16x1x64.size a ≤ S16x1600x64.size a
  inb_S16x1600x64_S16x1x64_0_404_0 : ∀ a, (![0, 404, 0] : Fin 3 → Nat) a + S16x1x64.size a ≤ S16x1600x64.size a
  inb_S16x1600x64_S16x1x64_0_444_0 : ∀ a, (![0, 444, 0] : Fin 3 → Nat) a + S16x1x64.size a ≤ S16x1600x64.size a
  inb_S16x1600x64_S16x1x64_0_484_0 : ∀ a, (![0, 484, 0] : Fin 3 → Nat) a + S16x1x64.size a ≤ S16x1600x64.size a
  inb_S16x1600x64_S16x1x64_0_524_0 : ∀ a, (![0, 524, 0] : Fin 3 → Nat) a + S16x1x64.size a ≤ S16x1600x64.size a
  inb_S16x1600x64_S16x1x64_0_564_0 : ∀ a, (![0, 564, 0] : Fin 3 → Nat) a + S16x1x64.size a ≤ S16x1600x64.size a
  inb_S16x1600x64_S16x1x64_0_604_0 : ∀ a, (![0, 604, 0] : Fin 3 → Nat) a + S16x1x64.size a ≤ S16x1600x64.size a
  inb_S16x1600x64_S16x1x64_0_644_0 : ∀ a, (![0, 644, 0] : Fin 3 → Nat) a + S16x1x64.size a ≤ S16x1600x64.size a
  inb_S16x1600x64_S16x1x64_0_684_0 : ∀ a, (![0, 684, 0] : Fin 3 → Nat) a + S16x1x64.size a ≤ S16x1600x64.size a
  inb_S16x1600x64_S16x1x64_0_724_0 : ∀ a, (![0, 724, 0] : Fin 3 → Nat) a + S16x1x64.size a ≤ S16x1600x64.size a
  inb_S16x1600x64_S16x1x64_0_764_0 : ∀ a, (![0, 764, 0] : Fin 3 → Nat) a + S16x1x64.size a ≤ S16x1600x64.size a
  inb_S16x1600x64_S16x1x64_0_804_0 : ∀ a, (![0, 804, 0] : Fin 3 → Nat) a + S16x1x64.size a ≤ S16x1600x64.size a
  inb_S16x1600x64_S16x1x64_0_844_0 : ∀ a, (![0, 844, 0] : Fin 3 → Nat) a + S16x1x64.size a ≤ S16x1600x64.size a
  inb_S16x1600x64_S16x1x64_0_884_0 : ∀ a, (![0, 884, 0] : Fin 3 → Nat) a + S16x1x64.size a ≤ S16x1600x64.size a
  inb_S16x1600x64_S16x1x64_0_924_0 : ∀ a, (![0, 924, 0] : Fin 3 → Nat) a + S16x1x64.size a ≤ S16x1600x64.size a
  inb_S16x1600x64_S16x1x64_0_964_0 : ∀ a, (![0, 964, 0] : Fin 3 → Nat) a + S16x1x64.size a ≤ S16x1600x64.size a
  inb_S16x1600x64_S16x1x64_0_1004_0 : ∀ a, (![0, 1004, 0] : Fin 3 → Nat) a + S16x1x64.size a ≤ S16x1600x64.size a
  inb_S16x1600x64_S16x1x64_0_1044_0 : ∀ a, (![0, 1044, 0] : Fin 3 → Nat) a + S16x1x64.size a ≤ S16x1600x64.size a
  inb_S16x1600x64_S16x1x64_0_1084_0 : ∀ a, (![0, 1084, 0] : Fin 3 → Nat) a + S16x1x64.size a ≤ S16x1600x64.size a
  inb_S16x1600x64_S16x1x64_0_1124_0 : ∀ a, (![0, 1124, 0] : Fin 3 → Nat) a + S16x1x64.size a ≤ S16x1600x64.size a
  inb_S16x1600x64_S16x1x64_0_1164_0 : ∀ a, (![0, 1164, 0] : Fin 3 → Nat) a + S16x1x64.size a ≤ S16x1600x64.size a
  inb_S16x1600x64_S16x1x64_0_1204_0 : ∀ a, (![0, 1204, 0] : Fin 3 → Nat) a + S16x1x64.size a ≤ S16x1600x64.size a
  inb_S16x1600x64_S16x1x64_0_1244_0 : ∀ a, (![0, 1244, 0] : Fin 3 → Nat) a + S16x1x64.size a ≤ S16x1600x64.size a
  inb_S16x1600x64_S16x1x64_0_1284_0 : ∀ a, (![0, 1284, 0] : Fin 3 → Nat) a + S16x1x64.size a ≤ S16x1600x64.size a
  inb_S16x1600x64_S16x1x64_0_1324_0 : ∀ a, (![0, 1324, 0] : Fin 3 → Nat) a + S16x1x64.size a ≤ S16x1600x64.size a
  inb_S16x1600x64_S16x1x64_0_1364_0 : ∀ a, (![0, 1364, 0] : Fin 3 → Nat) a + S16x1x64.size a ≤ S16x1600x64.size a
  inb_S16x1600x64_S16x1x64_0_1404_0 : ∀ a, (![0, 1404, 0] : Fin 3 → Nat) a + S16x1x64.size a ≤ S16x1600x64.size a
  inb_S16x1600x64_S16x1x64_0_1444_0 : ∀ a, (![0, 1444, 0] : Fin 3 → Nat) a + S16x1x64.size a ≤ S16x1600x64.size a
  inb_S16x1600x64_S16x1x64_0_1484_0 : ∀ a, (![0, 1484, 0] : Fin 3 → Nat) a + S16x1x64.size a ≤ S16x1600x64.size a
  inb_S16x1600x64_S16x1x64_0_1524_0 : ∀ a, (![0, 1524, 0] : Fin 3 → Nat) a + S16x1x64.size a ≤ S16x1600x64.size a
  inb_S16x1600x64_S16x1x64_0_1564_0 : ∀ a, (![0, 1564, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x35x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x35x64 1
  inb_S16x780x64_S16x35x64_0_150_0 : ∀ a, (![0, 150, 0] : Fin 3 → Nat) a + S16x35x64.size a ≤ S16x780x64.size a
  inb_S16x1600x64_S16x34x64_0_206_0 : ∀ a, (![0, 206, 0] : Fin 3 → Nat) a + S16x34x64.size a ≤ S16x1600x64.size a
  h_S16x34x64 : 0 < S16x34x64.numel
  inb_S16x1600x64_S16x1x64_0_245_0 : ∀ a, (![0, 245, 0] : Fin 3 → Nat) a + S16x1x64.size a ≤ S16x1600x64.size a
  inb_S16x1600x64_S16x1x64_0_285_0 : ∀ a, (![0, 285, 0] : Fin 3 → Nat) a + S16x1x64.size a ≤ S16x1600x64.size a
  inb_S16x1600x64_S16x1x64_0_325_0 : ∀ a, (![0, 325, 0] : Fin 3 → Nat) a + S16x1x64.size a ≤ S16x1600x64.size a
  inb_S16x1600x64_S16x1x64_0_365_0 : ∀ a, (![0, 365, 0] : Fin 3 → Nat) a + S16x1x64.size a ≤ S16x1600x64.size a
  inb_S16x1600x64_S16x1x64_0_405_0 : ∀ a, (![0, 405, 0] : Fin 3 → Nat) a + S16x1x64.size a ≤ S16x1600x64.size a
  inb_S16x1600x64_S16x1x64_0_445_0 : ∀ a, (![0, 445, 0] : Fin 3 → Nat) a + S16x1x64.size a ≤ S16x1600x64.size a
  inb_S16x1600x64_S16x1x64_0_485_0 : ∀ a, (![0, 485, 0] : Fin 3 → Nat) a + S16x1x64.size a ≤ S16x1600x64.size a
  inb_S16x1600x64_S16x1x64_0_525_0 : ∀ a, (![0, 525, 0] : Fin 3 → Nat) a + S16x1x64.size a ≤ S16x1600x64.size a
  inb_S16x1600x64_S16x1x64_0_565_0 : ∀ a, (![0, 565, 0] : Fin 3 → Nat) a + S16x1x64.size a ≤ S16x1600x64.size a
  inb_S16x1600x64_S16x1x64_0_605_0 : ∀ a, (![0, 605, 0] : Fin 3 → Nat) a + S16x1x64.size a ≤ S16x1600x64.size a
  inb_S16x1600x64_S16x1x64_0_645_0 : ∀ a, (![0, 645, 0] : Fin 3 → Nat) a + S16x1x64.size a ≤ S16x1600x64.size a
  inb_S16x1600x64_S16x1x64_0_685_0 : ∀ a, (![0, 685, 0] : Fin 3 → Nat) a + S16x1x64.size a ≤ S16x1600x64.size a
  inb_S16x1600x64_S16x1x64_0_725_0 : ∀ a, (![0, 725, 0] : Fin 3 → Nat) a + S16x1x64.size a ≤ S16x1600x64.size a
  inb_S16x1600x64_S16x1x64_0_765_0 : ∀ a, (![0, 765, 0] : Fin 3 → Nat) a + S16x1x64.size a ≤ S16x1600x64.size a
  inb_S16x1600x64_S16x1x64_0_805_0 : ∀ a, (![0, 805, 0] : Fin 3 → Nat) a + S16x1x64.size a ≤ S16x1600x64.size a
  inb_S16x1600x64_S16x1x64_0_845_0 : ∀ a, (![0, 845, 0] : Fin 3 → Nat) a + S16x1x64.size a ≤ S16x1600x64.size a
  inb_S16x1600x64_S16x1x64_0_885_0 : ∀ a, (![0, 885, 0] : Fin 3 → Nat) a + S16x1x64.size a ≤ S16x1600x64.size a
  inb_S16x1600x64_S16x1x64_0_925_0 : ∀ a, (![0, 925, 0] : Fin 3 → Nat) a + S16x1x64.size a ≤ S16x1600x64.size a
  inb_S16x1600x64_S16x1x64_0_965_0 : ∀ a, (![0, 965, 0] : Fin 3 → Nat) a + S16x1x64.size a ≤ S16x1600x64.size a
  inb_S16x1600x64_S16x1x64_0_1005_0 : ∀ a, (![0, 1005, 0] : Fin 3 → Nat) a + S16x1x64.size a ≤ S16x1600x64.size a
  inb_S16x1600x64_S16x1x64_0_1045_0 : ∀ a, (![0, 1045, 0] : Fin 3 → Nat) a + S16x1x64.size a ≤ S16x1600x64.size a
  inb_S16x1600x64_S16x1x64_0_1085_0 : ∀ a, (![0, 1085, 0] : Fin 3 → Nat) a + S16x1x64.size a ≤ S16x1600x64.size a
  inb_S16x1600x64_S16x1x64_0_1125_0 : ∀ a, (![0, 1125, 0] : Fin 3 → Nat) a + S16x1x64.size a ≤ S16x1600x64.size a
  inb_S16x1600x64_S16x1x64_0_1165_0 : ∀ a, (![0, 1165, 0] : Fin 3 → Nat) a + S16x1x64.size a ≤ S16x1600x64.size a
  inb_S16x1600x64_S16x1x64_0_1205_0 : ∀ a, (![0, 1205, 0] : Fin 3 → Nat) a + S16x1x64.size a ≤ S16x1600x64.size a
  inb_S16x1600x64_S16x1x64_0_1245_0 : ∀ a, (![0, 1245, 0] : Fin 3 → Nat) a + S16x1x64.size a ≤ S16x1600x64.size a
  inb_S16x1600x64_S16x1x64_0_1285_0 : ∀ a, (![0, 1285, 0] : Fin 3 → Nat) a + S16x1x64.size a ≤ S16x1600x64.size a
  inb_S16x1600x64_S16x1x64_0_1325_0 : ∀ a, (![0, 1325, 0] : Fin 3 → Nat) a + S16x1x64.size a ≤ S16x1600x64.size a
  inb_S16x1600x64_S16x1x64_0_1365_0 : ∀ a, (![0, 1365, 0] : Fin 3 → Nat) a + S16x1x64.size a ≤ S16x1600x64.size a
  inb_S16x1600x64_S16x1x64_0_1405_0 : ∀ a, (![0, 1405, 0] : Fin 3 → Nat) a + S16x1x64.size a ≤ S16x1600x64.size a
  inb_S16x1600x64_S16x1x64_0_1445_0 : ∀ a, (![0, 1445, 0] : Fin 3 → Nat) a + S16x1x64.size a ≤ S16x1600x64.size a
  inb_S16x1600x64_S16x1x64_0_1485_0 : ∀ a, (![0, 1485, 0] : Fin 3 → Nat) a + S16x1x64.size a ≤ S16x1600x64.size a
  inb_S16x1600x64_S16x1x64_0_1525_0 : ∀ a, (![0, 1525, 0] : Fin 3 → Nat) a + S16x1x64.size a ≤ S16x1600x64.size a
  inb_S16x1600x64_S16x1x64_0_1565_0 : ∀ a, (![0, 1565, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x34x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x34x64 1
  inb_S16x780x64_S16x34x64_0_185_0 : ∀ a, (![0, 185, 0] : Fin 3 → Nat) a + S16x34x64.size a ≤ S16x780x64.size a
  inb_S16x1600x64_S16x33x64_0_247_0 : ∀ a, (![0, 247, 0] : Fin 3 → Nat) a + S16x33x64.size a ≤ S16x1600x64.size a
  h_S16x33x64 : 0 < S16x33x64.numel
  inb_S16x1600x64_S16x1x64_0_286_0 : ∀ a, (![0, 286, 0] : Fin 3 → Nat) a + S16x1x64.size a ≤ S16x1600x64.size a
  inb_S16x1600x64_S16x1x64_0_326_0 : ∀ a, (![0, 326, 0] : Fin 3 → Nat) a + S16x1x64.size a ≤ S16x1600x64.size a
  inb_S16x1600x64_S16x1x64_0_366_0 : ∀ a, (![0, 366, 0] : Fin 3 → Nat) a + S16x1x64.size a ≤ S16x1600x64.size a
  inb_S16x1600x64_S16x1x64_0_406_0 : ∀ a, (![0, 406, 0] : Fin 3 → Nat) a + S16x1x64.size a ≤ S16x1600x64.size a
  inb_S16x1600x64_S16x1x64_0_446_0 : ∀ a, (![0, 446, 0] : Fin 3 → Nat) a + S16x1x64.size a ≤ S16x1600x64.size a
  inb_S16x1600x64_S16x1x64_0_486_0 : ∀ a, (![0, 486, 0] : Fin 3 → Nat) a + S16x1x64.size a ≤ S16x1600x64.size a
  inb_S16x1600x64_S16x1x64_0_526_0 : ∀ a, (![0, 526, 0] : Fin 3 → Nat) a + S16x1x64.size a ≤ S16x1600x64.size a
  inb_S16x1600x64_S16x1x64_0_566_0 : ∀ a, (![0, 566, 0] : Fin 3 → Nat) a + S16x1x64.size a ≤ S16x1600x64.size a
  inb_S16x1600x64_S16x1x64_0_606_0 : ∀ a, (![0, 606, 0] : Fin 3 → Nat) a + S16x1x64.size a ≤ S16x1600x64.size a
  inb_S16x1600x64_S16x1x64_0_646_0 : ∀ a, (![0, 646, 0] : Fin 3 → Nat) a + S16x1x64.size a ≤ S16x1600x64.size a
  inb_S16x1600x64_S16x1x64_0_686_0 : ∀ a, (![0, 686, 0] : Fin 3 → Nat) a + S16x1x64.size a ≤ S16x1600x64.size a
  inb_S16x1600x64_S16x1x64_0_726_0 : ∀ a, (![0, 726, 0] : Fin 3 → Nat) a + S16x1x64.size a ≤ S16x1600x64.size a
  inb_S16x1600x64_S16x1x64_0_766_0 : ∀ a, (![0, 766, 0] : Fin 3 → Nat) a + S16x1x64.size a ≤ S16x1600x64.size a
  inb_S16x1600x64_S16x1x64_0_806_0 : ∀ a, (![0, 806, 0] : Fin 3 → Nat) a + S16x1x64.size a ≤ S16x1600x64.size a
  inb_S16x1600x64_S16x1x64_0_846_0 : ∀ a, (![0, 846, 0] : Fin 3 → Nat) a + S16x1x64.size a ≤ S16x1600x64.size a
  inb_S16x1600x64_S16x1x64_0_886_0 : ∀ a, (![0, 886, 0] : Fin 3 → Nat) a + S16x1x64.size a ≤ S16x1600x64.size a
  inb_S16x1600x64_S16x1x64_0_926_0 : ∀ a, (![0, 926, 0] : Fin 3 → Nat) a + S16x1x64.size a ≤ S16x1600x64.size a
  inb_S16x1600x64_S16x1x64_0_966_0 : ∀ a, (![0, 966, 0] : Fin 3 → Nat) a + S16x1x64.size a ≤ S16x1600x64.size a
  inb_S16x1600x64_S16x1x64_0_1006_0 : ∀ a, (![0, 1006, 0] : Fin 3 → Nat) a + S16x1x64.size a ≤ S16x1600x64.size a
  inb_S16x1600x64_S16x1x64_0_1046_0 : ∀ a, (![0, 1046, 0] : Fin 3 → Nat) a + S16x1x64.size a ≤ S16x1600x64.size a
  inb_S16x1600x64_S16x1x64_0_1086_0 : ∀ a, (![0, 1086, 0] : Fin 3 → Nat) a + S16x1x64.size a ≤ S16x1600x64.size a
  inb_S16x1600x64_S16x1x64_0_1126_0 : ∀ a, (![0, 1126, 0] : Fin 3 → Nat) a + S16x1x64.size a ≤ S16x1600x64.size a
  inb_S16x1600x64_S16x1x64_0_1166_0 : ∀ a, (![0, 1166, 0] : Fin 3 → Nat) a + S16x1x64.size a ≤ S16x1600x64.size a
  inb_S16x1600x64_S16x1x64_0_1206_0 : ∀ a, (![0, 1206, 0] : Fin 3 → Nat) a + S16x1x64.size a ≤ S16x1600x64.size a
  inb_S16x1600x64_S16x1x64_0_1246_0 : ∀ a, (![0, 1246, 0] : Fin 3 → Nat) a + S16x1x64.size a ≤ S16x1600x64.size a
  inb_S16x1600x64_S16x1x64_0_1286_0 : ∀ a, (![0, 1286, 0] : Fin 3 → Nat) a + S16x1x64.size a ≤ S16x1600x64.size a
  inb_S16x1600x64_S16x1x64_0_1326_0 : ∀ a, (![0, 1326, 0] : Fin 3 → Nat) a + S16x1x64.size a ≤ S16x1600x64.size a
  inb_S16x1600x64_S16x1x64_0_1366_0 : ∀ a, (![0, 1366, 0] : Fin 3 → Nat) a + S16x1x64.size a ≤ S16x1600x64.size a
  inb_S16x1600x64_S16x1x64_0_1406_0 : ∀ a, (![0, 1406, 0] : Fin 3 → Nat) a + S16x1x64.size a ≤ S16x1600x64.size a
  inb_S16x1600x64_S16x1x64_0_1446_0 : ∀ a, (![0, 1446, 0] : Fin 3 → Nat) a + S16x1x64.size a ≤ S16x1600x64.size a
  inb_S16x1600x64_S16x1x64_0_1486_0 : ∀ a, (![0, 1486, 0] : Fin 3 → Nat) a + S16x1x64.size a ≤ S16x1600x64.size a
  inb_S16x1600x64_S16x1x64_0_1526_0 : ∀ a, (![0, 1526, 0] : Fin 3 → Nat) a + S16x1x64.size a ≤ S16x1600x64.size a
  inb_S16x1600x64_S16x1x64_0_1566_0 : ∀ a, (![0, 1566, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x33x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x33x64 1
  inb_S16x780x64_S16x33x64_0_219_0 : ∀ a, (![0, 219, 0] : Fin 3 → Nat) a + S16x33x64.size a ≤ S16x780x64.size a
  inb_S16x1600x64_S16x32x64_0_288_0 : ∀ a, (![0, 288, 0] : Fin 3 → Nat) a + S16x32x64.size a ≤ S16x1600x64.size a
  h_S16x32x64 : 0 < S16x32x64.numel
  inb_S16x1600x64_S16x1x64_0_327_0 : ∀ a, (![0, 327, 0] : Fin 3 → Nat) a + S16x1x64.size a ≤ S16x1600x64.size a
  inb_S16x1600x64_S16x1x64_0_367_0 : ∀ a, (![0, 367, 0] : Fin 3 → Nat) a + S16x1x64.size a ≤ S16x1600x64.size a
  inb_S16x1600x64_S16x1x64_0_407_0 : ∀ a, (![0, 407, 0] : Fin 3 → Nat) a + S16x1x64.size a ≤ S16x1600x64.size a
  inb_S16x1600x64_S16x1x64_0_447_0 : ∀ a, (![0, 447, 0] : Fin 3 → Nat) a + S16x1x64.size a ≤ S16x1600x64.size a
  inb_S16x1600x64_S16x1x64_0_487_0 : ∀ a, (![0, 487, 0] : Fin 3 → Nat) a + S16x1x64.size a ≤ S16x1600x64.size a
  inb_S16x1600x64_S16x1x64_0_527_0 : ∀ a, (![0, 527, 0] : Fin 3 → Nat) a + S16x1x64.size a ≤ S16x1600x64.size a
  inb_S16x1600x64_S16x1x64_0_567_0 : ∀ a, (![0, 567, 0] : Fin 3 → Nat) a + S16x1x64.size a ≤ S16x1600x64.size a
  inb_S16x1600x64_S16x1x64_0_607_0 : ∀ a, (![0, 607, 0] : Fin 3 → Nat) a + S16x1x64.size a ≤ S16x1600x64.size a
  inb_S16x1600x64_S16x1x64_0_647_0 : ∀ a, (![0, 647, 0] : Fin 3 → Nat) a + S16x1x64.size a ≤ S16x1600x64.size a
  inb_S16x1600x64_S16x1x64_0_687_0 : ∀ a, (![0, 687, 0] : Fin 3 → Nat) a + S16x1x64.size a ≤ S16x1600x64.size a
  inb_S16x1600x64_S16x1x64_0_727_0 : ∀ a, (![0, 727, 0] : Fin 3 → Nat) a + S16x1x64.size a ≤ S16x1600x64.size a
  inb_S16x1600x64_S16x1x64_0_767_0 : ∀ a, (![0, 767, 0] : Fin 3 → Nat) a + S16x1x64.size a ≤ S16x1600x64.size a
  inb_S16x1600x64_S16x1x64_0_807_0 : ∀ a, (![0, 807, 0] : Fin 3 → Nat) a + S16x1x64.size a ≤ S16x1600x64.size a
  inb_S16x1600x64_S16x1x64_0_847_0 : ∀ a, (![0, 847, 0] : Fin 3 → Nat) a + S16x1x64.size a ≤ S16x1600x64.size a
  inb_S16x1600x64_S16x1x64_0_887_0 : ∀ a, (![0, 887, 0] : Fin 3 → Nat) a + S16x1x64.size a ≤ S16x1600x64.size a
  inb_S16x1600x64_S16x1x64_0_927_0 : ∀ a, (![0, 927, 0] : Fin 3 → Nat) a + S16x1x64.size a ≤ S16x1600x64.size a
  inb_S16x1600x64_S16x1x64_0_967_0 : ∀ a, (![0, 967, 0] : Fin 3 → Nat) a + S16x1x64.size a ≤ S16x1600x64.size a
  inb_S16x1600x64_S16x1x64_0_1007_0 : ∀ a, (![0, 1007, 0] : Fin 3 → Nat) a + S16x1x64.size a ≤ S16x1600x64.size a
  inb_S16x1600x64_S16x1x64_0_1047_0 : ∀ a, (![0, 1047, 0] : Fin 3 → Nat) a + S16x1x64.size a ≤ S16x1600x64.size a
  inb_S16x1600x64_S16x1x64_0_1087_0 : ∀ a, (![0, 1087, 0] : Fin 3 → Nat) a + S16x1x64.size a ≤ S16x1600x64.size a
  inb_S16x1600x64_S16x1x64_0_1127_0 : ∀ a, (![0, 1127, 0] : Fin 3 → Nat) a + S16x1x64.size a ≤ S16x1600x64.size a
  inb_S16x1600x64_S16x1x64_0_1167_0 : ∀ a, (![0, 1167, 0] : Fin 3 → Nat) a + S16x1x64.size a ≤ S16x1600x64.size a
  inb_S16x1600x64_S16x1x64_0_1207_0 : ∀ a, (![0, 1207, 0] : Fin 3 → Nat) a + S16x1x64.size a ≤ S16x1600x64.size a
  inb_S16x1600x64_S16x1x64_0_1247_0 : ∀ a, (![0, 1247, 0] : Fin 3 → Nat) a + S16x1x64.size a ≤ S16x1600x64.size a
  inb_S16x1600x64_S16x1x64_0_1287_0 : ∀ a, (![0, 1287, 0] : Fin 3 → Nat) a + S16x1x64.size a ≤ S16x1600x64.size a
  inb_S16x1600x64_S16x1x64_0_1327_0 : ∀ a, (![0, 1327, 0] : Fin 3 → Nat) a + S16x1x64.size a ≤ S16x1600x64.size a
  inb_S16x1600x64_S16x1x64_0_1367_0 : ∀ a, (![0, 1367, 0] : Fin 3 → Nat) a + S16x1x64.size a ≤ S16x1600x64.size a
  inb_S16x1600x64_S16x1x64_0_1407_0 : ∀ a, (![0, 1407, 0] : Fin 3 → Nat) a + S16x1x64.size a ≤ S16x1600x64.size a
  inb_S16x1600x64_S16x1x64_0_1447_0 : ∀ a, (![0, 1447, 0] : Fin 3 → Nat) a + S16x1x64.size a ≤ S16x1600x64.size a
  inb_S16x1600x64_S16x1x64_0_1487_0 : ∀ a, (![0, 1487, 0] : Fin 3 → Nat) a + S16x1x64.size a ≤ S16x1600x64.size a
  inb_S16x1600x64_S16x1x64_0_1527_0 : ∀ a, (![0, 1527, 0] : Fin 3 → Nat) a + S16x1x64.size a ≤ S16x1600x64.size a
  inb_S16x1600x64_S16x1x64_0_1567_0 : ∀ a, (![0, 1567, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x32x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x32x64 1
  inb_S16x780x64_S16x32x64_0_252_0 : ∀ a, (![0, 252, 0] : Fin 3 → Nat) a + S16x32x64.size a ≤ S16x780x64.size a
  inb_S16x1600x64_S16x31x64_0_329_0 : ∀ a, (![0, 329, 0] : Fin 3 → Nat) a + S16x31x64.size a ≤ S16x1600x64.size a
  h_S16x31x64 : 0 < S16x31x64.numel
  inb_S16x1600x64_S16x1x64_0_368_0 : ∀ a, (![0, 368, 0] : Fin 3 → Nat) a + S16x1x64.size a ≤ S16x1600x64.size a
  inb_S16x1600x64_S16x1x64_0_408_0 : ∀ a, (![0, 408, 0] : Fin 3 → Nat) a + S16x1x64.size a ≤ S16x1600x64.size a
  inb_S16x1600x64_S16x1x64_0_448_0 : ∀ a, (![0, 448, 0] : Fin 3 → Nat) a + S16x1x64.size a ≤ S16x1600x64.size a
  inb_S16x1600x64_S16x1x64_0_488_0 : ∀ a, (![0, 488, 0] : Fin 3 → Nat) a + S16x1x64.size a ≤ S16x1600x64.size a
  inb_S16x1600x64_S16x1x64_0_528_0 : ∀ a, (![0, 528, 0] : Fin 3 → Nat) a + S16x1x64.size a ≤ S16x1600x64.size a
  inb_S16x1600x64_S16x1x64_0_568_0 : ∀ a, (![0, 568, 0] : Fin 3 → Nat) a + S16x1x64.size a ≤ S16x1600x64.size a
  inb_S16x1600x64_S16x1x64_0_608_0 : ∀ a, (![0, 608, 0] : Fin 3 → Nat) a + S16x1x64.size a ≤ S16x1600x64.size a
  inb_S16x1600x64_S16x1x64_0_648_0 : ∀ a, (![0, 648, 0] : Fin 3 → Nat) a + S16x1x64.size a ≤ S16x1600x64.size a
  inb_S16x1600x64_S16x1x64_0_688_0 : ∀ a, (![0, 688, 0] : Fin 3 → Nat) a + S16x1x64.size a ≤ S16x1600x64.size a
  inb_S16x1600x64_S16x1x64_0_728_0 : ∀ a, (![0, 728, 0] : Fin 3 → Nat) a + S16x1x64.size a ≤ S16x1600x64.size a
  inb_S16x1600x64_S16x1x64_0_768_0 : ∀ a, (![0, 768, 0] : Fin 3 → Nat) a + S16x1x64.size a ≤ S16x1600x64.size a
  inb_S16x1600x64_S16x1x64_0_808_0 : ∀ a, (![0, 808, 0] : Fin 3 → Nat) a + S16x1x64.size a ≤ S16x1600x64.size a
  inb_S16x1600x64_S16x1x64_0_848_0 : ∀ a, (![0, 848, 0] : Fin 3 → Nat) a + S16x1x64.size a ≤ S16x1600x64.size a
  inb_S16x1600x64_S16x1x64_0_888_0 : ∀ a, (![0, 888, 0] : Fin 3 → Nat) a + S16x1x64.size a ≤ S16x1600x64.size a
  inb_S16x1600x64_S16x1x64_0_928_0 : ∀ a, (![0, 928, 0] : Fin 3 → Nat) a + S16x1x64.size a ≤ S16x1600x64.size a
  inb_S16x1600x64_S16x1x64_0_968_0 : ∀ a, (![0, 968, 0] : Fin 3 → Nat) a + S16x1x64.size a ≤ S16x1600x64.size a
  inb_S16x1600x64_S16x1x64_0_1008_0 : ∀ a, (![0, 1008, 0] : Fin 3 → Nat) a + S16x1x64.size a ≤ S16x1600x64.size a
  inb_S16x1600x64_S16x1x64_0_1048_0 : ∀ a, (![0, 1048, 0] : Fin 3 → Nat) a + S16x1x64.size a ≤ S16x1600x64.size a
  inb_S16x1600x64_S16x1x64_0_1088_0 : ∀ a, (![0, 1088, 0] : Fin 3 → Nat) a + S16x1x64.size a ≤ S16x1600x64.size a
  inb_S16x1600x64_S16x1x64_0_1128_0 : ∀ a, (![0, 1128, 0] : Fin 3 → Nat) a + S16x1x64.size a ≤ S16x1600x64.size a
  inb_S16x1600x64_S16x1x64_0_1168_0 : ∀ a, (![0, 1168, 0] : Fin 3 → Nat) a + S16x1x64.size a ≤ S16x1600x64.size a
  inb_S16x1600x64_S16x1x64_0_1208_0 : ∀ a, (![0, 1208, 0] : Fin 3 → Nat) a + S16x1x64.size a ≤ S16x1600x64.size a
  inb_S16x1600x64_S16x1x64_0_1248_0 : ∀ a, (![0, 1248, 0] : Fin 3 → Nat) a + S16x1x64.size a ≤ S16x1600x64.size a
  inb_S16x1600x64_S16x1x64_0_1288_0 : ∀ a, (![0, 1288, 0] : Fin 3 → Nat) a + S16x1x64.size a ≤ S16x1600x64.size a
  inb_S16x1600x64_S16x1x64_0_1328_0 : ∀ a, (![0, 1328, 0] : Fin 3 → Nat) a + S16x1x64.size a ≤ S16x1600x64.size a
  inb_S16x1600x64_S16x1x64_0_1368_0 : ∀ a, (![0, 1368, 0] : Fin 3 → Nat) a + S16x1x64.size a ≤ S16x1600x64.size a
  inb_S16x1600x64_S16x1x64_0_1408_0 : ∀ a, (![0, 1408, 0] : Fin 3 → Nat) a + S16x1x64.size a ≤ S16x1600x64.size a
  inb_S16x1600x64_S16x1x64_0_1448_0 : ∀ a, (![0, 1448, 0] : Fin 3 → Nat) a + S16x1x64.size a ≤ S16x1600x64.size a
  inb_S16x1600x64_S16x1x64_0_1488_0 : ∀ a, (![0, 1488, 0] : Fin 3 → Nat) a + S16x1x64.size a ≤ S16x1600x64.size a
  inb_S16x1600x64_S16x1x64_0_1528_0 : ∀ a, (![0, 1528, 0] : Fin 3 → Nat) a + S16x1x64.size a ≤ S16x1600x64.size a
  inb_S16x1600x64_S16x1x64_0_1568_0 : ∀ a, (![0, 1568, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x31x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x31x64 1
  inb_S16x780x64_S16x31x64_0_284_0 : ∀ a, (![0, 284, 0] : Fin 3 → Nat) a + S16x31x64.size a ≤ S16x780x64.size a
  inb_S16x1600x64_S16x30x64_0_370_0 : ∀ a, (![0, 370, 0] : Fin 3 → Nat) a + S16x30x64.size a ≤ S16x1600x64.size a
  h_S16x30x64 : 0 < S16x30x64.numel
  inb_S16x1600x64_S16x1x64_0_409_0 : ∀ a, (![0, 409, 0] : Fin 3 → Nat) a + S16x1x64.size a ≤ S16x1600x64.size a
  inb_S16x1600x64_S16x1x64_0_449_0 : ∀ a, (![0, 449, 0] : Fin 3 → Nat) a + S16x1x64.size a ≤ S16x1600x64.size a
  inb_S16x1600x64_S16x1x64_0_489_0 : ∀ a, (![0, 489, 0] : Fin 3 → Nat) a + S16x1x64.size a ≤ S16x1600x64.size a
  inb_S16x1600x64_S16x1x64_0_529_0 : ∀ a, (![0, 529, 0] : Fin 3 → Nat) a + S16x1x64.size a ≤ S16x1600x64.size a
  inb_S16x1600x64_S16x1x64_0_569_0 : ∀ a, (![0, 569, 0] : Fin 3 → Nat) a + S16x1x64.size a ≤ S16x1600x64.size a
  inb_S16x1600x64_S16x1x64_0_609_0 : ∀ a, (![0, 609, 0] : Fin 3 → Nat) a + S16x1x64.size a ≤ S16x1600x64.size a
  inb_S16x1600x64_S16x1x64_0_649_0 : ∀ a, (![0, 649, 0] : Fin 3 → Nat) a + S16x1x64.size a ≤ S16x1600x64.size a
  inb_S16x1600x64_S16x1x64_0_689_0 : ∀ a, (![0, 689, 0] : Fin 3 → Nat) a + S16x1x64.size a ≤ S16x1600x64.size a
  inb_S16x1600x64_S16x1x64_0_729_0 : ∀ a, (![0, 729, 0] : Fin 3 → Nat) a + S16x1x64.size a ≤ S16x1600x64.size a
  inb_S16x1600x64_S16x1x64_0_769_0 : ∀ a, (![0, 769, 0] : Fin 3 → Nat) a + S16x1x64.size a ≤ S16x1600x64.size a
  inb_S16x1600x64_S16x1x64_0_809_0 : ∀ a, (![0, 809, 0] : Fin 3 → Nat) a + S16x1x64.size a ≤ S16x1600x64.size a
  inb_S16x1600x64_S16x1x64_0_849_0 : ∀ a, (![0, 849, 0] : Fin 3 → Nat) a + S16x1x64.size a ≤ S16x1600x64.size a
  inb_S16x1600x64_S16x1x64_0_889_0 : ∀ a, (![0, 889, 0] : Fin 3 → Nat) a + S16x1x64.size a ≤ S16x1600x64.size a
  inb_S16x1600x64_S16x1x64_0_929_0 : ∀ a, (![0, 929, 0] : Fin 3 → Nat) a + S16x1x64.size a ≤ S16x1600x64.size a
  inb_S16x1600x64_S16x1x64_0_969_0 : ∀ a, (![0, 969, 0] : Fin 3 → Nat) a + S16x1x64.size a ≤ S16x1600x64.size a
  inb_S16x1600x64_S16x1x64_0_1009_0 : ∀ a, (![0, 1009, 0] : Fin 3 → Nat) a + S16x1x64.size a ≤ S16x1600x64.size a
  inb_S16x1600x64_S16x1x64_0_1049_0 : ∀ a, (![0, 1049, 0] : Fin 3 → Nat) a + S16x1x64.size a ≤ S16x1600x64.size a
  inb_S16x1600x64_S16x1x64_0_1089_0 : ∀ a, (![0, 1089, 0] : Fin 3 → Nat) a + S16x1x64.size a ≤ S16x1600x64.size a
  inb_S16x1600x64_S16x1x64_0_1129_0 : ∀ a, (![0, 1129, 0] : Fin 3 → Nat) a + S16x1x64.size a ≤ S16x1600x64.size a
  inb_S16x1600x64_S16x1x64_0_1169_0 : ∀ a, (![0, 1169, 0] : Fin 3 → Nat) a + S16x1x64.size a ≤ S16x1600x64.size a
  inb_S16x1600x64_S16x1x64_0_1209_0 : ∀ a, (![0, 1209, 0] : Fin 3 → Nat) a + S16x1x64.size a ≤ S16x1600x64.size a
  inb_S16x1600x64_S16x1x64_0_1249_0 : ∀ a, (![0, 1249, 0] : Fin 3 → Nat) a + S16x1x64.size a ≤ S16x1600x64.size a
  inb_S16x1600x64_S16x1x64_0_1289_0 : ∀ a, (![0, 1289, 0] : Fin 3 → Nat) a + S16x1x64.size a ≤ S16x1600x64.size a
  inb_S16x1600x64_S16x1x64_0_1329_0 : ∀ a, (![0, 1329, 0] : Fin 3 → Nat) a + S16x1x64.size a ≤ S16x1600x64.size a
  inb_S16x1600x64_S16x1x64_0_1369_0 : ∀ a, (![0, 1369, 0] : Fin 3 → Nat) a + S16x1x64.size a ≤ S16x1600x64.size a
  inb_S16x1600x64_S16x1x64_0_1409_0 : ∀ a, (![0, 1409, 0] : Fin 3 → Nat) a + S16x1x64.size a ≤ S16x1600x64.size a
  inb_S16x1600x64_S16x1x64_0_1449_0 : ∀ a, (![0, 1449, 0] : Fin 3 → Nat) a + S16x1x64.size a ≤ S16x1600x64.size a
  inb_S16x1600x64_S16x1x64_0_1489_0 : ∀ a, (![0, 1489, 0] : Fin 3 → Nat) a + S16x1x64.size a ≤ S16x1600x64.size a
  inb_S16x1600x64_S16x1x64_0_1529_0 : ∀ a, (![0, 1529, 0] : Fin 3 → Nat) a + S16x1x64.size a ≤ S16x1600x64.size a
  inb_S16x1600x64_S16x1x64_0_1569_0 : ∀ a, (![0, 1569, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x30x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x30x64 1
  inb_S16x780x64_S16x30x64_0_315_0 : ∀ a, (![0, 315, 0] : Fin 3 → Nat) a + S16x30x64.size a ≤ S16x780x64.size a
  inb_S16x1600x64_S16x29x64_0_411_0 : ∀ a, (![0, 411, 0] : Fin 3 → Nat) a + S16x29x64.size a ≤ S16x1600x64.size a
  h_S16x29x64 : 0 < S16x29x64.numel
  inb_S16x1600x64_S16x1x64_0_450_0 : ∀ a, (![0, 450, 0] : Fin 3 → Nat) a + S16x1x64.size a ≤ S16x1600x64.size a
  inb_S16x1600x64_S16x1x64_0_490_0 : ∀ a, (![0, 490, 0] : Fin 3 → Nat) a + S16x1x64.size a ≤ S16x1600x64.size a
  inb_S16x1600x64_S16x1x64_0_530_0 : ∀ a, (![0, 530, 0] : Fin 3 → Nat) a + S16x1x64.size a ≤ S16x1600x64.size a
  inb_S16x1600x64_S16x1x64_0_570_0 : ∀ a, (![0, 570, 0] : Fin 3 → Nat) a + S16x1x64.size a ≤ S16x1600x64.size a
  inb_S16x1600x64_S16x1x64_0_610_0 : ∀ a, (![0, 610, 0] : Fin 3 → Nat) a + S16x1x64.size a ≤ S16x1600x64.size a
  inb_S16x1600x64_S16x1x64_0_650_0 : ∀ a, (![0, 650, 0] : Fin 3 → Nat) a + S16x1x64.size a ≤ S16x1600x64.size a
  inb_S16x1600x64_S16x1x64_0_690_0 : ∀ a, (![0, 690, 0] : Fin 3 → Nat) a + S16x1x64.size a ≤ S16x1600x64.size a
  inb_S16x1600x64_S16x1x64_0_730_0 : ∀ a, (![0, 730, 0] : Fin 3 → Nat) a + S16x1x64.size a ≤ S16x1600x64.size a
  inb_S16x1600x64_S16x1x64_0_770_0 : ∀ a, (![0, 770, 0] : Fin 3 → Nat) a + S16x1x64.size a ≤ S16x1600x64.size a
  inb_S16x1600x64_S16x1x64_0_810_0 : ∀ a, (![0, 810, 0] : Fin 3 → Nat) a + S16x1x64.size a ≤ S16x1600x64.size a
  inb_S16x1600x64_S16x1x64_0_850_0 : ∀ a, (![0, 850, 0] : Fin 3 → Nat) a + S16x1x64.size a ≤ S16x1600x64.size a
  inb_S16x1600x64_S16x1x64_0_890_0 : ∀ a, (![0, 890, 0] : Fin 3 → Nat) a + S16x1x64.size a ≤ S16x1600x64.size a
  inb_S16x1600x64_S16x1x64_0_930_0 : ∀ a, (![0, 930, 0] : Fin 3 → Nat) a + S16x1x64.size a ≤ S16x1600x64.size a
  inb_S16x1600x64_S16x1x64_0_970_0 : ∀ a, (![0, 970, 0] : Fin 3 → Nat) a + S16x1x64.size a ≤ S16x1600x64.size a
  inb_S16x1600x64_S16x1x64_0_1010_0 : ∀ a, (![0, 1010, 0] : Fin 3 → Nat) a + S16x1x64.size a ≤ S16x1600x64.size a
  inb_S16x1600x64_S16x1x64_0_1050_0 : ∀ a, (![0, 1050, 0] : Fin 3 → Nat) a + S16x1x64.size a ≤ S16x1600x64.size a
  inb_S16x1600x64_S16x1x64_0_1090_0 : ∀ a, (![0, 1090, 0] : Fin 3 → Nat) a + S16x1x64.size a ≤ S16x1600x64.size a
  inb_S16x1600x64_S16x1x64_0_1130_0 : ∀ a, (![0, 1130, 0] : Fin 3 → Nat) a + S16x1x64.size a ≤ S16x1600x64.size a
  inb_S16x1600x64_S16x1x64_0_1170_0 : ∀ a, (![0, 1170, 0] : Fin 3 → Nat) a + S16x1x64.size a ≤ S16x1600x64.size a
  inb_S16x1600x64_S16x1x64_0_1210_0 : ∀ a, (![0, 1210, 0] : Fin 3 → Nat) a + S16x1x64.size a ≤ S16x1600x64.size a
  inb_S16x1600x64_S16x1x64_0_1250_0 : ∀ a, (![0, 1250, 0] : Fin 3 → Nat) a + S16x1x64.size a ≤ S16x1600x64.size a
  inb_S16x1600x64_S16x1x64_0_1290_0 : ∀ a, (![0, 1290, 0] : Fin 3 → Nat) a + S16x1x64.size a ≤ S16x1600x64.size a
  inb_S16x1600x64_S16x1x64_0_1330_0 : ∀ a, (![0, 1330, 0] : Fin 3 → Nat) a + S16x1x64.size a ≤ S16x1600x64.size a
  inb_S16x1600x64_S16x1x64_0_1370_0 : ∀ a, (![0, 1370, 0] : Fin 3 → Nat) a + S16x1x64.size a ≤ S16x1600x64.size a
  inb_S16x1600x64_S16x1x64_0_1410_0 : ∀ a, (![0, 1410, 0] : Fin 3 → Nat) a + S16x1x64.size a ≤ S16x1600x64.size a
  inb_S16x1600x64_S16x1x64_0_1450_0 : ∀ a, (![0, 1450, 0] : Fin 3 → Nat) a + S16x1x64.size a ≤ S16x1600x64.size a
  inb_S16x1600x64_S16x1x64_0_1490_0 : ∀ a, (![0, 1490, 0] : Fin 3 → Nat) a + S16x1x64.size a ≤ S16x1600x64.size a
  inb_S16x1600x64_S16x1x64_0_1530_0 : ∀ a, (![0, 1530, 0] : Fin 3 → Nat) a + S16x1x64.size a ≤ S16x1600x64.size a
  inb_S16x1600x64_S16x1x64_0_1570_0 : ∀ a, (![0, 1570, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x29x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x29x64 1
  inb_S16x780x64_S16x29x64_0_345_0 : ∀ a, (![0, 345, 0] : Fin 3 → Nat) a + S16x29x64.size a ≤ S16x780x64.size a
  inb_S16x1600x64_S16x28x64_0_452_0 : ∀ a, (![0, 452, 0] : Fin 3 → Nat) a + S16x28x64.size a ≤ S16x1600x64.size a
  h_S16x28x64 : 0 < S16x28x64.numel
  inb_S16x1600x64_S16x1x64_0_491_0 : ∀ a, (![0, 491, 0] : Fin 3 → Nat) a + S16x1x64.size a ≤ S16x1600x64.size a
  inb_S16x1600x64_S16x1x64_0_531_0 : ∀ a, (![0, 531, 0] : Fin 3 → Nat) a + S16x1x64.size a ≤ S16x1600x64.size a
  inb_S16x1600x64_S16x1x64_0_571_0 : ∀ a, (![0, 571, 0] : Fin 3 → Nat) a + S16x1x64.size a ≤ S16x1600x64.size a
  inb_S16x1600x64_S16x1x64_0_611_0 : ∀ a, (![0, 611, 0] : Fin 3 → Nat) a + S16x1x64.size a ≤ S16x1600x64.size a
  inb_S16x1600x64_S16x1x64_0_651_0 : ∀ a, (![0, 651, 0] : Fin 3 → Nat) a + S16x1x64.size a ≤ S16x1600x64.size a
  inb_S16x1600x64_S16x1x64_0_691_0 : ∀ a, (![0, 691, 0] : Fin 3 → Nat) a + S16x1x64.size a ≤ S16x1600x64.size a
  inb_S16x1600x64_S16x1x64_0_731_0 : ∀ a, (![0, 731, 0] : Fin 3 → Nat) a + S16x1x64.size a ≤ S16x1600x64.size a
  inb_S16x1600x64_S16x1x64_0_771_0 : ∀ a, (![0, 771, 0] : Fin 3 → Nat) a + S16x1x64.size a ≤ S16x1600x64.size a
  inb_S16x1600x64_S16x1x64_0_811_0 : ∀ a, (![0, 811, 0] : Fin 3 → Nat) a + S16x1x64.size a ≤ S16x1600x64.size a
  inb_S16x1600x64_S16x1x64_0_851_0 : ∀ a, (![0, 851, 0] : Fin 3 → Nat) a + S16x1x64.size a ≤ S16x1600x64.size a
  inb_S16x1600x64_S16x1x64_0_891_0 : ∀ a, (![0, 891, 0] : Fin 3 → Nat) a + S16x1x64.size a ≤ S16x1600x64.size a
  inb_S16x1600x64_S16x1x64_0_931_0 : ∀ a, (![0, 931, 0] : Fin 3 → Nat) a + S16x1x64.size a ≤ S16x1600x64.size a
  inb_S16x1600x64_S16x1x64_0_971_0 : ∀ a, (![0, 971, 0] : Fin 3 → Nat) a + S16x1x64.size a ≤ S16x1600x64.size a
  inb_S16x1600x64_S16x1x64_0_1011_0 : ∀ a, (![0, 1011, 0] : Fin 3 → Nat) a + S16x1x64.size a ≤ S16x1600x64.size a
  inb_S16x1600x64_S16x1x64_0_1051_0 : ∀ a, (![0, 1051, 0] : Fin 3 → Nat) a + S16x1x64.size a ≤ S16x1600x64.size a
  inb_S16x1600x64_S16x1x64_0_1091_0 : ∀ a, (![0, 1091, 0] : Fin 3 → Nat) a + S16x1x64.size a ≤ S16x1600x64.size a
  inb_S16x1600x64_S16x1x64_0_1131_0 : ∀ a, (![0, 1131, 0] : Fin 3 → Nat) a + S16x1x64.size a ≤ S16x1600x64.size a
  inb_S16x1600x64_S16x1x64_0_1171_0 : ∀ a, (![0, 1171, 0] : Fin 3 → Nat) a + S16x1x64.size a ≤ S16x1600x64.size a
  inb_S16x1600x64_S16x1x64_0_1211_0 : ∀ a, (![0, 1211, 0] : Fin 3 → Nat) a + S16x1x64.size a ≤ S16x1600x64.size a
  inb_S16x1600x64_S16x1x64_0_1251_0 : ∀ a, (![0, 1251, 0] : Fin 3 → Nat) a + S16x1x64.size a ≤ S16x1600x64.size a
  inb_S16x1600x64_S16x1x64_0_1291_0 : ∀ a, (![0, 1291, 0] : Fin 3 → Nat) a + S16x1x64.size a ≤ S16x1600x64.size a
  inb_S16x1600x64_S16x1x64_0_1331_0 : ∀ a, (![0, 1331, 0] : Fin 3 → Nat) a + S16x1x64.size a ≤ S16x1600x64.size a
  inb_S16x1600x64_S16x1x64_0_1371_0 : ∀ a, (![0, 1371, 0] : Fin 3 → Nat) a + S16x1x64.size a ≤ S16x1600x64.size a
  inb_S16x1600x64_S16x1x64_0_1411_0 : ∀ a, (![0, 1411, 0] : Fin 3 → Nat) a + S16x1x64.size a ≤ S16x1600x64.size a
  inb_S16x1600x64_S16x1x64_0_1451_0 : ∀ a, (![0, 1451, 0] : Fin 3 → Nat) a + S16x1x64.size a ≤ S16x1600x64.size a
  inb_S16x1600x64_S16x1x64_0_1491_0 : ∀ a, (![0, 1491, 0] : Fin 3 → Nat) a + S16x1x64.size a ≤ S16x1600x64.size a
  inb_S16x1600x64_S16x1x64_0_1531_0 : ∀ a, (![0, 1531, 0] : Fin 3 → Nat) a + S16x1x64.size a ≤ S16x1600x64.size a
  inb_S16x1600x64_S16x1x64_0_1571_0 : ∀ a, (![0, 1571, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x28x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x28x64 1
  inb_S16x780x64_S16x28x64_0_374_0 : ∀ a, (![0, 374, 0] : Fin 3 → Nat) a + S16x28x64.size a ≤ S16x780x64.size a
  inb_S16x1600x64_S16x27x64_0_493_0 : ∀ a, (![0, 493, 0] : Fin 3 → Nat) a + S16x27x64.size a ≤ S16x1600x64.size a
  h_S16x27x64 : 0 < S16x27x64.numel
  inb_S16x1600x64_S16x1x64_0_532_0 : ∀ a, (![0, 532, 0] : Fin 3 → Nat) a + S16x1x64.size a ≤ S16x1600x64.size a
  inb_S16x1600x64_S16x1x64_0_572_0 : ∀ a, (![0, 572, 0] : Fin 3 → Nat) a + S16x1x64.size a ≤ S16x1600x64.size a
  inb_S16x1600x64_S16x1x64_0_612_0 : ∀ a, (![0, 612, 0] : Fin 3 → Nat) a + S16x1x64.size a ≤ S16x1600x64.size a
  inb_S16x1600x64_S16x1x64_0_652_0 : ∀ a, (![0, 652, 0] : Fin 3 → Nat) a + S16x1x64.size a ≤ S16x1600x64.size a
  inb_S16x1600x64_S16x1x64_0_692_0 : ∀ a, (![0, 692, 0] : Fin 3 → Nat) a + S16x1x64.size a ≤ S16x1600x64.size a
  inb_S16x1600x64_S16x1x64_0_732_0 : ∀ a, (![0, 732, 0] : Fin 3 → Nat) a + S16x1x64.size a ≤ S16x1600x64.size a
  inb_S16x1600x64_S16x1x64_0_772_0 : ∀ a, (![0, 772, 0] : Fin 3 → Nat) a + S16x1x64.size a ≤ S16x1600x64.size a
  inb_S16x1600x64_S16x1x64_0_812_0 : ∀ a, (![0, 812, 0] : Fin 3 → Nat) a + S16x1x64.size a ≤ S16x1600x64.size a
  inb_S16x1600x64_S16x1x64_0_852_0 : ∀ a, (![0, 852, 0] : Fin 3 → Nat) a + S16x1x64.size a ≤ S16x1600x64.size a
  inb_S16x1600x64_S16x1x64_0_892_0 : ∀ a, (![0, 892, 0] : Fin 3 → Nat) a + S16x1x64.size a ≤ S16x1600x64.size a
  inb_S16x1600x64_S16x1x64_0_932_0 : ∀ a, (![0, 932, 0] : Fin 3 → Nat) a + S16x1x64.size a ≤ S16x1600x64.size a
  inb_S16x1600x64_S16x1x64_0_972_0 : ∀ a, (![0, 972, 0] : Fin 3 → Nat) a + S16x1x64.size a ≤ S16x1600x64.size a
  inb_S16x1600x64_S16x1x64_0_1012_0 : ∀ a, (![0, 1012, 0] : Fin 3 → Nat) a + S16x1x64.size a ≤ S16x1600x64.size a
  inb_S16x1600x64_S16x1x64_0_1052_0 : ∀ a, (![0, 1052, 0] : Fin 3 → Nat) a + S16x1x64.size a ≤ S16x1600x64.size a
  inb_S16x1600x64_S16x1x64_0_1092_0 : ∀ a, (![0, 1092, 0] : Fin 3 → Nat) a + S16x1x64.size a ≤ S16x1600x64.size a
  inb_S16x1600x64_S16x1x64_0_1132_0 : ∀ a, (![0, 1132, 0] : Fin 3 → Nat) a + S16x1x64.size a ≤ S16x1600x64.size a
  inb_S16x1600x64_S16x1x64_0_1172_0 : ∀ a, (![0, 1172, 0] : Fin 3 → Nat) a + S16x1x64.size a ≤ S16x1600x64.size a
  inb_S16x1600x64_S16x1x64_0_1212_0 : ∀ a, (![0, 1212, 0] : Fin 3 → Nat) a + S16x1x64.size a ≤ S16x1600x64.size a
  inb_S16x1600x64_S16x1x64_0_1252_0 : ∀ a, (![0, 1252, 0] : Fin 3 → Nat) a + S16x1x64.size a ≤ S16x1600x64.size a
  inb_S16x1600x64_S16x1x64_0_1292_0 : ∀ a, (![0, 1292, 0] : Fin 3 → Nat) a + S16x1x64.size a ≤ S16x1600x64.size a
  inb_S16x1600x64_S16x1x64_0_1332_0 : ∀ a, (![0, 1332, 0] : Fin 3 → Nat) a + S16x1x64.size a ≤ S16x1600x64.size a
  inb_S16x1600x64_S16x1x64_0_1372_0 : ∀ a, (![0, 1372, 0] : Fin 3 → Nat) a + S16x1x64.size a ≤ S16x1600x64.size a
  inb_S16x1600x64_S16x1x64_0_1412_0 : ∀ a, (![0, 1412, 0] : Fin 3 → Nat) a + S16x1x64.size a ≤ S16x1600x64.size a
  inb_S16x1600x64_S16x1x64_0_1452_0 : ∀ a, (![0, 1452, 0] : Fin 3 → Nat) a + S16x1x64.size a ≤ S16x1600x64.size a
  inb_S16x1600x64_S16x1x64_0_1492_0 : ∀ a, (![0, 1492, 0] : Fin 3 → Nat) a + S16x1x64.size a ≤ S16x1600x64.size a
  inb_S16x1600x64_S16x1x64_0_1532_0 : ∀ a, (![0, 1532, 0] : Fin 3 → Nat) a + S16x1x64.size a ≤ S16x1600x64.size a
  inb_S16x1600x64_S16x1x64_0_1572_0 : ∀ a, (![0, 1572, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x27x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x27x64 1
  inb_S16x780x64_S16x27x64_0_402_0 : ∀ a, (![0, 402, 0] : Fin 3 → Nat) a + S16x27x64.size a ≤ S16x780x64.size a
  inb_S16x1600x64_S16x26x64_0_534_0 : ∀ a, (![0, 534, 0] : Fin 3 → Nat) a + S16x26x64.size a ≤ S16x1600x64.size a
  h_S16x26x64 : 0 < S16x26x64.numel
  inb_S16x1600x64_S16x1x64_0_573_0 : ∀ a, (![0, 573, 0] : Fin 3 → Nat) a + S16x1x64.size a ≤ S16x1600x64.size a
  inb_S16x1600x64_S16x1x64_0_613_0 : ∀ a, (![0, 613, 0] : Fin 3 → Nat) a + S16x1x64.size a ≤ S16x1600x64.size a
  inb_S16x1600x64_S16x1x64_0_653_0 : ∀ a, (![0, 653, 0] : Fin 3 → Nat) a + S16x1x64.size a ≤ S16x1600x64.size a
  inb_S16x1600x64_S16x1x64_0_693_0 : ∀ a, (![0, 693, 0] : Fin 3 → Nat) a + S16x1x64.size a ≤ S16x1600x64.size a
  inb_S16x1600x64_S16x1x64_0_733_0 : ∀ a, (![0, 733, 0] : Fin 3 → Nat) a + S16x1x64.size a ≤ S16x1600x64.size a
  inb_S16x1600x64_S16x1x64_0_773_0 : ∀ a, (![0, 773, 0] : Fin 3 → Nat) a + S16x1x64.size a ≤ S16x1600x64.size a
  inb_S16x1600x64_S16x1x64_0_813_0 : ∀ a, (![0, 813, 0] : Fin 3 → Nat) a + S16x1x64.size a ≤ S16x1600x64.size a
  inb_S16x1600x64_S16x1x64_0_853_0 : ∀ a, (![0, 853, 0] : Fin 3 → Nat) a + S16x1x64.size a ≤ S16x1600x64.size a
  inb_S16x1600x64_S16x1x64_0_893_0 : ∀ a, (![0, 893, 0] : Fin 3 → Nat) a + S16x1x64.size a ≤ S16x1600x64.size a
  inb_S16x1600x64_S16x1x64_0_933_0 : ∀ a, (![0, 933, 0] : Fin 3 → Nat) a + S16x1x64.size a ≤ S16x1600x64.size a
  inb_S16x1600x64_S16x1x64_0_973_0 : ∀ a, (![0, 973, 0] : Fin 3 → Nat) a + S16x1x64.size a ≤ S16x1600x64.size a
  inb_S16x1600x64_S16x1x64_0_1013_0 : ∀ a, (![0, 1013, 0] : Fin 3 → Nat) a + S16x1x64.size a ≤ S16x1600x64.size a
  inb_S16x1600x64_S16x1x64_0_1053_0 : ∀ a, (![0, 1053, 0] : Fin 3 → Nat) a + S16x1x64.size a ≤ S16x1600x64.size a
  inb_S16x1600x64_S16x1x64_0_1093_0 : ∀ a, (![0, 1093, 0] : Fin 3 → Nat) a + S16x1x64.size a ≤ S16x1600x64.size a
  inb_S16x1600x64_S16x1x64_0_1133_0 : ∀ a, (![0, 1133, 0] : Fin 3 → Nat) a + S16x1x64.size a ≤ S16x1600x64.size a
  inb_S16x1600x64_S16x1x64_0_1173_0 : ∀ a, (![0, 1173, 0] : Fin 3 → Nat) a + S16x1x64.size a ≤ S16x1600x64.size a
  inb_S16x1600x64_S16x1x64_0_1213_0 : ∀ a, (![0, 1213, 0] : Fin 3 → Nat) a + S16x1x64.size a ≤ S16x1600x64.size a
  inb_S16x1600x64_S16x1x64_0_1253_0 : ∀ a, (![0, 1253, 0] : Fin 3 → Nat) a + S16x1x64.size a ≤ S16x1600x64.size a
  inb_S16x1600x64_S16x1x64_0_1293_0 : ∀ a, (![0, 1293, 0] : Fin 3 → Nat) a + S16x1x64.size a ≤ S16x1600x64.size a
  inb_S16x1600x64_S16x1x64_0_1333_0 : ∀ a, (![0, 1333, 0] : Fin 3 → Nat) a + S16x1x64.size a ≤ S16x1600x64.size a
  inb_S16x1600x64_S16x1x64_0_1373_0 : ∀ a, (![0, 1373, 0] : Fin 3 → Nat) a + S16x1x64.size a ≤ S16x1600x64.size a
  inb_S16x1600x64_S16x1x64_0_1413_0 : ∀ a, (![0, 1413, 0] : Fin 3 → Nat) a + S16x1x64.size a ≤ S16x1600x64.size a
  inb_S16x1600x64_S16x1x64_0_1453_0 : ∀ a, (![0, 1453, 0] : Fin 3 → Nat) a + S16x1x64.size a ≤ S16x1600x64.size a
  inb_S16x1600x64_S16x1x64_0_1493_0 : ∀ a, (![0, 1493, 0] : Fin 3 → Nat) a + S16x1x64.size a ≤ S16x1600x64.size a
  inb_S16x1600x64_S16x1x64_0_1533_0 : ∀ a, (![0, 1533, 0] : Fin 3 → Nat) a + S16x1x64.size a ≤ S16x1600x64.size a
  inb_S16x1600x64_S16x1x64_0_1573_0 : ∀ a, (![0, 1573, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x26x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x26x64 1
  inb_S16x780x64_S16x26x64_0_429_0 : ∀ a, (![0, 429, 0] : Fin 3 → Nat) a + S16x26x64.size a ≤ S16x780x64.size a
  inb_S16x1600x64_S16x25x64_0_575_0 : ∀ a, (![0, 575, 0] : Fin 3 → Nat) a + S16x25x64.size a ≤ S16x1600x64.size a
  h_S16x25x64 : 0 < S16x25x64.numel
  inb_S16x1600x64_S16x1x64_0_614_0 : ∀ a, (![0, 614, 0] : Fin 3 → Nat) a + S16x1x64.size a ≤ S16x1600x64.size a
  inb_S16x1600x64_S16x1x64_0_654_0 : ∀ a, (![0, 654, 0] : Fin 3 → Nat) a + S16x1x64.size a ≤ S16x1600x64.size a
  inb_S16x1600x64_S16x1x64_0_694_0 : ∀ a, (![0, 694, 0] : Fin 3 → Nat) a + S16x1x64.size a ≤ S16x1600x64.size a
  inb_S16x1600x64_S16x1x64_0_734_0 : ∀ a, (![0, 734, 0] : Fin 3 → Nat) a + S16x1x64.size a ≤ S16x1600x64.size a
  inb_S16x1600x64_S16x1x64_0_774_0 : ∀ a, (![0, 774, 0] : Fin 3 → Nat) a + S16x1x64.size a ≤ S16x1600x64.size a
  inb_S16x1600x64_S16x1x64_0_814_0 : ∀ a, (![0, 814, 0] : Fin 3 → Nat) a + S16x1x64.size a ≤ S16x1600x64.size a
  inb_S16x1600x64_S16x1x64_0_854_0 : ∀ a, (![0, 854, 0] : Fin 3 → Nat) a + S16x1x64.size a ≤ S16x1600x64.size a
  inb_S16x1600x64_S16x1x64_0_894_0 : ∀ a, (![0, 894, 0] : Fin 3 → Nat) a + S16x1x64.size a ≤ S16x1600x64.size a
  inb_S16x1600x64_S16x1x64_0_934_0 : ∀ a, (![0, 934, 0] : Fin 3 → Nat) a + S16x1x64.size a ≤ S16x1600x64.size a
  inb_S16x1600x64_S16x1x64_0_974_0 : ∀ a, (![0, 974, 0] : Fin 3 → Nat) a + S16x1x64.size a ≤ S16x1600x64.size a
  inb_S16x1600x64_S16x1x64_0_1014_0 : ∀ a, (![0, 1014, 0] : Fin 3 → Nat) a + S16x1x64.size a ≤ S16x1600x64.size a
  inb_S16x1600x64_S16x1x64_0_1054_0 : ∀ a, (![0, 1054, 0] : Fin 3 → Nat) a + S16x1x64.size a ≤ S16x1600x64.size a
  inb_S16x1600x64_S16x1x64_0_1094_0 : ∀ a, (![0, 1094, 0] : Fin 3 → Nat) a + S16x1x64.size a ≤ S16x1600x64.size a
  inb_S16x1600x64_S16x1x64_0_1134_0 : ∀ a, (![0, 1134, 0] : Fin 3 → Nat) a + S16x1x64.size a ≤ S16x1600x64.size a
  inb_S16x1600x64_S16x1x64_0_1174_0 : ∀ a, (![0, 1174, 0] : Fin 3 → Nat) a + S16x1x64.size a ≤ S16x1600x64.size a
  inb_S16x1600x64_S16x1x64_0_1214_0 : ∀ a, (![0, 1214, 0] : Fin 3 → Nat) a + S16x1x64.size a ≤ S16x1600x64.size a
  inb_S16x1600x64_S16x1x64_0_1254_0 : ∀ a, (![0, 1254, 0] : Fin 3 → Nat) a + S16x1x64.size a ≤ S16x1600x64.size a
  inb_S16x1600x64_S16x1x64_0_1294_0 : ∀ a, (![0, 1294, 0] : Fin 3 → Nat) a + S16x1x64.size a ≤ S16x1600x64.size a
  inb_S16x1600x64_S16x1x64_0_1334_0 : ∀ a, (![0, 1334, 0] : Fin 3 → Nat) a + S16x1x64.size a ≤ S16x1600x64.size a
  inb_S16x1600x64_S16x1x64_0_1374_0 : ∀ a, (![0, 1374, 0] : Fin 3 → Nat) a + S16x1x64.size a ≤ S16x1600x64.size a
  inb_S16x1600x64_S16x1x64_0_1414_0 : ∀ a, (![0, 1414, 0] : Fin 3 → Nat) a + S16x1x64.size a ≤ S16x1600x64.size a
  inb_S16x1600x64_S16x1x64_0_1454_0 : ∀ a, (![0, 1454, 0] : Fin 3 → Nat) a + S16x1x64.size a ≤ S16x1600x64.size a
  inb_S16x1600x64_S16x1x64_0_1494_0 : ∀ a, (![0, 1494, 0] : Fin 3 → Nat) a + S16x1x64.size a ≤ S16x1600x64.size a
  inb_S16x1600x64_S16x1x64_0_1534_0 : ∀ a, (![0, 1534, 0] : Fin 3 → Nat) a + S16x1x64.size a ≤ S16x1600x64.size a
  inb_S16x1600x64_S16x1x64_0_1574_0 : ∀ a, (![0, 1574, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x25x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x25x64 1
  inb_S16x780x64_S16x25x64_0_455_0 : ∀ a, (![0, 455, 0] : Fin 3 → Nat) a + S16x25x64.size a ≤ S16x780x64.size a
  inb_S16x1600x64_S16x24x64_0_616_0 : ∀ a, (![0, 616, 0] : Fin 3 → Nat) a + S16x24x64.size a ≤ S16x1600x64.size a
  h_S16x24x64 : 0 < S16x24x64.numel
  inb_S16x1600x64_S16x1x64_0_655_0 : ∀ a, (![0, 655, 0] : Fin 3 → Nat) a + S16x1x64.size a ≤ S16x1600x64.size a
  inb_S16x1600x64_S16x1x64_0_695_0 : ∀ a, (![0, 695, 0] : Fin 3 → Nat) a + S16x1x64.size a ≤ S16x1600x64.size a
  inb_S16x1600x64_S16x1x64_0_735_0 : ∀ a, (![0, 735, 0] : Fin 3 → Nat) a + S16x1x64.size a ≤ S16x1600x64.size a
  inb_S16x1600x64_S16x1x64_0_775_0 : ∀ a, (![0, 775, 0] : Fin 3 → Nat) a + S16x1x64.size a ≤ S16x1600x64.size a
  inb_S16x1600x64_S16x1x64_0_815_0 : ∀ a, (![0, 815, 0] : Fin 3 → Nat) a + S16x1x64.size a ≤ S16x1600x64.size a
  inb_S16x1600x64_S16x1x64_0_855_0 : ∀ a, (![0, 855, 0] : Fin 3 → Nat) a + S16x1x64.size a ≤ S16x1600x64.size a
  inb_S16x1600x64_S16x1x64_0_895_0 : ∀ a, (![0, 895, 0] : Fin 3 → Nat) a + S16x1x64.size a ≤ S16x1600x64.size a
  inb_S16x1600x64_S16x1x64_0_935_0 : ∀ a, (![0, 935, 0] : Fin 3 → Nat) a + S16x1x64.size a ≤ S16x1600x64.size a
  inb_S16x1600x64_S16x1x64_0_975_0 : ∀ a, (![0, 975, 0] : Fin 3 → Nat) a + S16x1x64.size a ≤ S16x1600x64.size a
  inb_S16x1600x64_S16x1x64_0_1015_0 : ∀ a, (![0, 1015, 0] : Fin 3 → Nat) a + S16x1x64.size a ≤ S16x1600x64.size a
  inb_S16x1600x64_S16x1x64_0_1055_0 : ∀ a, (![0, 1055, 0] : Fin 3 → Nat) a + S16x1x64.size a ≤ S16x1600x64.size a
  inb_S16x1600x64_S16x1x64_0_1095_0 : ∀ a, (![0, 1095, 0] : Fin 3 → Nat) a + S16x1x64.size a ≤ S16x1600x64.size a
  inb_S16x1600x64_S16x1x64_0_1135_0 : ∀ a, (![0, 1135, 0] : Fin 3 → Nat) a + S16x1x64.size a ≤ S16x1600x64.size a
  inb_S16x1600x64_S16x1x64_0_1175_0 : ∀ a, (![0, 1175, 0] : Fin 3 → Nat) a + S16x1x64.size a ≤ S16x1600x64.size a
  inb_S16x1600x64_S16x1x64_0_1215_0 : ∀ a, (![0, 1215, 0] : Fin 3 → Nat) a + S16x1x64.size a ≤ S16x1600x64.size a
  inb_S16x1600x64_S16x1x64_0_1255_0 : ∀ a, (![0, 1255, 0] : Fin 3 → Nat) a + S16x1x64.size a ≤ S16x1600x64.size a
  inb_S16x1600x64_S16x1x64_0_1295_0 : ∀ a, (![0, 1295, 0] : Fin 3 → Nat) a + S16x1x64.size a ≤ S16x1600x64.size a
  inb_S16x1600x64_S16x1x64_0_1335_0 : ∀ a, (![0, 1335, 0] : Fin 3 → Nat) a + S16x1x64.size a ≤ S16x1600x64.size a
  inb_S16x1600x64_S16x1x64_0_1375_0 : ∀ a, (![0, 1375, 0] : Fin 3 → Nat) a + S16x1x64.size a ≤ S16x1600x64.size a
  inb_S16x1600x64_S16x1x64_0_1415_0 : ∀ a, (![0, 1415, 0] : Fin 3 → Nat) a + S16x1x64.size a ≤ S16x1600x64.size a
  inb_S16x1600x64_S16x1x64_0_1455_0 : ∀ a, (![0, 1455, 0] : Fin 3 → Nat) a + S16x1x64.size a ≤ S16x1600x64.size a
  inb_S16x1600x64_S16x1x64_0_1495_0 : ∀ a, (![0, 1495, 0] : Fin 3 → Nat) a + S16x1x64.size a ≤ S16x1600x64.size a
  inb_S16x1600x64_S16x1x64_0_1535_0 : ∀ a, (![0, 1535, 0] : Fin 3 → Nat) a + S16x1x64.size a ≤ S16x1600x64.size a
  inb_S16x1600x64_S16x1x64_0_1575_0 : ∀ a, (![0, 1575, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x24x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x24x64 1
  inb_S16x780x64_S16x24x64_0_480_0 : ∀ a, (![0, 480, 0] : Fin 3 → Nat) a + S16x24x64.size a ≤ S16x780x64.size a
  inb_S16x1600x64_S16x23x64_0_657_0 : ∀ a, (![0, 657, 0] : Fin 3 → Nat) a + S16x23x64.size a ≤ S16x1600x64.size a
  h_S16x23x64 : 0 < S16x23x64.numel
  inb_S16x1600x64_S16x1x64_0_696_0 : ∀ a, (![0, 696, 0] : Fin 3 → Nat) a + S16x1x64.size a ≤ S16x1600x64.size a
  inb_S16x1600x64_S16x1x64_0_736_0 : ∀ a, (![0, 736, 0] : Fin 3 → Nat) a + S16x1x64.size a ≤ S16x1600x64.size a
  inb_S16x1600x64_S16x1x64_0_776_0 : ∀ a, (![0, 776, 0] : Fin 3 → Nat) a + S16x1x64.size a ≤ S16x1600x64.size a
  inb_S16x1600x64_S16x1x64_0_816_0 : ∀ a, (![0, 816, 0] : Fin 3 → Nat) a + S16x1x64.size a ≤ S16x1600x64.size a
  inb_S16x1600x64_S16x1x64_0_856_0 : ∀ a, (![0, 856, 0] : Fin 3 → Nat) a + S16x1x64.size a ≤ S16x1600x64.size a
  inb_S16x1600x64_S16x1x64_0_896_0 : ∀ a, (![0, 896, 0] : Fin 3 → Nat) a + S16x1x64.size a ≤ S16x1600x64.size a
  inb_S16x1600x64_S16x1x64_0_936_0 : ∀ a, (![0, 936, 0] : Fin 3 → Nat) a + S16x1x64.size a ≤ S16x1600x64.size a
  inb_S16x1600x64_S16x1x64_0_976_0 : ∀ a, (![0, 976, 0] : Fin 3 → Nat) a + S16x1x64.size a ≤ S16x1600x64.size a
  inb_S16x1600x64_S16x1x64_0_1016_0 : ∀ a, (![0, 1016, 0] : Fin 3 → Nat) a + S16x1x64.size a ≤ S16x1600x64.size a
  inb_S16x1600x64_S16x1x64_0_1056_0 : ∀ a, (![0, 1056, 0] : Fin 3 → Nat) a + S16x1x64.size a ≤ S16x1600x64.size a
  inb_S16x1600x64_S16x1x64_0_1096_0 : ∀ a, (![0, 1096, 0] : Fin 3 → Nat) a + S16x1x64.size a ≤ S16x1600x64.size a
  inb_S16x1600x64_S16x1x64_0_1136_0 : ∀ a, (![0, 1136, 0] : Fin 3 → Nat) a + S16x1x64.size a ≤ S16x1600x64.size a
  inb_S16x1600x64_S16x1x64_0_1176_0 : ∀ a, (![0, 1176, 0] : Fin 3 → Nat) a + S16x1x64.size a ≤ S16x1600x64.size a
  inb_S16x1600x64_S16x1x64_0_1216_0 : ∀ a, (![0, 1216, 0] : Fin 3 → Nat) a + S16x1x64.size a ≤ S16x1600x64.size a
  inb_S16x1600x64_S16x1x64_0_1256_0 : ∀ a, (![0, 1256, 0] : Fin 3 → Nat) a + S16x1x64.size a ≤ S16x1600x64.size a
  inb_S16x1600x64_S16x1x64_0_1296_0 : ∀ a, (![0, 1296, 0] : Fin 3 → Nat) a + S16x1x64.size a ≤ S16x1600x64.size a
  inb_S16x1600x64_S16x1x64_0_1336_0 : ∀ a, (![0, 1336, 0] : Fin 3 → Nat) a + S16x1x64.size a ≤ S16x1600x64.size a
  inb_S16x1600x64_S16x1x64_0_1376_0 : ∀ a, (![0, 1376, 0] : Fin 3 → Nat) a + S16x1x64.size a ≤ S16x1600x64.size a
  inb_S16x1600x64_S16x1x64_0_1416_0 : ∀ a, (![0, 1416, 0] : Fin 3 → Nat) a + S16x1x64.size a ≤ S16x1600x64.size a
  inb_S16x1600x64_S16x1x64_0_1456_0 : ∀ a, (![0, 1456, 0] : Fin 3 → Nat) a + S16x1x64.size a ≤ S16x1600x64.size a
  inb_S16x1600x64_S16x1x64_0_1496_0 : ∀ a, (![0, 1496, 0] : Fin 3 → Nat) a + S16x1x64.size a ≤ S16x1600x64.size a
  inb_S16x1600x64_S16x1x64_0_1536_0 : ∀ a, (![0, 1536, 0] : Fin 3 → Nat) a + S16x1x64.size a ≤ S16x1600x64.size a
  inb_S16x1600x64_S16x1x64_0_1576_0 : ∀ a, (![0, 1576, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x23x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x23x64 1
  inb_S16x780x64_S16x23x64_0_504_0 : ∀ a, (![0, 504, 0] : Fin 3 → Nat) a + S16x23x64.size a ≤ S16x780x64.size a
  inb_S16x1600x64_S16x22x64_0_698_0 : ∀ a, (![0, 698, 0] : Fin 3 → Nat) a + S16x22x64.size a ≤ S16x1600x64.size a
  h_S16x22x64 : 0 < S16x22x64.numel
  inb_S16x1600x64_S16x1x64_0_737_0 : ∀ a, (![0, 737, 0] : Fin 3 → Nat) a + S16x1x64.size a ≤ S16x1600x64.size a
  inb_S16x1600x64_S16x1x64_0_777_0 : ∀ a, (![0, 777, 0] : Fin 3 → Nat) a + S16x1x64.size a ≤ S16x1600x64.size a
  inb_S16x1600x64_S16x1x64_0_817_0 : ∀ a, (![0, 817, 0] : Fin 3 → Nat) a + S16x1x64.size a ≤ S16x1600x64.size a
  inb_S16x1600x64_S16x1x64_0_857_0 : ∀ a, (![0, 857, 0] : Fin 3 → Nat) a + S16x1x64.size a ≤ S16x1600x64.size a
  inb_S16x1600x64_S16x1x64_0_897_0 : ∀ a, (![0, 897, 0] : Fin 3 → Nat) a + S16x1x64.size a ≤ S16x1600x64.size a
  inb_S16x1600x64_S16x1x64_0_937_0 : ∀ a, (![0, 937, 0] : Fin 3 → Nat) a + S16x1x64.size a ≤ S16x1600x64.size a
  inb_S16x1600x64_S16x1x64_0_977_0 : ∀ a, (![0, 977, 0] : Fin 3 → Nat) a + S16x1x64.size a ≤ S16x1600x64.size a
  inb_S16x1600x64_S16x1x64_0_1017_0 : ∀ a, (![0, 1017, 0] : Fin 3 → Nat) a + S16x1x64.size a ≤ S16x1600x64.size a
  inb_S16x1600x64_S16x1x64_0_1057_0 : ∀ a, (![0, 1057, 0] : Fin 3 → Nat) a + S16x1x64.size a ≤ S16x1600x64.size a
  inb_S16x1600x64_S16x1x64_0_1097_0 : ∀ a, (![0, 1097, 0] : Fin 3 → Nat) a + S16x1x64.size a ≤ S16x1600x64.size a
  inb_S16x1600x64_S16x1x64_0_1137_0 : ∀ a, (![0, 1137, 0] : Fin 3 → Nat) a + S16x1x64.size a ≤ S16x1600x64.size a
  inb_S16x1600x64_S16x1x64_0_1177_0 : ∀ a, (![0, 1177, 0] : Fin 3 → Nat) a + S16x1x64.size a ≤ S16x1600x64.size a
  inb_S16x1600x64_S16x1x64_0_1217_0 : ∀ a, (![0, 1217, 0] : Fin 3 → Nat) a + S16x1x64.size a ≤ S16x1600x64.size a
  inb_S16x1600x64_S16x1x64_0_1257_0 : ∀ a, (![0, 1257, 0] : Fin 3 → Nat) a + S16x1x64.size a ≤ S16x1600x64.size a
  inb_S16x1600x64_S16x1x64_0_1297_0 : ∀ a, (![0, 1297, 0] : Fin 3 → Nat) a + S16x1x64.size a ≤ S16x1600x64.size a
  inb_S16x1600x64_S16x1x64_0_1337_0 : ∀ a, (![0, 1337, 0] : Fin 3 → Nat) a + S16x1x64.size a ≤ S16x1600x64.size a
  inb_S16x1600x64_S16x1x64_0_1377_0 : ∀ a, (![0, 1377, 0] : Fin 3 → Nat) a + S16x1x64.size a ≤ S16x1600x64.size a
  inb_S16x1600x64_S16x1x64_0_1417_0 : ∀ a, (![0, 1417, 0] : Fin 3 → Nat) a + S16x1x64.size a ≤ S16x1600x64.size a
  inb_S16x1600x64_S16x1x64_0_1457_0 : ∀ a, (![0, 1457, 0] : Fin 3 → Nat) a + S16x1x64.size a ≤ S16x1600x64.size a
  inb_S16x1600x64_S16x1x64_0_1497_0 : ∀ a, (![0, 1497, 0] : Fin 3 → Nat) a + S16x1x64.size a ≤ S16x1600x64.size a
  inb_S16x1600x64_S16x1x64_0_1537_0 : ∀ a, (![0, 1537, 0] : Fin 3 → Nat) a + S16x1x64.size a ≤ S16x1600x64.size a
  inb_S16x1600x64_S16x1x64_0_1577_0 : ∀ a, (![0, 1577, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x22x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x22x64 1
  inb_S16x780x64_S16x22x64_0_527_0 : ∀ a, (![0, 527, 0] : Fin 3 → Nat) a + S16x22x64.size a ≤ S16x780x64.size a
  inb_S16x1600x64_S16x21x64_0_739_0 : ∀ a, (![0, 739, 0] : Fin 3 → Nat) a + S16x21x64.size a ≤ S16x1600x64.size a
  h_S16x21x64 : 0 < S16x21x64.numel
  inb_S16x1600x64_S16x1x64_0_778_0 : ∀ a, (![0, 778, 0] : Fin 3 → Nat) a + S16x1x64.size a ≤ S16x1600x64.size a
  inb_S16x1600x64_S16x1x64_0_818_0 : ∀ a, (![0, 818, 0] : Fin 3 → Nat) a + S16x1x64.size a ≤ S16x1600x64.size a
  inb_S16x1600x64_S16x1x64_0_858_0 : ∀ a, (![0, 858, 0] : Fin 3 → Nat) a + S16x1x64.size a ≤ S16x1600x64.size a
  inb_S16x1600x64_S16x1x64_0_898_0 : ∀ a, (![0, 898, 0] : Fin 3 → Nat) a + S16x1x64.size a ≤ S16x1600x64.size a
  inb_S16x1600x64_S16x1x64_0_938_0 : ∀ a, (![0, 938, 0] : Fin 3 → Nat) a + S16x1x64.size a ≤ S16x1600x64.size a
  inb_S16x1600x64_S16x1x64_0_978_0 : ∀ a, (![0, 978, 0] : Fin 3 → Nat) a + S16x1x64.size a ≤ S16x1600x64.size a
  inb_S16x1600x64_S16x1x64_0_1018_0 : ∀ a, (![0, 1018, 0] : Fin 3 → Nat) a + S16x1x64.size a ≤ S16x1600x64.size a
  inb_S16x1600x64_S16x1x64_0_1058_0 : ∀ a, (![0, 1058, 0] : Fin 3 → Nat) a + S16x1x64.size a ≤ S16x1600x64.size a
  inb_S16x1600x64_S16x1x64_0_1098_0 : ∀ a, (![0, 1098, 0] : Fin 3 → Nat) a + S16x1x64.size a ≤ S16x1600x64.size a
  inb_S16x1600x64_S16x1x64_0_1138_0 : ∀ a, (![0, 1138, 0] : Fin 3 → Nat) a + S16x1x64.size a ≤ S16x1600x64.size a
  inb_S16x1600x64_S16x1x64_0_1178_0 : ∀ a, (![0, 1178, 0] : Fin 3 → Nat) a + S16x1x64.size a ≤ S16x1600x64.size a
  inb_S16x1600x64_S16x1x64_0_1218_0 : ∀ a, (![0, 1218, 0] : Fin 3 → Nat) a + S16x1x64.size a ≤ S16x1600x64.size a
  inb_S16x1600x64_S16x1x64_0_1258_0 : ∀ a, (![0, 1258, 0] : Fin 3 → Nat) a + S16x1x64.size a ≤ S16x1600x64.size a
  inb_S16x1600x64_S16x1x64_0_1298_0 : ∀ a, (![0, 1298, 0] : Fin 3 → Nat) a + S16x1x64.size a ≤ S16x1600x64.size a
  inb_S16x1600x64_S16x1x64_0_1338_0 : ∀ a, (![0, 1338, 0] : Fin 3 → Nat) a + S16x1x64.size a ≤ S16x1600x64.size a
  inb_S16x1600x64_S16x1x64_0_1378_0 : ∀ a, (![0, 1378, 0] : Fin 3 → Nat) a + S16x1x64.size a ≤ S16x1600x64.size a
  inb_S16x1600x64_S16x1x64_0_1418_0 : ∀ a, (![0, 1418, 0] : Fin 3 → Nat) a + S16x1x64.size a ≤ S16x1600x64.size a
  inb_S16x1600x64_S16x1x64_0_1458_0 : ∀ a, (![0, 1458, 0] : Fin 3 → Nat) a + S16x1x64.size a ≤ S16x1600x64.size a
  inb_S16x1600x64_S16x1x64_0_1498_0 : ∀ a, (![0, 1498, 0] : Fin 3 → Nat) a + S16x1x64.size a ≤ S16x1600x64.size a
  inb_S16x1600x64_S16x1x64_0_1538_0 : ∀ a, (![0, 1538, 0] : Fin 3 → Nat) a + S16x1x64.size a ≤ S16x1600x64.size a
  inb_S16x1600x64_S16x1x64_0_1578_0 : ∀ a, (![0, 1578, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x21x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x21x64 1
  inb_S16x780x64_S16x21x64_0_549_0 : ∀ a, (![0, 549, 0] : Fin 3 → Nat) a + S16x21x64.size a ≤ S16x780x64.size a
  inb_S16x1600x64_S16x20x64_0_780_0 : ∀ a, (![0, 780, 0] : Fin 3 → Nat) a + S16x20x64.size a ≤ S16x1600x64.size a
  h_S16x20x64 : 0 < S16x20x64.numel
  inb_S16x1600x64_S16x1x64_0_819_0 : ∀ a, (![0, 819, 0] : Fin 3 → Nat) a + S16x1x64.size a ≤ S16x1600x64.size a
  inb_S16x1600x64_S16x1x64_0_859_0 : ∀ a, (![0, 859, 0] : Fin 3 → Nat) a + S16x1x64.size a ≤ S16x1600x64.size a
  inb_S16x1600x64_S16x1x64_0_899_0 : ∀ a, (![0, 899, 0] : Fin 3 → Nat) a + S16x1x64.size a ≤ S16x1600x64.size a
  inb_S16x1600x64_S16x1x64_0_939_0 : ∀ a, (![0, 939, 0] : Fin 3 → Nat) a + S16x1x64.size a ≤ S16x1600x64.size a
  inb_S16x1600x64_S16x1x64_0_979_0 : ∀ a, (![0, 979, 0] : Fin 3 → Nat) a + S16x1x64.size a ≤ S16x1600x64.size a
  inb_S16x1600x64_S16x1x64_0_1019_0 : ∀ a, (![0, 1019, 0] : Fin 3 → Nat) a + S16x1x64.size a ≤ S16x1600x64.size a
  inb_S16x1600x64_S16x1x64_0_1059_0 : ∀ a, (![0, 1059, 0] : Fin 3 → Nat) a + S16x1x64.size a ≤ S16x1600x64.size a
  inb_S16x1600x64_S16x1x64_0_1099_0 : ∀ a, (![0, 1099, 0] : Fin 3 → Nat) a + S16x1x64.size a ≤ S16x1600x64.size a
  inb_S16x1600x64_S16x1x64_0_1139_0 : ∀ a, (![0, 1139, 0] : Fin 3 → Nat) a + S16x1x64.size a ≤ S16x1600x64.size a
  inb_S16x1600x64_S16x1x64_0_1179_0 : ∀ a, (![0, 1179, 0] : Fin 3 → Nat) a + S16x1x64.size a ≤ S16x1600x64.size a
  inb_S16x1600x64_S16x1x64_0_1219_0 : ∀ a, (![0, 1219, 0] : Fin 3 → Nat) a + S16x1x64.size a ≤ S16x1600x64.size a
  inb_S16x1600x64_S16x1x64_0_1259_0 : ∀ a, (![0, 1259, 0] : Fin 3 → Nat) a + S16x1x64.size a ≤ S16x1600x64.size a
  inb_S16x1600x64_S16x1x64_0_1299_0 : ∀ a, (![0, 1299, 0] : Fin 3 → Nat) a + S16x1x64.size a ≤ S16x1600x64.size a
  inb_S16x1600x64_S16x1x64_0_1339_0 : ∀ a, (![0, 1339, 0] : Fin 3 → Nat) a + S16x1x64.size a ≤ S16x1600x64.size a
  inb_S16x1600x64_S16x1x64_0_1379_0 : ∀ a, (![0, 1379, 0] : Fin 3 → Nat) a + S16x1x64.size a ≤ S16x1600x64.size a
  inb_S16x1600x64_S16x1x64_0_1419_0 : ∀ a, (![0, 1419, 0] : Fin 3 → Nat) a + S16x1x64.size a ≤ S16x1600x64.size a
  inb_S16x1600x64_S16x1x64_0_1459_0 : ∀ a, (![0, 1459, 0] : Fin 3 → Nat) a + S16x1x64.size a ≤ S16x1600x64.size a
  inb_S16x1600x64_S16x1x64_0_1499_0 : ∀ a, (![0, 1499, 0] : Fin 3 → Nat) a + S16x1x64.size a ≤ S16x1600x64.size a
  inb_S16x1600x64_S16x1x64_0_1539_0 : ∀ a, (![0, 1539, 0] : Fin 3 → Nat) a + S16x1x64.size a ≤ S16x1600x64.size a
  inb_S16x1600x64_S16x1x64_0_1579_0 : ∀ a, (![0, 1579, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x20x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x20x64 1
  inb_S16x780x64_S16x20x64_0_570_0 : ∀ a, (![0, 570, 0] : Fin 3 → Nat) a + S16x20x64.size a ≤ S16x780x64.size a
  inb_S16x1600x64_S16x19x64_0_821_0 : ∀ a, (![0, 821, 0] : Fin 3 → Nat) a + S16x19x64.size a ≤ S16x1600x64.size a
  h_S16x19x64 : 0 < S16x19x64.numel
  inb_S16x1600x64_S16x1x64_0_860_0 : ∀ a, (![0, 860, 0] : Fin 3 → Nat) a + S16x1x64.size a ≤ S16x1600x64.size a
  inb_S16x1600x64_S16x1x64_0_900_0 : ∀ a, (![0, 900, 0] : Fin 3 → Nat) a + S16x1x64.size a ≤ S16x1600x64.size a
  inb_S16x1600x64_S16x1x64_0_940_0 : ∀ a, (![0, 940, 0] : Fin 3 → Nat) a + S16x1x64.size a ≤ S16x1600x64.size a
  inb_S16x1600x64_S16x1x64_0_980_0 : ∀ a, (![0, 980, 0] : Fin 3 → Nat) a + S16x1x64.size a ≤ S16x1600x64.size a
  inb_S16x1600x64_S16x1x64_0_1020_0 : ∀ a, (![0, 1020, 0] : Fin 3 → Nat) a + S16x1x64.size a ≤ S16x1600x64.size a
  inb_S16x1600x64_S16x1x64_0_1060_0 : ∀ a, (![0, 1060, 0] : Fin 3 → Nat) a + S16x1x64.size a ≤ S16x1600x64.size a
  inb_S16x1600x64_S16x1x64_0_1100_0 : ∀ a, (![0, 1100, 0] : Fin 3 → Nat) a + S16x1x64.size a ≤ S16x1600x64.size a
  inb_S16x1600x64_S16x1x64_0_1140_0 : ∀ a, (![0, 1140, 0] : Fin 3 → Nat) a + S16x1x64.size a ≤ S16x1600x64.size a
  inb_S16x1600x64_S16x1x64_0_1180_0 : ∀ a, (![0, 1180, 0] : Fin 3 → Nat) a + S16x1x64.size a ≤ S16x1600x64.size a
  inb_S16x1600x64_S16x1x64_0_1220_0 : ∀ a, (![0, 1220, 0] : Fin 3 → Nat) a + S16x1x64.size a ≤ S16x1600x64.size a
  inb_S16x1600x64_S16x1x64_0_1260_0 : ∀ a, (![0, 1260, 0] : Fin 3 → Nat) a + S16x1x64.size a ≤ S16x1600x64.size a
  inb_S16x1600x64_S16x1x64_0_1300_0 : ∀ a, (![0, 1300, 0] : Fin 3 → Nat) a + S16x1x64.size a ≤ S16x1600x64.size a
  inb_S16x1600x64_S16x1x64_0_1340_0 : ∀ a, (![0, 1340, 0] : Fin 3 → Nat) a + S16x1x64.size a ≤ S16x1600x64.size a
  inb_S16x1600x64_S16x1x64_0_1380_0 : ∀ a, (![0, 1380, 0] : Fin 3 → Nat) a + S16x1x64.size a ≤ S16x1600x64.size a
  inb_S16x1600x64_S16x1x64_0_1420_0 : ∀ a, (![0, 1420, 0] : Fin 3 → Nat) a + S16x1x64.size a ≤ S16x1600x64.size a
  inb_S16x1600x64_S16x1x64_0_1460_0 : ∀ a, (![0, 1460, 0] : Fin 3 → Nat) a + S16x1x64.size a ≤ S16x1600x64.size a
  inb_S16x1600x64_S16x1x64_0_1500_0 : ∀ a, (![0, 1500, 0] : Fin 3 → Nat) a + S16x1x64.size a ≤ S16x1600x64.size a
  inb_S16x1600x64_S16x1x64_0_1540_0 : ∀ a, (![0, 1540, 0] : Fin 3 → Nat) a + S16x1x64.size a ≤ S16x1600x64.size a
  inb_S16x1600x64_S16x1x64_0_1580_0 : ∀ a, (![0, 1580, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x19x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x19x64 1
  inb_S16x780x64_S16x19x64_0_590_0 : ∀ a, (![0, 590, 0] : Fin 3 → Nat) a + S16x19x64.size a ≤ S16x780x64.size a
  inb_S16x1600x64_S16x18x64_0_862_0 : ∀ a, (![0, 862, 0] : Fin 3 → Nat) a + S16x18x64.size a ≤ S16x1600x64.size a
  h_S16x18x64 : 0 < S16x18x64.numel
  inb_S16x1600x64_S16x1x64_0_901_0 : ∀ a, (![0, 901, 0] : Fin 3 → Nat) a + S16x1x64.size a ≤ S16x1600x64.size a
  inb_S16x1600x64_S16x1x64_0_941_0 : ∀ a, (![0, 941, 0] : Fin 3 → Nat) a + S16x1x64.size a ≤ S16x1600x64.size a
  inb_S16x1600x64_S16x1x64_0_981_0 : ∀ a, (![0, 981, 0] : Fin 3 → Nat) a + S16x1x64.size a ≤ S16x1600x64.size a
  inb_S16x1600x64_S16x1x64_0_1021_0 : ∀ a, (![0, 1021, 0] : Fin 3 → Nat) a + S16x1x64.size a ≤ S16x1600x64.size a
  inb_S16x1600x64_S16x1x64_0_1061_0 : ∀ a, (![0, 1061, 0] : Fin 3 → Nat) a + S16x1x64.size a ≤ S16x1600x64.size a
  inb_S16x1600x64_S16x1x64_0_1101_0 : ∀ a, (![0, 1101, 0] : Fin 3 → Nat) a + S16x1x64.size a ≤ S16x1600x64.size a
  inb_S16x1600x64_S16x1x64_0_1141_0 : ∀ a, (![0, 1141, 0] : Fin 3 → Nat) a + S16x1x64.size a ≤ S16x1600x64.size a
  inb_S16x1600x64_S16x1x64_0_1181_0 : ∀ a, (![0, 1181, 0] : Fin 3 → Nat) a + S16x1x64.size a ≤ S16x1600x64.size a
  inb_S16x1600x64_S16x1x64_0_1221_0 : ∀ a, (![0, 1221, 0] : Fin 3 → Nat) a + S16x1x64.size a ≤ S16x1600x64.size a
  inb_S16x1600x64_S16x1x64_0_1261_0 : ∀ a, (![0, 1261, 0] : Fin 3 → Nat) a + S16x1x64.size a ≤ S16x1600x64.size a
  inb_S16x1600x64_S16x1x64_0_1301_0 : ∀ a, (![0, 1301, 0] : Fin 3 → Nat) a + S16x1x64.size a ≤ S16x1600x64.size a
  inb_S16x1600x64_S16x1x64_0_1341_0 : ∀ a, (![0, 1341, 0] : Fin 3 → Nat) a + S16x1x64.size a ≤ S16x1600x64.size a
  inb_S16x1600x64_S16x1x64_0_1381_0 : ∀ a, (![0, 1381, 0] : Fin 3 → Nat) a + S16x1x64.size a ≤ S16x1600x64.size a
  inb_S16x1600x64_S16x1x64_0_1421_0 : ∀ a, (![0, 1421, 0] : Fin 3 → Nat) a + S16x1x64.size a ≤ S16x1600x64.size a
  inb_S16x1600x64_S16x1x64_0_1461_0 : ∀ a, (![0, 1461, 0] : Fin 3 → Nat) a + S16x1x64.size a ≤ S16x1600x64.size a
  inb_S16x1600x64_S16x1x64_0_1501_0 : ∀ a, (![0, 1501, 0] : Fin 3 → Nat) a + S16x1x64.size a ≤ S16x1600x64.size a
  inb_S16x1600x64_S16x1x64_0_1541_0 : ∀ a, (![0, 1541, 0] : Fin 3 → Nat) a + S16x1x64.size a ≤ S16x1600x64.size a
  inb_S16x1600x64_S16x1x64_0_1581_0 : ∀ a, (![0, 1581, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x18x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x18x64 1
  inb_S16x780x64_S16x18x64_0_609_0 : ∀ a, (![0, 609, 0] : Fin 3 → Nat) a + S16x18x64.size a ≤ S16x780x64.size a
  inb_S16x1600x64_S16x17x64_0_903_0 : ∀ a, (![0, 903, 0] : Fin 3 → Nat) a + S16x17x64.size a ≤ S16x1600x64.size a
  h_S16x17x64 : 0 < S16x17x64.numel
  inb_S16x1600x64_S16x1x64_0_942_0 : ∀ a, (![0, 942, 0] : Fin 3 → Nat) a + S16x1x64.size a ≤ S16x1600x64.size a
  inb_S16x1600x64_S16x1x64_0_982_0 : ∀ a, (![0, 982, 0] : Fin 3 → Nat) a + S16x1x64.size a ≤ S16x1600x64.size a
  inb_S16x1600x64_S16x1x64_0_1022_0 : ∀ a, (![0, 1022, 0] : Fin 3 → Nat) a + S16x1x64.size a ≤ S16x1600x64.size a
  inb_S16x1600x64_S16x1x64_0_1062_0 : ∀ a, (![0, 1062, 0] : Fin 3 → Nat) a + S16x1x64.size a ≤ S16x1600x64.size a
  inb_S16x1600x64_S16x1x64_0_1102_0 : ∀ a, (![0, 1102, 0] : Fin 3 → Nat) a + S16x1x64.size a ≤ S16x1600x64.size a
  inb_S16x1600x64_S16x1x64_0_1142_0 : ∀ a, (![0, 1142, 0] : Fin 3 → Nat) a + S16x1x64.size a ≤ S16x1600x64.size a
  inb_S16x1600x64_S16x1x64_0_1182_0 : ∀ a, (![0, 1182, 0] : Fin 3 → Nat) a + S16x1x64.size a ≤ S16x1600x64.size a
  inb_S16x1600x64_S16x1x64_0_1222_0 : ∀ a, (![0, 1222, 0] : Fin 3 → Nat) a + S16x1x64.size a ≤ S16x1600x64.size a
  inb_S16x1600x64_S16x1x64_0_1262_0 : ∀ a, (![0, 1262, 0] : Fin 3 → Nat) a + S16x1x64.size a ≤ S16x1600x64.size a
  inb_S16x1600x64_S16x1x64_0_1302_0 : ∀ a, (![0, 1302, 0] : Fin 3 → Nat) a + S16x1x64.size a ≤ S16x1600x64.size a
  inb_S16x1600x64_S16x1x64_0_1342_0 : ∀ a, (![0, 1342, 0] : Fin 3 → Nat) a + S16x1x64.size a ≤ S16x1600x64.size a
  inb_S16x1600x64_S16x1x64_0_1382_0 : ∀ a, (![0, 1382, 0] : Fin 3 → Nat) a + S16x1x64.size a ≤ S16x1600x64.size a
  inb_S16x1600x64_S16x1x64_0_1422_0 : ∀ a, (![0, 1422, 0] : Fin 3 → Nat) a + S16x1x64.size a ≤ S16x1600x64.size a
  inb_S16x1600x64_S16x1x64_0_1462_0 : ∀ a, (![0, 1462, 0] : Fin 3 → Nat) a + S16x1x64.size a ≤ S16x1600x64.size a
  inb_S16x1600x64_S16x1x64_0_1502_0 : ∀ a, (![0, 1502, 0] : Fin 3 → Nat) a + S16x1x64.size a ≤ S16x1600x64.size a
  inb_S16x1600x64_S16x1x64_0_1542_0 : ∀ a, (![0, 1542, 0] : Fin 3 → Nat) a + S16x1x64.size a ≤ S16x1600x64.size a
  inb_S16x1600x64_S16x1x64_0_1582_0 : ∀ a, (![0, 1582, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x17x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64] S16x17x64 1
  inb_S16x780x64_S16x17x64_0_627_0 : ∀ a, (![0, 627, 0] : Fin 3 → Nat) a + S16x17x64.size a ≤ S16x780x64.size a
  inb_S16x1600x64_S16x16x64_0_944_0 : ∀ a, (![0, 944, 0] : Fin 3 → Nat) a + S16x16x64.size a ≤ S16x1600x64.size a
  h_S16x16x64 : 0 < S16x16x64.numel
  inb_S16x1600x64_S16x1x64_0_983_0 : ∀ a, (![0, 983, 0] : Fin 3 → Nat) a + S16x1x64.size a ≤ S16x1600x64.size a
  inb_S16x1600x64_S16x1x64_0_1023_0 : ∀ a, (![0, 1023, 0] : Fin 3 → Nat) a + S16x1x64.size a ≤ S16x1600x64.size a
  inb_S16x1600x64_S16x1x64_0_1063_0 : ∀ a, (![0, 1063, 0] : Fin 3 → Nat) a + S16x1x64.size a ≤ S16x1600x64.size a
  inb_S16x1600x64_S16x1x64_0_1103_0 : ∀ a, (![0, 1103, 0] : Fin 3 → Nat) a + S16x1x64.size a ≤ S16x1600x64.size a
  inb_S16x1600x64_S16x1x64_0_1143_0 : ∀ a, (![0, 1143, 0] : Fin 3 → Nat) a + S16x1x64.size a ≤ S16x1600x64.size a
  inb_S16x1600x64_S16x1x64_0_1183_0 : ∀ a, (![0, 1183, 0] : Fin 3 → Nat) a + S16x1x64.size a ≤ S16x1600x64.size a
  inb_S16x1600x64_S16x1x64_0_1223_0 : ∀ a, (![0, 1223, 0] : Fin 3 → Nat) a + S16x1x64.size a ≤ S16x1600x64.size a
  inb_S16x1600x64_S16x1x64_0_1263_0 : ∀ a, (![0, 1263, 0] : Fin 3 → Nat) a + S16x1x64.size a ≤ S16x1600x64.size a
  inb_S16x1600x64_S16x1x64_0_1303_0 : ∀ a, (![0, 1303, 0] : Fin 3 → Nat) a + S16x1x64.size a ≤ S16x1600x64.size a
  inb_S16x1600x64_S16x1x64_0_1343_0 : ∀ a, (![0, 1343, 0] : Fin 3 → Nat) a + S16x1x64.size a ≤ S16x1600x64.size a
  inb_S16x1600x64_S16x1x64_0_1383_0 : ∀ a, (![0, 1383, 0] : Fin 3 → Nat) a + S16x1x64.size a ≤ S16x1600x64.size a
  inb_S16x1600x64_S16x1x64_0_1423_0 : ∀ a, (![0, 1423, 0] : Fin 3 → Nat) a + S16x1x64.size a ≤ S16x1600x64.size a
  inb_S16x1600x64_S16x1x64_0_1463_0 : ∀ a, (![0, 1463, 0] : Fin 3 → Nat) a + S16x1x64.size a ≤ S16x1600x64.size a
  inb_S16x1600x64_S16x1x64_0_1503_0 : ∀ a, (![0, 1503, 0] : Fin 3 → Nat) a + S16x1x64.size a ≤ S16x1600x64.size a
  inb_S16x1600x64_S16x1x64_0_1543_0 : ∀ a, (![0, 1543, 0] : Fin 3 → Nat) a + S16x1x64.size a ≤ S16x1600x64.size a
  inb_S16x1600x64_S16x1x64_0_1583_0 : ∀ a, (![0, 1583, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x16x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64] S16x16x64 1
  inb_S16x780x64_S16x16x64_0_644_0 : ∀ a, (![0, 644, 0] : Fin 3 → Nat) a + S16x16x64.size a ≤ S16x780x64.size a
  inb_S16x1600x64_S16x15x64_0_985_0 : ∀ a, (![0, 985, 0] : Fin 3 → Nat) a + S16x15x64.size a ≤ S16x1600x64.size a
  h_S16x15x64 : 0 < S16x15x64.numel
  inb_S16x1600x64_S16x1x64_0_1024_0 : ∀ a, (![0, 1024, 0] : Fin 3 → Nat) a + S16x1x64.size a ≤ S16x1600x64.size a
  inb_S16x1600x64_S16x1x64_0_1064_0 : ∀ a, (![0, 1064, 0] : Fin 3 → Nat) a + S16x1x64.size a ≤ S16x1600x64.size a
  inb_S16x1600x64_S16x1x64_0_1104_0 : ∀ a, (![0, 1104, 0] : Fin 3 → Nat) a + S16x1x64.size a ≤ S16x1600x64.size a
  inb_S16x1600x64_S16x1x64_0_1144_0 : ∀ a, (![0, 1144, 0] : Fin 3 → Nat) a + S16x1x64.size a ≤ S16x1600x64.size a
  inb_S16x1600x64_S16x1x64_0_1184_0 : ∀ a, (![0, 1184, 0] : Fin 3 → Nat) a + S16x1x64.size a ≤ S16x1600x64.size a
  inb_S16x1600x64_S16x1x64_0_1224_0 : ∀ a, (![0, 1224, 0] : Fin 3 → Nat) a + S16x1x64.size a ≤ S16x1600x64.size a
  inb_S16x1600x64_S16x1x64_0_1264_0 : ∀ a, (![0, 1264, 0] : Fin 3 → Nat) a + S16x1x64.size a ≤ S16x1600x64.size a
  inb_S16x1600x64_S16x1x64_0_1304_0 : ∀ a, (![0, 1304, 0] : Fin 3 → Nat) a + S16x1x64.size a ≤ S16x1600x64.size a
  inb_S16x1600x64_S16x1x64_0_1344_0 : ∀ a, (![0, 1344, 0] : Fin 3 → Nat) a + S16x1x64.size a ≤ S16x1600x64.size a
  inb_S16x1600x64_S16x1x64_0_1384_0 : ∀ a, (![0, 1384, 0] : Fin 3 → Nat) a + S16x1x64.size a ≤ S16x1600x64.size a
  inb_S16x1600x64_S16x1x64_0_1424_0 : ∀ a, (![0, 1424, 0] : Fin 3 → Nat) a + S16x1x64.size a ≤ S16x1600x64.size a
  inb_S16x1600x64_S16x1x64_0_1464_0 : ∀ a, (![0, 1464, 0] : Fin 3 → Nat) a + S16x1x64.size a ≤ S16x1600x64.size a
  inb_S16x1600x64_S16x1x64_0_1504_0 : ∀ a, (![0, 1504, 0] : Fin 3 → Nat) a + S16x1x64.size a ≤ S16x1600x64.size a
  inb_S16x1600x64_S16x1x64_0_1544_0 : ∀ a, (![0, 1544, 0] : Fin 3 → Nat) a + S16x1x64.size a ≤ S16x1600x64.size a
  inb_S16x1600x64_S16x1x64_0_1584_0 : ∀ a, (![0, 1584, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x15x64_d1 : Shape.Concatenates [S16x1x64, S16x1x64, S16x1x64, S16x1x64, S16x1x64, S16x1x64, S16x1x64, S16x1x64, S16x1x64, S16x1x64, S16x1x64, S16x1x64, S16x1x64, S16x1x64, S16x1x64] S16x15x64 1
  inb_S16x780x64_S16x15x64_0_660_0 : ∀ a, (![0, 660, 0] : Fin 3 → Nat) a + S16x15x64.size a ≤ S16x780x64.size a
  inb_S16x1600x64_S16x14x64_0_1026_0 : ∀ a, (![0, 1026, 0] : Fin 3 → Nat) a + S16x14x64.size a ≤ S16x1600x64.size a
  h_S16x14x64 : 0 < S16x14x64.numel
  inb_S16x1600x64_S16x1x64_0_1065_0 : ∀ a, (![0, 1065, 0] : Fin 3 → Nat) a + S16x1x64.size a ≤ S16x1600x64.size a
  inb_S16x1600x64_S16x1x64_0_1105_0 : ∀ a, (![0, 1105, 0] : Fin 3 → Nat) a + S16x1x64.size a ≤ S16x1600x64.size a
  inb_S16x1600x64_S16x1x64_0_1145_0 : ∀ a, (![0, 1145, 0] : Fin 3 → Nat) a + S16x1x64.size a ≤ S16x1600x64.size a
  inb_S16x1600x64_S16x1x64_0_1185_0 : ∀ a, (![0, 1185, 0] : Fin 3 → Nat) a + S16x1x64.size a ≤ S16x1600x64.size a
  inb_S16x1600x64_S16x1x64_0_1225_0 : ∀ a, (![0, 1225, 0] : Fin 3 → Nat) a + S16x1x64.size a ≤ S16x1600x64.size a
  inb_S16x1600x64_S16x1x64_0_1265_0 : ∀ a, (![0, 1265, 0] : Fin 3 → Nat) a + S16x1x64.size a ≤ S16x1600x64.size a
  inb_S16x1600x64_S16x1x64_0_1305_0 : ∀ a, (![0, 1305, 0] : Fin 3 → Nat) a + S16x1x64.size a ≤ S16x1600x64.size a
  inb_S16x1600x64_S16x1x64_0_1345_0 : ∀ a, (![0, 1345, 0] : Fin 3 → Nat) a + S16x1x64.size a ≤ S16x1600x64.size a
  inb_S16x1600x64_S16x1x64_0_1385_0 : ∀ a, (![0, 1385, 0] : Fin 3 → Nat) a + S16x1x64.size a ≤ S16x1600x64.size a
  inb_S16x1600x64_S16x1x64_0_1425_0 : ∀ a, (![0, 1425, 0] : Fin 3 → Nat) a + S16x1x64.size a ≤ S16x1600x64.size a
  inb_S16x1600x64_S16x1x64_0_1465_0 : ∀ a, (![0, 1465, 0] : Fin 3 → Nat) a + S16x1x64.size a ≤ S16x1600x64.size a
  inb_S16x1600x64_S16x1x64_0_1505_0 : ∀ a, (![0, 1505, 0] : Fin 3 → Nat) a + S16x1x64.size a ≤ S16x1600x64.size a
  inb_S16x1600x64_S16x1x64_0_1545_0 : ∀ a, (![0, 1545, 0] : Fin 3 → Nat) a + S16x1x64.size a ≤ S16x1600x64.size a
  inb_S16x1600x64_S16x1x64_0_1585_0 : ∀ a, (![0, 1585, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x14x64_d1 : Shape.Concatenates [S16x1x64, S16x1x64, S16x1x64, S16x1x64, S16x1x64, S16x1x64, S16x1x64, S16x1x64, S16x1x64, S16x1x64, S16x1x64, S16x1x64, S16x1x64, S16x1x64] S16x14x64 1
  inb_S16x780x64_S16x14x64_0_675_0 : ∀ a, (![0, 675, 0] : Fin 3 → Nat) a + S16x14x64.size a ≤ S16x780x64.size a
  inb_S16x1600x64_S16x13x64_0_1067_0 : ∀ a, (![0, 1067, 0] : Fin 3 → Nat) a + S16x13x64.size a ≤ S16x1600x64.size a
  h_S16x13x64 : 0 < S16x13x64.numel
  inb_S16x1600x64_S16x1x64_0_1106_0 : ∀ a, (![0, 1106, 0] : Fin 3 → Nat) a + S16x1x64.size a ≤ S16x1600x64.size a
  inb_S16x1600x64_S16x1x64_0_1146_0 : ∀ a, (![0, 1146, 0] : Fin 3 → Nat) a + S16x1x64.size a ≤ S16x1600x64.size a
  inb_S16x1600x64_S16x1x64_0_1186_0 : ∀ a, (![0, 1186, 0] : Fin 3 → Nat) a + S16x1x64.size a ≤ S16x1600x64.size a
  inb_S16x1600x64_S16x1x64_0_1226_0 : ∀ a, (![0, 1226, 0] : Fin 3 → Nat) a + S16x1x64.size a ≤ S16x1600x64.size a
  inb_S16x1600x64_S16x1x64_0_1266_0 : ∀ a, (![0, 1266, 0] : Fin 3 → Nat) a + S16x1x64.size a ≤ S16x1600x64.size a
  inb_S16x1600x64_S16x1x64_0_1306_0 : ∀ a, (![0, 1306, 0] : Fin 3 → Nat) a + S16x1x64.size a ≤ S16x1600x64.size a
  inb_S16x1600x64_S16x1x64_0_1346_0 : ∀ a, (![0, 1346, 0] : Fin 3 → Nat) a + S16x1x64.size a ≤ S16x1600x64.size a
  inb_S16x1600x64_S16x1x64_0_1386_0 : ∀ a, (![0, 1386, 0] : Fin 3 → Nat) a + S16x1x64.size a ≤ S16x1600x64.size a
  inb_S16x1600x64_S16x1x64_0_1426_0 : ∀ a, (![0, 1426, 0] : Fin 3 → Nat) a + S16x1x64.size a ≤ S16x1600x64.size a
  inb_S16x1600x64_S16x1x64_0_1466_0 : ∀ a, (![0, 1466, 0] : Fin 3 → Nat) a + S16x1x64.size a ≤ S16x1600x64.size a
  inb_S16x1600x64_S16x1x64_0_1506_0 : ∀ a, (![0, 1506, 0] : Fin 3 → Nat) a + S16x1x64.size a ≤ S16x1600x64.size a
  inb_S16x1600x64_S16x1x64_0_1546_0 : ∀ a, (![0, 1546, 0] : Fin 3 → Nat) a + S16x1x64.size a ≤ S16x1600x64.size a
  inb_S16x1600x64_S16x1x64_0_1586_0 : ∀ a, (![0, 1586, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x13x64_d1 : Shape.Concatenates [S16x1x64, S16x1x64, S16x1x64, S16x1x64, S16x1x64, S16x1x64, S16x1x64, S16x1x64, S16x1x64, S16x1x64, S16x1x64, S16x1x64, S16x1x64] S16x13x64 1
  inb_S16x780x64_S16x13x64_0_689_0 : ∀ a, (![0, 689, 0] : Fin 3 → Nat) a + S16x13x64.size a ≤ S16x780x64.size a
  inb_S16x1600x64_S16x12x64_0_1108_0 : ∀ a, (![0, 1108, 0] : Fin 3 → Nat) a + S16x12x64.size a ≤ S16x1600x64.size a
  h_S16x12x64 : 0 < S16x12x64.numel
  inb_S16x1600x64_S16x1x64_0_1147_0 : ∀ a, (![0, 1147, 0] : Fin 3 → Nat) a + S16x1x64.size a ≤ S16x1600x64.size a
  inb_S16x1600x64_S16x1x64_0_1187_0 : ∀ a, (![0, 1187, 0] : Fin 3 → Nat) a + S16x1x64.size a ≤ S16x1600x64.size a
  inb_S16x1600x64_S16x1x64_0_1227_0 : ∀ a, (![0, 1227, 0] : Fin 3 → Nat) a + S16x1x64.size a ≤ S16x1600x64.size a
  inb_S16x1600x64_S16x1x64_0_1267_0 : ∀ a, (![0, 1267, 0] : Fin 3 → Nat) a + S16x1x64.size a ≤ S16x1600x64.size a
  inb_S16x1600x64_S16x1x64_0_1307_0 : ∀ a, (![0, 1307, 0] : Fin 3 → Nat) a + S16x1x64.size a ≤ S16x1600x64.size a
  inb_S16x1600x64_S16x1x64_0_1347_0 : ∀ a, (![0, 1347, 0] : Fin 3 → Nat) a + S16x1x64.size a ≤ S16x1600x64.size a
  inb_S16x1600x64_S16x1x64_0_1387_0 : ∀ a, (![0, 1387, 0] : Fin 3 → Nat) a + S16x1x64.size a ≤ S16x1600x64.size a
  inb_S16x1600x64_S16x1x64_0_1427_0 : ∀ a, (![0, 1427, 0] : Fin 3 → Nat) a + S16x1x64.size a ≤ S16x1600x64.size a
  inb_S16x1600x64_S16x1x64_0_1467_0 : ∀ a, (![0, 1467, 0] : Fin 3 → Nat) a + S16x1x64.size a ≤ S16x1600x64.size a
  inb_S16x1600x64_S16x1x64_0_1507_0 : ∀ a, (![0, 1507, 0] : Fin 3 → Nat) a + S16x1x64.size a ≤ S16x1600x64.size a
  inb_S16x1600x64_S16x1x64_0_1547_0 : ∀ a, (![0, 1547, 0] : Fin 3 → Nat) a + S16x1x64.size a ≤ S16x1600x64.size a
  inb_S16x1600x64_S16x1x64_0_1587_0 : ∀ a, (![0, 1587, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x12x64_d1 : Shape.Concatenates [S16x1x64, S16x1x64, S16x1x64, S16x1x64, S16x1x64, S16x1x64, S16x1x64, S16x1x64, S16x1x64, S16x1x64, S16x1x64, S16x1x64] S16x12x64 1
  inb_S16x780x64_S16x12x64_0_702_0 : ∀ a, (![0, 702, 0] : Fin 3 → Nat) a + S16x12x64.size a ≤ S16x780x64.size a
  inb_S16x1600x64_S16x11x64_0_1149_0 : ∀ a, (![0, 1149, 0] : Fin 3 → Nat) a + S16x11x64.size a ≤ S16x1600x64.size a
  h_S16x11x64 : 0 < S16x11x64.numel
  inb_S16x1600x64_S16x1x64_0_1188_0 : ∀ a, (![0, 1188, 0] : Fin 3 → Nat) a + S16x1x64.size a ≤ S16x1600x64.size a
  inb_S16x1600x64_S16x1x64_0_1228_0 : ∀ a, (![0, 1228, 0] : Fin 3 → Nat) a + S16x1x64.size a ≤ S16x1600x64.size a
  inb_S16x1600x64_S16x1x64_0_1268_0 : ∀ a, (![0, 1268, 0] : Fin 3 → Nat) a + S16x1x64.size a ≤ S16x1600x64.size a
  inb_S16x1600x64_S16x1x64_0_1308_0 : ∀ a, (![0, 1308, 0] : Fin 3 → Nat) a + S16x1x64.size a ≤ S16x1600x64.size a
  inb_S16x1600x64_S16x1x64_0_1348_0 : ∀ a, (![0, 1348, 0] : Fin 3 → Nat) a + S16x1x64.size a ≤ S16x1600x64.size a
  inb_S16x1600x64_S16x1x64_0_1388_0 : ∀ a, (![0, 1388, 0] : Fin 3 → Nat) a + S16x1x64.size a ≤ S16x1600x64.size a
  inb_S16x1600x64_S16x1x64_0_1428_0 : ∀ a, (![0, 1428, 0] : Fin 3 → Nat) a + S16x1x64.size a ≤ S16x1600x64.size a
  inb_S16x1600x64_S16x1x64_0_1468_0 : ∀ a, (![0, 1468, 0] : Fin 3 → Nat) a + S16x1x64.size a ≤ S16x1600x64.size a
  inb_S16x1600x64_S16x1x64_0_1508_0 : ∀ a, (![0, 1508, 0] : Fin 3 → Nat) a + S16x1x64.size a ≤ S16x1600x64.size a
  inb_S16x1600x64_S16x1x64_0_1548_0 : ∀ a, (![0, 1548, 0] : Fin 3 → Nat) a + S16x1x64.size a ≤ S16x1600x64.size a
  inb_S16x1600x64_S16x1x64_0_1588_0 : ∀ a, (![0, 1588, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x11x64_d1 : Shape.Concatenates [S16x1x64, S16x1x64, S16x1x64, S16x1x64, S16x1x64, S16x1x64, S16x1x64, S16x1x64, S16x1x64, S16x1x64, S16x1x64] S16x11x64 1
  inb_S16x780x64_S16x11x64_0_714_0 : ∀ a, (![0, 714, 0] : Fin 3 → Nat) a + S16x11x64.size a ≤ S16x780x64.size a
  inb_S16x1600x64_S16x10x64_0_1190_0 : ∀ a, (![0, 1190, 0] : Fin 3 → Nat) a + S16x10x64.size a ≤ S16x1600x64.size a
  h_S16x10x64 : 0 < S16x10x64.numel
  inb_S16x1600x64_S16x1x64_0_1229_0 : ∀ a, (![0, 1229, 0] : Fin 3 → Nat) a + S16x1x64.size a ≤ S16x1600x64.size a
  inb_S16x1600x64_S16x1x64_0_1269_0 : ∀ a, (![0, 1269, 0] : Fin 3 → Nat) a + S16x1x64.size a ≤ S16x1600x64.size a
  inb_S16x1600x64_S16x1x64_0_1309_0 : ∀ a, (![0, 1309, 0] : Fin 3 → Nat) a + S16x1x64.size a ≤ S16x1600x64.size a
  inb_S16x1600x64_S16x1x64_0_1349_0 : ∀ a, (![0, 1349, 0] : Fin 3 → Nat) a + S16x1x64.size a ≤ S16x1600x64.size a
  inb_S16x1600x64_S16x1x64_0_1389_0 : ∀ a, (![0, 1389, 0] : Fin 3 → Nat) a + S16x1x64.size a ≤ S16x1600x64.size a
  inb_S16x1600x64_S16x1x64_0_1429_0 : ∀ a, (![0, 1429, 0] : Fin 3 → Nat) a + S16x1x64.size a ≤ S16x1600x64.size a
  inb_S16x1600x64_S16x1x64_0_1469_0 : ∀ a, (![0, 1469, 0] : Fin 3 → Nat) a + S16x1x64.size a ≤ S16x1600x64.size a
  inb_S16x1600x64_S16x1x64_0_1509_0 : ∀ a, (![0, 1509, 0] : Fin 3 → Nat) a + S16x1x64.size a ≤ S16x1600x64.size a
  inb_S16x1600x64_S16x1x64_0_1549_0 : ∀ a, (![0, 1549, 0] : Fin 3 → Nat) a + S16x1x64.size a ≤ S16x1600x64.size a
  inb_S16x1600x64_S16x1x64_0_1589_0 : ∀ a, (![0, 1589, 0] : Fin 3 → Nat) a + S16x1x64.size a ≤ S16x1600x64.size a
  concatenates_S16x1x64_S16x1x64_S16x1x64_S16x1x64_S16x1x64_S16x1x64_S16x1x64_S16x1x64_S16x1x64_S16x1x64_S16x10x64_d1 : Shape.Concatenates [S16x1x64, S16x1x64, S16x1x64, S16x1x64, S16x1x64, S16x1x64, S16x1x64, S16x1x64, S16x1x64, S16x1x64] S16x10x64 1
  inb_S16x780x64_S16x10x64_0_725_0 : ∀ a, (![0, 725, 0] : Fin 3 → Nat) a + S16x10x64.size a ≤ S16x780x64.size a
  inb_S16x1600x64_S16x9x64_0_1231_0 : ∀ a, (![0, 1231, 0] : Fin 3 → Nat) a + S16x9x64.size a ≤ S16x1600x64.size a
  h_S16x9x64 : 0 < S16x9x64.numel
  inb_S16x1600x64_S16x1x64_0_1270_0 : ∀ a, (![0, 1270, 0] : Fin 3 → Nat) a + S16x1x64.size a ≤ S16x1600x64.size a
  inb_S16x1600x64_S16x1x64_0_1310_0 : ∀ a, (![0, 1310, 0] : Fin 3 → Nat) a + S16x1x64.size a ≤ S16x1600x64.size a
  inb_S16x1600x64_S16x1x64_0_1350_0 : ∀ a, (![0, 1350, 0] : Fin 3 → Nat) a + S16x1x64.size a ≤ S16x1600x64.size a
  inb_S16x1600x64_S16x1x64_0_1390_0 : ∀ a, (![0, 1390, 0] : Fin 3 → Nat) a + S16x1x64.size a ≤ S16x1600x64.size a
  inb_S16x1600x64_S16x1x64_0_1430_0 : ∀ a, (![0, 1430, 0] : Fin 3 → Nat) a + S16x1x64.size a ≤ S16x1600x64.size a
  inb_S16x1600x64_S16x1x64_0_1470_0 : ∀ a, (![0, 1470, 0] : Fin 3 → Nat) a + S16x1x64.size a ≤ S16x1600x64.size a
  inb_S16x1600x64_S16x1x64_0_1510_0 : ∀ a, (![0, 1510, 0] : Fin 3 → Nat) a + S16x1x64.size a ≤ S16x1600x64.size a
  inb_S16x1600x64_S16x1x64_0_1550_0 : ∀ a, (![0, 1550, 0] : Fin 3 → Nat) a + S16x1x64.size a ≤ S16x1600x64.size a
  inb_S16x1600x64_S16x1x64_0_1590_0 : ∀ a, (![0, 1590, 0] : Fin 3 → Nat) a + S16x1x64.size a ≤ S16x1600x64.size a
  concatenates_S16x1x64_S16x1x64_S16x1x64_S16x1x64_S16x1x64_S16x1x64_S16x1x64_S16x1x64_S16x1x64_S16x9x64_d1 : Shape.Concatenates [S16x1x64, S16x1x64, S16x1x64, S16x1x64, S16x1x64, S16x1x64, S16x1x64, S16x1x64, S16x1x64] S16x9x64 1
  inb_S16x780x64_S16x9x64_0_735_0 : ∀ a, (![0, 735, 0] : Fin 3 → Nat) a + S16x9x64.size a ≤ S16x780x64.size a
  inb_S16x1600x64_S16x8x64_0_1272_0 : ∀ a, (![0, 1272, 0] : Fin 3 → Nat) a + S16x8x64.size a ≤ S16x1600x64.size a
  h_S16x8x64 : 0 < S16x8x64.numel
  inb_S16x1600x64_S16x1x64_0_1311_0 : ∀ a, (![0, 1311, 0] : Fin 3 → Nat) a + S16x1x64.size a ≤ S16x1600x64.size a
  inb_S16x1600x64_S16x1x64_0_1351_0 : ∀ a, (![0, 1351, 0] : Fin 3 → Nat) a + S16x1x64.size a ≤ S16x1600x64.size a
  inb_S16x1600x64_S16x1x64_0_1391_0 : ∀ a, (![0, 1391, 0] : Fin 3 → Nat) a + S16x1x64.size a ≤ S16x1600x64.size a
  inb_S16x1600x64_S16x1x64_0_1431_0 : ∀ a, (![0, 1431, 0] : Fin 3 → Nat) a + S16x1x64.size a ≤ S16x1600x64.size a
  inb_S16x1600x64_S16x1x64_0_1471_0 : ∀ a, (![0, 1471, 0] : Fin 3 → Nat) a + S16x1x64.size a ≤ S16x1600x64.size a
  inb_S16x1600x64_S16x1x64_0_1511_0 : ∀ a, (![0, 1511, 0] : Fin 3 → Nat) a + S16x1x64.size a ≤ S16x1600x64.size a
  inb_S16x1600x64_S16x1x64_0_1551_0 : ∀ a, (![0, 1551, 0] : Fin 3 → Nat) a + S16x1x64.size a ≤ S16x1600x64.size a
  inb_S16x1600x64_S16x1x64_0_1591_0 : ∀ a, (![0, 1591, 0] : Fin 3 → Nat) a + S16x1x64.size a ≤ S16x1600x64.size a
  concatenates_S16x1x64_S16x1x64_S16x1x64_S16x1x64_S16x1x64_S16x1x64_S16x1x64_S16x1x64_S16x8x64_d1 : Shape.Concatenates [S16x1x64, S16x1x64, S16x1x64, S16x1x64, S16x1x64, S16x1x64, S16x1x64, S16x1x64] S16x8x64 1
  inb_S16x780x64_S16x8x64_0_744_0 : ∀ a, (![0, 744, 0] : Fin 3 → Nat) a + S16x8x64.size a ≤ S16x780x64.size a
  inb_S16x1600x64_S16x7x64_0_1313_0 : ∀ a, (![0, 1313, 0] : Fin 3 → Nat) a + S16x7x64.size a ≤ S16x1600x64.size a
  h_S16x7x64 : 0 < S16x7x64.numel
  inb_S16x1600x64_S16x1x64_0_1352_0 : ∀ a, (![0, 1352, 0] : Fin 3 → Nat) a + S16x1x64.size a ≤ S16x1600x64.size a
  inb_S16x1600x64_S16x1x64_0_1392_0 : ∀ a, (![0, 1392, 0] : Fin 3 → Nat) a + S16x1x64.size a ≤ S16x1600x64.size a
  inb_S16x1600x64_S16x1x64_0_1432_0 : ∀ a, (![0, 1432, 0] : Fin 3 → Nat) a + S16x1x64.size a ≤ S16x1600x64.size a
  inb_S16x1600x64_S16x1x64_0_1472_0 : ∀ a, (![0, 1472, 0] : Fin 3 → Nat) a + S16x1x64.size a ≤ S16x1600x64.size a
  inb_S16x1600x64_S16x1x64_0_1512_0 : ∀ a, (![0, 1512, 0] : Fin 3 → Nat) a + S16x1x64.size a ≤ S16x1600x64.size a
  inb_S16x1600x64_S16x1x64_0_1552_0 : ∀ a, (![0, 1552, 0] : Fin 3 → Nat) a + S16x1x64.size a ≤ S16x1600x64.size a
  inb_S16x1600x64_S16x1x64_0_1592_0 : ∀ a, (![0, 1592, 0] : Fin 3 → Nat) a + S16x1x64.size a ≤ S16x1600x64.size a
  concatenates_S16x1x64_S16x1x64_S16x1x64_S16x1x64_S16x1x64_S16x1x64_S16x1x64_S16x7x64_d1 : Shape.Concatenates [S16x1x64, S16x1x64, S16x1x64, S16x1x64, S16x1x64, S16x1x64, S16x1x64] S16x7x64 1
  inb_S16x780x64_S16x7x64_0_752_0 : ∀ a, (![0, 752, 0] : Fin 3 → Nat) a + S16x7x64.size a ≤ S16x780x64.size a
  inb_S16x1600x64_S16x6x64_0_1354_0 : ∀ a, (![0, 1354, 0] : Fin 3 → Nat) a + S16x6x64.size a ≤ S16x1600x64.size a
  h_S16x6x64 : 0 < S16x6x64.numel
  inb_S16x1600x64_S16x1x64_0_1393_0 : ∀ a, (![0, 1393, 0] : Fin 3 → Nat) a + S16x1x64.size a ≤ S16x1600x64.size a
  inb_S16x1600x64_S16x1x64_0_1433_0 : ∀ a, (![0, 1433, 0] : Fin 3 → Nat) a + S16x1x64.size a ≤ S16x1600x64.size a
  inb_S16x1600x64_S16x1x64_0_1473_0 : ∀ a, (![0, 1473, 0] : Fin 3 → Nat) a + S16x1x64.size a ≤ S16x1600x64.size a
  inb_S16x1600x64_S16x1x64_0_1513_0 : ∀ a, (![0, 1513, 0] : Fin 3 → Nat) a + S16x1x64.size a ≤ S16x1600x64.size a
  inb_S16x1600x64_S16x1x64_0_1553_0 : ∀ a, (![0, 1553, 0] : Fin 3 → Nat) a + S16x1x64.size a ≤ S16x1600x64.size a
  inb_S16x1600x64_S16x1x64_0_1593_0 : ∀ a, (![0, 1593, 0] : Fin 3 → Nat) a + S16x1x64.size a ≤ S16x1600x64.size a
  concatenates_S16x1x64_S16x1x64_S16x1x64_S16x1x64_S16x1x64_S16x1x64_S16x6x64_d1 : Shape.Concatenates [S16x1x64, S16x1x64, S16x1x64, S16x1x64, S16x1x64, S16x1x64] S16x6x64 1
  inb_S16x780x64_S16x6x64_0_759_0 : ∀ a, (![0, 759, 0] : Fin 3 → Nat) a + S16x6x64.size a ≤ S16x780x64.size a
  inb_S16x1600x64_S16x5x64_0_1395_0 : ∀ a, (![0, 1395, 0] : Fin 3 → Nat) a + S16x5x64.size a ≤ S16x1600x64.size a
  h_S16x5x64 : 0 < S16x5x64.numel
  inb_S16x1600x64_S16x1x64_0_1434_0 : ∀ a, (![0, 1434, 0] : Fin 3 → Nat) a + S16x1x64.size a ≤ S16x1600x64.size a
  inb_S16x1600x64_S16x1x64_0_1474_0 : ∀ a, (![0, 1474, 0] : Fin 3 → Nat) a + S16x1x64.size a ≤ S16x1600x64.size a
  inb_S16x1600x64_S16x1x64_0_1514_0 : ∀ a, (![0, 1514, 0] : Fin 3 → Nat) a + S16x1x64.size a ≤ S16x1600x64.size a
  inb_S16x1600x64_S16x1x64_0_1554_0 : ∀ a, (![0, 1554, 0] : Fin 3 → Nat) a + S16x1x64.size a ≤ S16x1600x64.size a
  inb_S16x1600x64_S16x1x64_0_1594_0 : ∀ a, (![0, 1594, 0] : Fin 3 → Nat) a + S16x1x64.size a ≤ S16x1600x64.size a
  concatenates_S16x1x64_S16x1x64_S16x1x64_S16x1x64_S16x1x64_S16x5x64_d1 : Shape.Concatenates [S16x1x64, S16x1x64, S16x1x64, S16x1x64, S16x1x64] S16x5x64 1
  inb_S16x780x64_S16x5x64_0_765_0 : ∀ a, (![0, 765, 0] : Fin 3 → Nat) a + S16x5x64.size a ≤ S16x780x64.size a
  inb_S16x1600x64_S16x4x64_0_1436_0 : ∀ a, (![0, 1436, 0] : Fin 3 → Nat) a + S16x4x64.size a ≤ S16x1600x64.size a
  h_S16x4x64 : 0 < S16x4x64.numel
  inb_S16x1600x64_S16x1x64_0_1475_0 : ∀ a, (![0, 1475, 0] : Fin 3 → Nat) a + S16x1x64.size a ≤ S16x1600x64.size a
  inb_S16x1600x64_S16x1x64_0_1515_0 : ∀ a, (![0, 1515, 0] : Fin 3 → Nat) a + S16x1x64.size a ≤ S16x1600x64.size a
  inb_S16x1600x64_S16x1x64_0_1555_0 : ∀ a, (![0, 1555, 0] : Fin 3 → Nat) a + S16x1x64.size a ≤ S16x1600x64.size a
  inb_S16x1600x64_S16x1x64_0_1595_0 : ∀ a, (![0, 1595, 0] : Fin 3 → Nat) a + S16x1x64.size a ≤ S16x1600x64.size a
  concatenates_S16x1x64_S16x1x64_S16x1x64_S16x1x64_S16x4x64_d1 : Shape.Concatenates [S16x1x64, S16x1x64, S16x1x64, S16x1x64] S16x4x64 1
  inb_S16x780x64_S16x4x64_0_770_0 : ∀ a, (![0, 770, 0] : Fin 3 → Nat) a + S16x4x64.size a ≤ S16x780x64.size a
  inb_S16x1600x64_S16x3x64_0_1477_0 : ∀ a, (![0, 1477, 0] : Fin 3 → Nat) a + S16x3x64.size a ≤ S16x1600x64.size a
  h_S16x3x64 : 0 < S16x3x64.numel
  inb_S16x1600x64_S16x1x64_0_1516_0 : ∀ a, (![0, 1516, 0] : Fin 3 → Nat) a + S16x1x64.size a ≤ S16x1600x64.size a
  inb_S16x1600x64_S16x1x64_0_1556_0 : ∀ a, (![0, 1556, 0] : Fin 3 → Nat) a + S16x1x64.size a ≤ S16x1600x64.size a
  inb_S16x1600x64_S16x1x64_0_1596_0 : ∀ a, (![0, 1596, 0] : Fin 3 → Nat) a + S16x1x64.size a ≤ S16x1600x64.size a
  concatenates_S16x1x64_S16x1x64_S16x1x64_S16x3x64_d1 : Shape.Concatenates [S16x1x64, S16x1x64, S16x1x64] S16x3x64 1
  inb_S16x780x64_S16x3x64_0_774_0 : ∀ a, (![0, 774, 0] : Fin 3 → Nat) a + S16x3x64.size a ≤ S16x780x64.size a
  inb_S16x1600x64_S16x2x64_0_1518_0 : ∀ a, (![0, 1518, 0] : Fin 3 → Nat) a + S16x2x64.size a ≤ S16x1600x64.size a
  h_S16x2x64 : 0 < S16x2x64.numel
  inb_S16x1600x64_S16x1x64_0_1557_0 : ∀ a, (![0, 1557, 0] : Fin 3 → Nat) a + S16x1x64.size a ≤ S16x1600x64.size a
  inb_S16x1600x64_S16x1x64_0_1597_0 : ∀ a, (![0, 1597, 0] : Fin 3 → Nat) a + S16x1x64.size a ≤ S16x1600x64.size a
  concatenates_S16x1x64_S16x1x64_S16x2x64_d1 : Shape.Concatenates [S16x1x64, S16x1x64] S16x2x64 1
  inb_S16x780x64_S16x2x64_0_777_0 : ∀ a, (![0, 777, 0] : Fin 3 → Nat) a + S16x2x64.size a ≤ S16x780x64.size a
  inb_S16x1600x64_S16x1x64_0_1559_0 : ∀ a, (![0, 1559, 0] : Fin 3 → Nat) a + S16x1x64.size a ≤ S16x1600x64.size a
  inb_S16x1600x64_S16x1x64_0_1598_0 : ∀ a, (![0, 1598, 0] : Fin 3 → Nat) a + S16x1x64.size a ≤ S16x1600x64.size a
  inb_S16x780x64_S16x1x64_0_779_0 : ∀ a, (![0, 779, 0] : Fin 3 → Nat) a + S16x1x64.size a ≤ S16x780x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1600x64.size a ≤ S2048x1600x64.size a
  hwx0_0 : ∀ i : grid0.Coords, EltTy.bits .f32 = 32 ∨ (Rect.block (s := S2048x1600x64) S16x1600x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x780x64.size a ≤ S2048x780x64.size a
  hwx0_1 : ∀ i : grid0.Coords, EltTy.bits .f32 = 32 ∨ (Rect.block (s := S2048x780x64) S16x780x64.size (cc0_transform_1 i) (hinb0_1 i)).WholeWords (EltTy.packing .f32)

variable [Facts₀]

abbrev win0_0 : Pipeline.Window sig grid0 :=
  Pipeline.Window.ofSpec (Memref.whole main_arg0) S16x1600x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x780x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1600x64 : Shape := ⟨3, ![2048, 1600, 64]⟩
abbrev S2048x40x40x64 : Shape := ⟨4, ![2048, 40, 40, 64]⟩
abbrev S_ : Shape := ⟨0, ![]⟩
abbrev S40x40 : Shape := ⟨2, ![40, 40]⟩
abbrev S1600 : Shape := ⟨1, ![1600]⟩
abbrev S780 : Shape := ⟨1, ![780]⟩
abbrev S1600x1 : Shape := ⟨2, ![1600, 1]⟩
abbrev S780x1 : Shape := ⟨2, ![780, 1]⟩
abbrev S780x2 : Shape := ⟨2, ![780, 2]⟩
abbrev S2048x780x64 : Shape := ⟨3, ![2048, 780, 64]⟩

abbrev nBuf : Space → Nat
  | .hbm => 156
  | .vmem => 0
  | .smem => 0
  | _ => 0

abbrev hbmTy0_0 (i : Nat) : BufTy := match i % 128 with
  | 0 => ⟨S2048x1600x64, .f32⟩
  | 1 => ⟨S2048x40x40x64, .f32⟩
  | 2 => ⟨S_, .f32⟩
  | 3 => ⟨S40x40, .f32⟩
  | 4 => ⟨S40x40, .i32⟩
  | 5 => ⟨S_, .i32⟩
  | 6 => ⟨S40x40, .i32⟩
  | 7 => ⟨S40x40, .i32⟩
  | 8 => ⟨S40x40, .i32⟩
  | 9 => ⟨S40x40, .i1⟩
  | 10 => ⟨S_, .f32⟩
  | 11 => ⟨S40x40, .f32⟩
  | 12 => ⟨S40x40, .f32⟩
  | 13 => ⟨S_, .f32⟩
  | 14 => ⟨S40x40, .f32⟩
  | 15 => ⟨S40x40, .i1⟩
  | 16 => ⟨S1600, .i1⟩
  | 17 => ⟨S1600, .i32⟩
  | 18 => ⟨S_, .i32⟩
  | 19 => ⟨S_, .i32⟩
  | 20 => ⟨S1600, .i32⟩
  | 21 => ⟨S_, .i32⟩
  | 22 => ⟨S780, .i32⟩
  | 23 => ⟨S_, .i32⟩
  | 24 => ⟨S_, .i32⟩
  | 25 => ⟨S1600, .i32⟩
  | 26 => ⟨S1600, .i32⟩
  | 27 => ⟨S_, .i32⟩
  | 28 => ⟨S1600, .i32⟩
  | 29 => ⟨S1600, .i1⟩
  | 30 => ⟨S_, .i32⟩
  | 31 => ⟨S1600, .i32⟩
  | 32 => ⟨S1600, .i32⟩
  | 33 => ⟨S1600, .i32⟩
  | 34 => ⟨S1600x1, .i32⟩
  | 35 => ⟨S_, .i32⟩
  | 36 => ⟨S1600, .i32⟩
  | 37 => ⟨S780, .i32⟩
  | 38 => ⟨S_, .i32⟩
  | 39 => ⟨S_, .i32⟩
  | 40 => ⟨S780, .i32⟩
  | 41 => ⟨S_, .i32⟩
  | 42 => ⟨S780, .i32⟩
  | 43 => ⟨S780, .i32⟩
  | 44 => ⟨S780, .i32⟩
  | 45 => ⟨S_, .i32⟩
  | 46 => ⟨S780, .i32⟩
  | 47 => ⟨S780, .i1⟩
  | 48 => ⟨S780, .i32⟩
  | 49 => ⟨S780, .i32⟩
  | 50 => ⟨S_, .i32⟩
  | 51 => ⟨S780, .i32⟩
  | 52 => ⟨S780, .i1⟩
  | 53 => ⟨S780, .i1⟩
  | 54 => ⟨S_, .i32⟩
  | 55 => ⟨S780, .i32⟩
  | 56 => ⟨S780, .i32⟩
  | 57 => ⟨S780, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S780, .i32⟩
  | 65 => ⟨S780, .i32⟩
  | 66 => ⟨S_, .i32⟩
  | 67 => ⟨S780, .i32⟩
  | 68 => ⟨S780, .i1⟩
  | 69 => ⟨S_, .i32⟩
  | 70 => ⟨S780, .i32⟩
  | 71 => ⟨S780, .i1⟩
  | 72 => ⟨S_, .i32⟩
  | 73 => ⟨S_, .i1⟩
  | 74 => ⟨S780, .i1⟩
  | 75 => ⟨S780, .i1⟩
  | 76 => ⟨S780, .i1⟩
  | 77 => ⟨S780, .i32⟩
  | 78 => ⟨S780, .i32⟩
  | 79 => ⟨S780, .i32⟩
  | 80 => ⟨S_, .i32⟩
  | 81 => ⟨S780, .i32⟩
  | 82 => ⟨S780, .i32⟩
  | 83 => ⟨S780, .i32⟩
  | 84 => ⟨S_, .i32⟩
  | 85 => ⟨S780, .i32⟩
  | 86 => ⟨S780, .i1⟩
  | 87 => ⟨S780, .i32⟩
  | 88 => ⟨S780, .i32⟩
  | 89 => ⟨S_, .i32⟩
  | 90 => ⟨S780, .i32⟩
  | 91 => ⟨S780, .i1⟩
  | 92 => ⟨S780, .i1⟩
  | 93 => ⟨S_, .i32⟩
  | 94 => ⟨S780, .i32⟩
  | 95 => ⟨S780, .i32⟩
  | 96 => ⟨S780, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S780, .i32⟩
  | 104 => ⟨S780, .i32⟩
  | 105 => ⟨S_, .i32⟩
  | 106 => ⟨S780, .i32⟩
  | 107 => ⟨S780, .i1⟩
  | 108 => ⟨S_, .i32⟩
  | 109 => ⟨S780, .i32⟩
  | 110 => ⟨S780, .i1⟩
  | 111 => ⟨S_, .i32⟩
  | 112 => ⟨S_, .i1⟩
  | 113 => ⟨S780, .i1⟩
  | 114 => ⟨S780, .i1⟩
  | 115 => ⟨S780, .i1⟩
  | 116 => ⟨S780, .i32⟩
  | 117 => ⟨S780, .i32⟩
  | 118 => ⟨S780, .i32⟩
  | 119 => ⟨S_, .i32⟩
  | 120 => ⟨S780, .i32⟩
  | 121 => ⟨S780, .i1⟩
  | 122 => ⟨S_, .i32⟩
  | 123 => ⟨S780, .i32⟩
  | 124 => ⟨S780, .i32⟩
  | 125 => ⟨S780, .i32⟩
  | 126 => ⟨S_, .i32⟩
  | 127 => ⟨S780, .i32⟩
  | _ => ⟨S2048x1600x64, .f32⟩

abbrev hbmTy0_1 (i : Nat) : BufTy := match i % 128 with
  | 0 => ⟨S780, .i1⟩
  | 1 => ⟨S_, .i32⟩
  | 2 => ⟨S780, .i32⟩
  | 3 => ⟨S780, .i32⟩
  | 4 => ⟨S780, .i32⟩
  | 5 => ⟨S780x1, .i32⟩
  | 6 => ⟨S780x1, .i32⟩
  | 7 => ⟨S780x2, .i32⟩
  | 8 => ⟨S2048x780x64, .f32⟩
  | 9 => ⟨S_, .i32⟩
  | 10 => ⟨S780, .i32⟩
  | 11 => ⟨S780, .i1⟩
  | 12 => ⟨S_, .i32⟩
  | 13 => ⟨S780, .i32⟩
  | 14 => ⟨S780, .i32⟩
  | 15 => ⟨S780, .i32⟩
  | 16 => ⟨S_, .i32⟩
  | 17 => ⟨S780, .i32⟩
  | 18 => ⟨S780, .i1⟩
  | 19 => ⟨S_, .i32⟩
  | 20 => ⟨S780, .i32⟩
  | 21 => ⟨S780, .i32⟩
  | 22 => ⟨S780, .i32⟩
  | 23 => ⟨S780x1, .i32⟩
  | 24 => ⟨S780x1, .i32⟩
  | 25 => ⟨S780x2, .i32⟩
  | 26 => ⟨S2048x780x64, .f32⟩
  | 27 => ⟨S2048x780x64, .f32⟩
  | _ => ⟨S2048x1600x64, .f32⟩

abbrev hbmTy (i : Nat) : BufTy := match i / 128 with
  | 0 => hbmTy0_0 i
  | 1 => hbmTy0_1 i
  | _ => ⟨S2048x1600x64, .f32⟩

abbrev bufTy : (tb : Table) → Fin (tcTables nBuf tb) → BufTy
  | .hbm, ⟨i, _⟩ => hbmTy i
  | _, _ => ⟨S2048x1600x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_c_13 : Ref sig .tc := ⟨.hbm, 137, rfl⟩
abbrev main_v35 : Ref sig .tc := ⟨.hbm, 138, rfl⟩
abbrev main_v36 : Ref sig .tc := ⟨.hbm, 139, rfl⟩
abbrev main_c_14 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_c_15 : Ref sig .tc := ⟨.hbm, 144, rfl⟩
abbrev main_v40 : Ref sig .tc := ⟨.hbm, 145, rfl⟩
abbrev main_v41 : Ref sig .tc := ⟨.hbm, 146, rfl⟩
abbrev main_c_16 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩

abbrev nD : Nat := 1
abbrev τ : Topo := Topo.v7x

variable {F : FTy → Type} [FloatOps F]

class Facts₀ : Prop where
  shapeCasts_S2048x1600x64_S2048x40x40x64 : S2048x1600x64.ShapeCasts S2048x40x40x64
  bcast_S_S40x40 : S_.BroadcastsInDim S40x40 (![] : Fin 0 → Fin S40x40.rank)
  shapeCasts_S40x40_S1600 : S40x40.ShapeCasts S1600
  natLt_1_32 : 1 < 32
  bcast_S_S_ : S_.BroadcastsInDim S_ (![] : Fin 0 → Fin S_.rank)
  reduceWindows_S1600_S1600_w1600s1p1599_0 : S1600.ReduceWindows (![1600] : Fin 1 → Nat) ![1] ![1599] ![0] S1600
  h_S_ : 0 < S_.numel
  bcast_S_S780 : S_.BroadcastsInDim S780 (![] : Fin 0 → Fin S780.rank)
  bcast_S_S1600 : S_.BroadcastsInDim S1600 (![] : Fin 0 → Fin S1600.rank)
  bcast_S1600_S1600x1_0 : S1600.BroadcastsInDim S1600x1 (![0] : Fin 1 → Fin S1600x1.rank)
  reduceWindows_S780_S780_w780s1p779_0 : S780.ReduceWindows (![780] : Fin 1 → Nat) ![1] ![779] ![0] S780
  bcast_S780_S780x1_0 : S780.BroadcastsInDim S780x1 (![0] : Fin 1 → Fin S780x1.rank)
  concatenates_S780x1_S780x1_S780x2_d1 : Shape.Concatenates [S780x1, S780x1] S780x2 1
  scatter_S780_S1600x1_S1600_n_0_0_1_wf : ScatterDims.WF S780 S1600x1 S1600 [] [0] [0] 1
  gather_S2048x40x40x64_S780x2_S2048x780x64_02_12_n_n_12_1_20481164_wf : GatherDims.WF S2048x40x40x64 S780x2 S2048x780x64 [0, 2] [1, 2] [] [1, 2] [] 1 ![2048, 1, 1, 64]

variable [Facts₀]

def scatter_S780_S1600x1_S1600_n_0_0_1 : ScatterDims S780 S1600x1 S1600 where
  updateWindowDims := []
  insertedWindowDims := [0]
  scatterDimsToOperandDims := [0]
  indexVectorDim := 1
  wf := scatter_S780_S1600x1_S1600_n_0_0_1_wf
def gather_S2048x40x40x64_S780x2_S2048x780x64_02_12_n_n_12_1_20481164 : GatherDims S2048x40x40x64 S780x2 S2048x780x64 where
  offsetDims := [0, 2]
  collapsedSliceDims := [1, 2]
  operandBatchingDims := []
  startIndicesBatchingDims := []
  startIndexMap := [1, 2]
  indexVectorDim := 1
  sliceSizes := ![2048, 1, 1, 64]
  wf := gather_S2048x40x40x64_S780x2_S2048x780x64_02_12_n_n_12_1_20481164_wf

class Facts : Prop extends Facts₀ where

variable [Facts]
-- ==== Proof.PairOrder.lean ====
/-
  The strictly-upper-triangular pairs (i, j), i < j < 40, of a 40 × 40 grid, listed row by row:
  row i holds the 39 - i pairs (i, i+1), …, (i, 39), and the rows before it hold
  off i = 39 + 38 + … + (40 - i) = i (79 - i) / 2 pairs, so pair (i, j) has position off i + (j - i - 1),
  and there are off 39 = 780 pairs in all. rowOf and colOf invert the listing: the pair at position p.
  The function the two programs compute: entry (b, p, e) of the result is the product of the input's
  entries (b, 40 i + j, e) and (b, 40 j + i, e) for the pair (i, j) at position p.
-/
import Idealize.ShloMosaic.PureOps.Ideal
import Idealize.ShloMosaic.Lib.ValueIdx

namespace Cert.PairOrder

open Idealize.ShloMosaic Idealize.ShloMosaic.ValueIdx

/-- The number of pairs in the rows before row i. -/
def off (i : Nat) : Nat := i * (79 - i) / 2

/-- The row of the pair at position p: the number of rows that end at or before p. -/
def rowOf (p : Nat) : Nat := ((List.range 40).filter fun i => decide (off (i + 1) ≤ p)).length

/-- The column of the pair at position p. -/
def colOf (p : Nat) : Nat := p - off (rowOf p) + rowOf p + 1

/-- Position off i + l is the pair (i, i + 1 + l). -/
theorem pair_at : ∀ i : Fin 39, ∀ l : Fin 39, l.val < 39 - i.val →
    rowOf (off i.val + l.val) = i.val ∧ colOf (off i.val + l.val) = i.val + 1 + l.val := by
  decide +kernel

/-- Every position below 780 holds a pair (i, j) with i < j < 40, and sits where the listing puts that pair. -/
theorem pair_of : ∀ p : Fin 780, rowOf p.val < colOf p.val ∧ colOf p.val < 40
    ∧ p.val = off (rowOf p.val) + (colOf p.val - rowOf p.val - 1) := by
  decide +kernel

theorem rowOf_lt (p : Nat) (hp : p < 780) : rowOf p < 40 := by
  have := pair_of ⟨p, hp⟩; simp only at this; omega

theorem colOf_lt (p : Nat) (hp : p < 780) : colOf p < 40 := (pair_of ⟨p, hp⟩).2.1

/-- The input's shape [2048, 1600, 64] and the result's [2048, 780, 64]. -/
abbrev SX : Shape := ⟨3, ![2048, 1600, 64]⟩
abbrev SO : Shape := ⟨3, ![2048, 780, 64]⟩

/-- The flat field index 40 a + b of the grid entry (a, b). -/
def cell (a b : Nat) : Fin 1600 := ⟨(40 * a + b) % 1600, Nat.mod_lt _ (by decide)⟩

/-- The products of the mirrored field pairs: entry (b, p, e) is x (b, 40 i + j, e) · x (b, 40 j + i, e), (i, j) the pair at p. -/
noncomputable def pairProd (x : SX.Idx → EReal) : SO.Idx → EReal := fun j =>
  x (ix3 (j 0) (cell (rowOf (j 1).val) (colOf (j 1).val)) (j 2))
    * x (ix3 (j 0) (cell (colOf (j 1).val) (rowOf (j 1).val)) (j 2))

end Cert.PairOrder
-- ==== Proof.KernelBlock.lean ====
/-
  One batch tile of the kernel. The body writes, for each row i of the field grid, the 39 - i products
  x[:, 40 i + j, :] · x[:, 40 j + i, :], j = i + 1 … 39, at rows off i … off i + 38 - i of the output tile: the first factor is
  ONE contiguous slice of the input tile (rows 41 i + 1 … 40 i + 39), the second a stack of single rows 40 j + i, each loaded
  as a [16, 1, 64] block, squeezed to [16, 64] and expanded again. Read at an index (tb, l, e), such a payload is
  x (tb, 41 i + 1 + l, e) · x (tb, 40 (i + 1 + l) + i, e), the tile's entry of the pair at position off i + l.
-/
import proofs.«154658_j69715909148812_2_alg».proof.Proof.Gen.KernelIdeal.Frame.RunA
import proofs.«154658_j69715909148812_2_alg».proof.Proof.PairOrder
import Idealize.ShloMosaic.Lib.Pipeline.Value
import Idealize.ShloMosaic.Lib.ValueIdx
import Idealize.ShloMosaic.PureOps.Ideal

noncomputable section

namespace Cert.KernelIdeal.Block

open Cert.KernelIdeal Cert.KernelIdeal.Gen Cert.PairOrder
open Idealize.ShloMosaic Idealize.ShloMosaic.ValueIdx Idealize.ShloMosaic.TcCoe

variable [Facts]
open Facts₀

/-- The tile's products: entry (tb, p, e) is x (tb, 40 i + j, e) · x (tb, 40 j + i, e) for the pair (i, j) at position p. -/
def blockProd (x0 : S16x1600x64.Idx → EReal) : S16x780x64.Idx → EReal := fun j =>
  x0 (ix3 (j 0) (cell (rowOf (j 1).val) (colOf (j 1).val)) (j 2))
    * x0 (ix3 (j 0) (cell (colOf (j 1).val) (rowOf (j 1).val)) (j 2))

/-- A single row of the input tile lies inside it. -/
theorem inb_row (r : Fin 1600) : ∀ a, (![0, r.val, 0] : Fin 3 → Nat) a + (![16, 1, 64] : Fin 3 → Nat) a ≤ S16x1600x64.size a := by
  intro a
  match a with
  | ⟨0, _⟩ => exact Nat.le_refl _
  | ⟨1, _⟩ => exact r.isLt
  | ⟨2, _⟩ => exact Nat.le_refl _

/-- Row r of the tile as the body stacks it: loaded as a [16, 1, 64] block, squeezed, expanded again. -/
def rowBlk (arg1 : Memref sig .tc .vmem S16x1600x64 .f32) (harg1 : arg1.IsWhole) (x0 : Vec Ideal S16x1600x64 .f32)
    (r : Fin 1600) : FVec Ideal S16x1x64 .f32 :=
  shapeCast S16x1x64 (shapeCast S16x64
    (View.readAt (Elt Ideal) arg1.view (Rect.unit (s := S16x1600x64) ![0, r.val, 0] ![16, 1, 64] (inb_row r)).toLoadRect (harg1.unread x0))
    Gen.shapeCasts_S16x1x64_S16x64) Gen.shapeCasts_S16x64_S16x1x64

/-- The squeeze and the expansion cancel: the block is the tile's row. -/
theorem rowBlk_apply (arg1 : Memref sig .tc .vmem S16x1600x64 .f32) (harg1 : arg1.IsWhole) (x0 : Vec Ideal S16x1600x64 .f32)
    (r : Fin 1600) (tb : Fin 16) (e : Fin 64) :
    rowBlk arg1 harg1 x0 r (ix3 tb (0 : Fin 1) e) = x0 (ix3 tb r e) := by
  unfold rowBlk
  rw [shapeCast_shapeCast, View.readAt_eq_ld, harg1.read_unread]
  show x0 _ = x0 _
  refine congrArg x0 (funext fun a => Fin.ext ?_)
  match a with
  | ⟨0, _⟩ => show 0 + 1 * tb.val = tb.val; omega
  | ⟨1, _⟩ => show r.val + 1 * 0 = r.val; omega
  | ⟨2, _⟩ => show 0 + 1 * e.val = e.val; omega

/-- The tile's products at explicit coordinates. -/
theorem blockProd_at (x0 : S16x1600x64.Idx → EReal) (tb : Fin 16) (p : Fin 780) (e : Fin 64) :
    blockProd x0 (ix3 tb p e) = x0 (ix3 tb (cell (rowOf p.val) (colOf p.val)) e) * x0 (ix3 tb (cell (colOf p.val) (rowOf p.val)) e) := rfl

/-- ONE store of the body, read at an index. For row i of the grid (L = 39 - i pairs) the stored value is the slice of rows
    41 i + 1 … of the input tile times a second factor B whose entry (tb, l, e) is the tile's (tb, 40 (i + 1 + l) + i, e); at local
    index (tb, l, e) that is x (tb, 41 i + 1 + l, e) · x (tb, 40 (i + 1 + l) + i, e), and the store's rectangle puts it at row
    off i + l of the output tile, the position of the pair (i, i + 1 + l): the tile's product there. -/
theorem prod_eq (arg1 : Memref sig .tc .vmem S16x1600x64 .f32) (harg1 : arg1.IsWhole) (x0 : Vec Ideal S16x1600x64 .f32)
    (i L : Nat) (hiL : i + L = 39)
    (inbO : ∀ a, (![0, off i, 0] : Fin 3 → Nat) a + (![16, L, 64] : Fin 3 → Nat) a ≤ S16x780x64.size a)
    (inbA : ∀ a, (![0, 41 * i + 1, 0] : Fin 3 → Nat) a + (![16, L, 64] : Fin 3 → Nat) a ≤ S16x1600x64.size a)
    (hrow : ∀ n : Fin L, 40 * (i + 1 + n.val) + i < 1600)
    (B : FVec Ideal ⟨3, ![16, L, 64]⟩ .f32)
    (hB : ∀ (tb : Fin 16) (l : Fin L) (e : Fin 64), B (ix3 tb l e) = x0 (ix3 tb (⟨40 * (i + 1 + l.val) + i, hrow l⟩ : Fin 1600) e))
    (y : (⟨3, ![16, L, 64]⟩ : Shape).Idx) :
    mulf (F := Ideal) (s := ⟨3, ![16, L, 64]⟩) (φ := .f32)
        (View.readAt (Elt Ideal) arg1.view (Rect.unit (s := S16x1600x64) ![0, 41 * i + 1, 0] ![16, L, 64] inbA).toLoadRect (harg1.unread x0)) B y
      = blockProd x0 ((Rect.unit (s := S16x780x64) ![0, off i, 0] ![16, L, 64] inbO).emb y) := by
  obtain ⟨tb, l, e, rfl⟩ : ∃ (tb : Fin 16) (l : Fin L) (e : Fin 64), y = ix3 tb l e := ⟨y 0, y 1, y 2, eq_ix3 y⟩
  have hoL : off i + L ≤ 780 := inbO 1
  have hlL : l.val < L := l.isLt
  rw [mulf_apply, hB, View.readAt_eq_ld, harg1.read_unread]
  -- where the store's rectangle puts local index (tb, l, e)
  have hE : (Rect.unit (s := S16x780x64) ![0, off i, 0] ![16, L, 64] inbO).emb (ix3 tb l e)
      = ix3 tb (⟨off i + l.val, by omega⟩ : Fin 780) e := by
    funext a
    refine Fin.ext ?_
    match a with
    | ⟨0, _⟩ => show 0 + 1 * tb.val = tb.val; omega
    | ⟨1, _⟩ => show off i + 1 * l.val = off i + l.val; omega
    | ⟨2, _⟩ => show 0 + 1 * e.val = e.val; omega
  rw [hE, blockProd_at]
  -- the pair at position off i + l is (i, i + 1 + l)
  obtain ⟨hr, hcl⟩ := pair_at ⟨i, by omega⟩ ⟨l.val, by omega⟩ (by show l.val < 39 - i; omega)
  simp only at hr hcl
  rw [hr, hcl]
  congr 1
  · show x0 _ = x0 _
    refine congrArg x0 (funext fun a => Fin.ext ?_)
    match a with
    | ⟨0, _⟩ => show 0 + 1 * tb.val = tb.val; omega
    | ⟨1, _⟩ =>
      show 41 * i + 1 + 1 * l.val = (40 * i + (i + 1 + l.val)) % 1600
      rw [Nat.mod_eq_of_lt (by omega)]; omega
    | ⟨2, _⟩ => show 0 + 1 * e.val = e.val; omega
  · refine congrArg x0 (funext fun a => Fin.ext ?_)
    match a with
    | ⟨0, _⟩ => rfl
    | ⟨1, _⟩ =>
      show 40 * (i + 1 + l.val) + i = (40 * (i + 1 + l.val) + i) % 1600
      rw [Nat.mod_eq_of_lt (by omega)]
    | ⟨2, _⟩ => rfl

/-- A store whose second factor is a STACK of L ≥ 2 single rows (a concatenation along axis 1 of the row blocks). -/
theorem piece_eq (arg1 : Memref sig .tc .vmem S16x1600x64 .f32) (harg1 : arg1.IsWhole) (x0 : Vec Ideal S16x1600x64 .f32)
    (i L : Nat) (hiL : i + L = 39)
    (inbO : ∀ a, (![0, off i, 0] : Fin 3 → Nat) a + (![16, L, 64] : Fin 3 → Nat) a ≤ S16x780x64.size a)
    (inbA : ∀ a, (![0, 41 * i + 1, 0] : Fin 3 → Nat) a + (![16, L, 64] : Fin 3 → Nat) a ≤ S16x1600x64.size a)
    (hrow : ∀ n : Fin L, 40 * (i + 1 + n.val) + i < 1600)
    (hc : Shape.Concatenates ((List.ofFn fun n : Fin L =>
        (⟨S16x1x64, rowBlk arg1 harg1 x0 ⟨40 * (i + 1 + n.val) + i, hrow n⟩⟩ : (s : Shape) × (s.Idx → EReal))).map (·.1)) ⟨3, ![16, L, 64]⟩ 1)
    (y : (⟨3, ![16, L, 64]⟩ : Shape).Idx) :
    mulf (F := Ideal) (s := ⟨3, ![16, L, 64]⟩) (φ := .f32)
        (View.readAt (Elt Ideal) arg1.view (Rect.unit (s := S16x1600x64) ![0, 41 * i + 1, 0] ![16, L, 64] inbA).toLoadRect (harg1.unread x0))
        (concatenate ⟨3, ![16, L, 64]⟩ 1 (List.ofFn fun n : Fin L =>
          (⟨S16x1x64, rowBlk arg1 harg1 x0 ⟨40 * (i + 1 + n.val) + i, hrow n⟩⟩ : (s : Shape) × (s.Idx → EReal))) hc) y
      = blockProd x0 ((Rect.unit (s := S16x780x64) ![0, off i, 0] ![16, L, 64] inbO).emb y) := by
  refine prod_eq arg1 harg1 x0 i L hiL inbO inbA hrow _ (fun tb l e => ?_) y
  -- the stack at (tb, l, e) is its l-th row block at (tb, 0, e)
  rw [concatenate_ofFn_unit_apply (t := ⟨3, ![16, L, 64]⟩) (s₁ := S16x1x64) (1 : Fin 3)
    (fun n : Fin L => rowBlk arg1 harg1 x0 ⟨40 * (i + 1 + n.val) + i, hrow n⟩) hc rfl rfl (ix3 tb l e) l rfl (ix3 tb (0 : Fin 1) e)
    (by
      intro b hb
      match b with
      | ⟨0, _⟩ => rfl
      | ⟨1, _⟩ => exact absurd rfl hb
      | ⟨2, _⟩ => rfl), rowBlk_apply]

/-- The last row's store: ONE pair, the second factor a single row block. -/
theorem piece1_eq (arg1 : Memref sig .tc .vmem S16x1600x64 .f32) (harg1 : arg1.IsWhole) (x0 : Vec Ideal S16x1600x64 .f32)
    (inbO : ∀ a, (![0, off 38, 0] : Fin 3 → Nat) a + (![16, 1, 64] : Fin 3 → Nat) a ≤ S16x780x64.size a)
    (inbA : ∀ a, (![0, 41 * 38 + 1, 0] : Fin 3 → Nat) a + (![16, 1, 64] : Fin 3 → Nat) a ≤ S16x1600x64.size a)
    (y : (⟨3, ![16, 1, 64]⟩ : Shape).Idx) :
    mulf (F := Ideal) (s := ⟨3, ![16, 1, 64]⟩) (φ := .f32)
        (View.readAt (Elt Ideal) arg1.view (Rect.unit (s := S16x1600x64) ![0, 41 * 38 + 1, 0] ![16, 1, 64] inbA).toLoadRect (harg1.unread x0))
        (rowBlk arg1 harg1 x0 ⟨1598, by decide⟩) y
      = blockProd x0 ((Rect.unit (s := S16x780x64) ![0, off 38, 0] ![16, 1, 64] inbO).emb y) := by
  refine prod_eq arg1 harg1 x0 38 1 rfl inbO inbA (fun n => by have := n.isLt; omega) _ (fun tb l e => ?_) y
  obtain rfl : l = 0 := Subsingleton.elim _ _
  exact rowBlk_apply arg1 harg1 x0 ⟨1598, by decide⟩ tb e

end Cert.KernelIdeal.Block

end
-- ==== Proof.KernelPieces.lean ====
/- The body's 39 stores, one per row i of the field grid, in the order the run lists them: row 38's single pair first, row 0's
  thirty-nine pairs last. Each store's payload is the product of a slice of the input tile and a stack of single rows, and its
  rectangle starts at row off i of the output tile; each is one instance of the store lemma (KernelBlock), with L = 39 - i.
-/
import proofs.«154658_j69715909148812_2_alg».proof.Proof.KernelBlock

noncomputable section

namespace Cert.KernelIdeal.Block

open Cert.KernelIdeal Cert.KernelIdeal.Gen Cert.PairOrder
open Idealize.ShloMosaic Idealize.ShloMosaic.ValueIdx Idealize.ShloMosaic.TcCoe

variable [Facts]

attribute [local irreducible] concatenate in
set_option maxRecDepth 100000 in
set_option maxHeartbeats 8000000 in
/-- Every store of the body holds the tile's products on its rectangle: the store's payload and rectangle are matched against
    the store lemma by unfolding the payload down to its product of a slice and a stack of rows (the stack itself stays folded). -/
theorem pieces_eq (c : Dev nD) (i : grid0.Coords) (arg1 : Memref sig .tc .vmem S16x1600x64 .f32) (harg1 : arg1.IsWhole)
    (arg2 : Memref sig .tc .vmem S16x780x64 .f32) (harg2 : arg2.IsWhole) (x0 : Vec Ideal S16x1600x64 .f32) :
    ∀ p ∈ (kernelRun0_A (F := Ideal) c i arg1 harg1 arg2 harg2 x0).1, ∀ x : p.1.shape.Idx, p.2 x = blockProd x0 (p.1.emb x) := by
  unfold kernelRun0_A
  dsimp only
  refine List.forall_mem_cons.2 ⟨?_, ?_⟩
  · intro x; dsimp only; exact piece1_eq arg1 harg1 x0 _ _ x
  refine List.forall_mem_cons.2 ⟨?_, ?_⟩
  · intro x; dsimp only; exact piece_eq arg1 harg1 x0 37 2 rfl _ _ (fun n => by have := n.isLt; omega) _ x
  refine List.forall_mem_cons.2 ⟨?_, ?_⟩
  · intro x; dsimp only; exact piece_eq arg1 harg1 x0 36 3 rfl _ _ (fun n => by have := n.isLt; omega) _ x
  refine List.forall_mem_cons.2 ⟨?_, ?_⟩
  · intro x; dsimp only; exact piece_eq arg1 harg1 x0 35 4 rfl _ _ (fun n => by have := n.isLt; omega) _ x
  refine List.forall_mem_cons.2 ⟨?_, ?_⟩
  · intro x; dsimp only; exact piece_eq arg1 harg1 x0 34 5 rfl _ _ (fun n => by have := n.isLt; omega) _ x
  refine List.forall_mem_cons.2 ⟨?_, ?_⟩
  · intro x; dsimp only; exact piece_eq arg1 harg1 x0 33 6 rfl _ _ (fun n => by have := n.isLt; omega) _ x
  refine List.forall_mem_cons.2 ⟨?_, ?_⟩
  · intro x; dsimp only; exact piece_eq arg1 harg1 x0 32 7 rfl _ _ (fun n => by have := n.isLt; omega) _ x
  refine List.forall_mem_cons.2 ⟨?_, ?_⟩
  · intro x; dsimp only; exact piece_eq arg1 harg1 x0 31 8 rfl _ _ (fun n => by have := n.isLt; omega) _ x
  refine List.forall_mem_cons.2 ⟨?_, ?_⟩
  · intro x; dsimp only; exact piece_eq arg1 harg1 x0 30 9 rfl _ _ (fun n => by have := n.isLt; omega) _ x
  refine List.forall_mem_cons.2 ⟨?_, ?_⟩
  · intro x; dsimp only; exact piece_eq arg1 harg1 x0 29 10 rfl _ _ (fun n => by have := n.isLt; omega) _ x
  refine List.forall_mem_cons.2 ⟨?_, ?_⟩
  · intro x; dsimp only; exact piece_eq arg1 harg1 x0 28 11 rfl _ _ (fun n => by have := n.isLt; omega) _ x
  refine List.forall_mem_cons.2 ⟨?_, ?_⟩
  · intro x; dsimp only; exact piece_eq arg1 harg1 x0 27 12 rfl _ _ (fun n => by have := n.isLt; omega) _ x
  refine List.forall_mem_cons.2 ⟨?_, ?_⟩
  · intro x; dsimp only; exact piece_eq arg1 harg1 x0 26 13 rfl _ _ (fun n => by have := n.isLt; omega) _ x
  refine List.forall_mem_cons.2 ⟨?_, ?_⟩
  · intro x; dsimp only; exact piece_eq arg1 harg1 x0 25 14 rfl _ _ (fun n => by have := n.isLt; omega) _ x
  refine List.forall_mem_cons.2 ⟨?_, ?_⟩
  · intro x; dsimp only; exact piece_eq arg1 harg1 x0 24 15 rfl _ _ (fun n => by have := n.isLt; omega) _ x
  refine List.forall_mem_cons.2 ⟨?_, ?_⟩
  · intro x; dsimp only; exact piece_eq arg1 harg1 x0 23 16 rfl _ _ (fun n => by have := n.isLt; omega) _ x
  refine List.forall_mem_cons.2 ⟨?_, ?_⟩
  · intro x; dsimp only; exact piece_eq arg1 harg1 x0 22 17 rfl _ _ (fun n => by have := n.isLt; omega) _ x
  refine List.forall_mem_cons.2 ⟨?_, ?_⟩
  · intro x; dsimp only; exact piece_eq arg1 harg1 x0 21 18 rfl _ _ (fun n => by have := n.isLt; omega) _ x
  refine List.forall_mem_cons.2 ⟨?_, ?_⟩
  · intro x; dsimp only; exact piece_eq arg1 harg1 x0 20 19 rfl _ _ (fun n => by have := n.isLt; omega) _ x
  refine List.forall_mem_cons.2 ⟨?_, ?_⟩
  · intro x; dsimp only; exact piece_eq arg1 harg1 x0 19 20 rfl _ _ (fun n => by have := n.isLt; omega) _ x
  refine List.forall_mem_cons.2 ⟨?_, ?_⟩
  · intro x; dsimp only; exact piece_eq arg1 harg1 x0 18 21 rfl _ _ (fun n => by have := n.isLt; omega) _ x
  refine List.forall_mem_cons.2 ⟨?_, ?_⟩
  · intro x; dsimp only; exact piece_eq arg1 harg1 x0 17 22 rfl _ _ (fun n => by have := n.isLt; omega) _ x
  refine List.forall_mem_cons.2 ⟨?_, ?_⟩
  · intro x; dsimp only; exact piece_eq arg1 harg1 x0 16 23 rfl _ _ (fun n => by have := n.isLt; omega) _ x
  refine List.forall_mem_cons.2 ⟨?_, ?_⟩
  · intro x; dsimp only; exact piece_eq arg1 harg1 x0 15 24 rfl _ _ (fun n => by have := n.isLt; omega) _ x
  refine List.forall_mem_cons.2 ⟨?_, ?_⟩
  · intro x; dsimp only; exact piece_eq arg1 harg1 x0 14 25 rfl _ _ (fun n => by have := n.isLt; omega) _ x
  refine List.forall_mem_cons.2 ⟨?_, ?_⟩
  · intro x; dsimp only; exact piece_eq arg1 harg1 x0 13 26 rfl _ _ (fun n => by have := n.isLt; omega) _ x
  refine List.forall_mem_cons.2 ⟨?_, ?_⟩
  · intro x; dsimp only; exact piece_eq arg1 harg1 x0 12 27 rfl _ _ (fun n => by have := n.isLt; omega) _ x
  refine List.forall_mem_cons.2 ⟨?_, ?_⟩
  · intro x; dsimp only; exact piece_eq arg1 harg1 x0 11 28 rfl _ _ (fun n => by have := n.isLt; omega) _ x
  refine List.forall_mem_cons.2 ⟨?_, ?_⟩
  · intro x; dsimp only; exact piece_eq arg1 harg1 x0 10 29 rfl _ _ (fun n => by have := n.isLt; omega) _ x
  refine List.forall_mem_cons.2 ⟨?_, ?_⟩
  · intro x; dsimp only; exact piece_eq arg1 harg1 x0 9 30 rfl _ _ (fun n => by have := n.isLt; omega) _ x
  refine List.forall_mem_cons.2 ⟨?_, ?_⟩
  · intro x; dsimp only; exact piece_eq arg1 harg1 x0 8 31 rfl _ _ (fun n => by have := n.isLt; omega) _ x
  refine List.forall_mem_cons.2 ⟨?_, ?_⟩
  · intro x; dsimp only; exact piece_eq arg1 harg1 x0 7 32 rfl _ _ (fun n => by have := n.isLt; omega) _ x
  refine List.forall_mem_cons.2 ⟨?_, ?_⟩
  · intro x; dsimp only; exact piece_eq arg1 harg1 x0 6 33 rfl _ _ (fun n => by have := n.isLt; omega) _ x
  refine List.forall_mem_cons.2 ⟨?_, ?_⟩
  · intro x; dsimp only; exact piece_eq arg1 harg1 x0 5 34 rfl _ _ (fun n => by have := n.isLt; omega) _ x
  refine List.forall_mem_cons.2 ⟨?_, ?_⟩
  · intro x; dsimp only; exact piece_eq arg1 harg1 x0 4 35 rfl _ _ (fun n => by have := n.isLt; omega) _ x
  refine List.forall_mem_cons.2 ⟨?_, ?_⟩
  · intro x; dsimp only; exact piece_eq arg1 harg1 x0 3 36 rfl _ _ (fun n => by have := n.isLt; omega) _ x
  refine List.forall_mem_cons.2 ⟨?_, ?_⟩
  · intro x; dsimp only; exact piece_eq arg1 harg1 x0 2 37 rfl _ _ (fun n => by have := n.isLt; omega) _ x
  refine List.forall_mem_cons.2 ⟨?_, ?_⟩
  · intro x; dsimp only; exact piece_eq arg1 harg1 x0 1 38 rfl _ _ (fun n => by have := n.isLt; omega) _ x
  refine List.forall_mem_cons.2 ⟨?_, ?_⟩
  · intro x; dsimp only; exact piece_eq arg1 harg1 x0 0 39 rfl _ _ (fun n => by have := n.isLt; omega) _ x
  exact fun _ h => absurd h List.not_mem_nil

end Cert.KernelIdeal.Block

end
-- ==== Proof.KernelValue.lean ====
/-
  From the kernel's batch tiles to its whole result. The kernel runs over 128 grid points; point t stages batch rows
  16 t … 16 t + 15 of the input (all 1600 field rows, all 64 columns), the body fills the matching tile of the result
  with the products of the mirrored field pairs, and the tile is written back to batch rows 16 t … 16 t + 15 of the
  result array. Here: the body's stores, which cover the tile and each hold the tile's products on their rectangle,
  leave the tile's products in the staging buffer; a tile's products are the whole array's products at the tile's
  batch rows, so every point writes back its block of ONE whole-array function; the 128 blocks cover the array
  (batch row r is in the block of point r / 16); so the array ends at that function, the argument unchanged.
-/
import proofs.«154658_j69715909148812_2_alg».proof.Proof.FrameKernelIdeal
import proofs.«154658_j69715909148812_2_alg».proof.Proof.KernelPieces
import proofs.«154658_j69715909148812_2_alg».proof.Proof.PairOrder
import Idealize.ShloMosaic.Lib.Pipeline.Value

noncomputable section

namespace Cert.KernelIdeal.KValue

open Cert.KernelIdeal Cert.KernelIdeal.Gen Cert.PairOrder
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## One batch tile: what the body leaves in the output's staging buffer -/

/-- The body's stores cover the output tile, and each holds the tile's products on its rectangle: the staging
    buffer ends holding the tile's products, whatever the order of the stores. -/
theorem out_eq (c : Dev nD) (i : grid0.Coords) (arg1 : Memref sig .tc .vmem S16x1600x64 .f32) (harg1 : arg1.IsWhole)
    (arg2 : Memref sig .tc .vmem S16x780x64 .f32) (harg2 : arg2.IsWhole) (x0 : Vec Ideal S16x1600x64 .f32) :
    GenP.out0_A_1 c i arg1 harg1 arg2 harg2 x0 = Block.blockProd x0 := by
  unfold GenP.out0_A_1
  rw [View.read_writes_eq_canon _ _ _ (GenP.cover0_A_1 c i arg1 harg1 arg2 harg2 x0)]
  funext y
  exact View.canon_apply_of_pieces (Block.blockProd x0) _ (Block.pieces_eq c i arg1 harg1 arg2 harg2 x0) y
    (GenP.cover0_A_1 c i arg1 harg1 arg2 harg2 x0 y)

/-! ## What each grid point writes back, and the array after the run, block by block -/

/-- What grid point t writes back to the result array: what the body left in the staging buffer, read through the
    window's block. -/
theorem flushed1 (c : Dev nD) (t : Fin cfg0.N) :
    (GenP.dats m 0 c).flushed 1 t = (cfg0.win 1).cut (grid0.coords t) (GenP.outsAt0 m c t) := by
  show (cfg0.win 1).cut (grid0.coords t) ((GenP.dats m 0 c).after 1 t) = _
  rw [GenP.after0_1]

/-- … which is the body's result on the point's staging memrefs and input block. -/
theorem flushed1_A (c : Dev nD) (t : Fin cfg0.N) :
    (GenP.dats m 0 c).flushed 1 t = (cfg0.win 1).cut (grid0.coords t)
      (GenP.out0_A_1 c (grid0.coords t) (ms0_0 t) (hs0_0 t) (ms0_1 t) (hs0_1 t) (iblk m c 0 t)) := by
  simp only [flushed1, GenP.outsAt0]

/-- After the run the result array is what the write-backs leave. -/
theorem post1 (r : PUnit × MemSt nD τ sig (Elt Ideal)) (h : Pipeline.FramePost cfgs (GenP.dats m) 0 (V m) r) (c : Dev nD) :
    r.2.mem ((c : Thread nD τ).loc main_v0) = (GenP.dats m 0 c).arrAt 1 cfg0.N :=
  (h c).1 1

/-- After the run the argument is as launched: its window is fetched, never written back. -/
theorem kept_main_arg0 (r : PUnit × MemSt nD τ sig (Elt Ideal)) (h : Pipeline.FramePost cfgs (GenP.dats m) 0 (V m) r)
    (c : Dev nD) : r.2.mem ((c : Thread nD τ).loc main_arg0) = m ((c : Thread nD τ).loc main_arg0) :=
  ((h c).1 0).trans (((GenP.dats m 0 c).arrAt_in 0 rfl _).trans ((GenP.A_eq m c 0).trans (V_main_arg0 m c)))

/-! ## From tiles to the whole array -/

/-- Both windows' index maps send grid point t to block (t, 0, 0): the point's tile is batch rows 16 t … 16 t + 15,
    all field rows, all embedding columns. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input tile at point t, read at (tb, r, e), is the whole input at (16 t + tb, r, e). -/
theorem iblk_apply (c : Dev nD) (t : Fin cfg0.N) (z : S16x1600x64.Idx) (k : S2048x1600x64.Idx)
    (hk0 : (k 0).val = 16 * t.val + (z 0).val) (hk1 : (k 1).val = (z 1).val) (hk2 : (k 2).val = (z 2).val) :
    (iblk m c 0 t : Vec Ideal S16x1600x64 .f32) z = (m ((c : Thread nD τ).loc main_arg0) : S2048x1600x64.Idx → EReal) k := by
  obtain ⟨e0, e1, e2, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 16 + 1 * (z 0).val = (k 0).val; rw [e0, hk0]; omega
  | ⟨1, _⟩ => show win0_0.index t (1 : Fin 3) * 1600 + 1 * (z 1).val = (k 1).val; rw [e1, hk1]; omega
  | ⟨2, _⟩ => show win0_0.index t (2 : Fin 3) * 64 + 1 * (z 2).val = (k 2).val; rw [e2, hk2]; omega

/-- A tile's products are the whole array's products at the tile's batch rows: if the tile x0 is the whole input X at
    batch rows 16 T + tb, then its product at (tb, p, e) is the whole product at (16 T + tb, p, e) — the pair at
    position p is the same pair, and both factors are read at the same batch row and column. -/
theorem blockProd_eq_pairProd (X : S2048x1600x64.Idx → EReal) (x0 : S16x1600x64.Idx → EReal) (T : Nat)
    (hx0 : ∀ (z : S16x1600x64.Idx) (k : S2048x1600x64.Idx), (k 0).val = 16 * T + (z 0).val → (k 1).val = (z 1).val →
      (k 2).val = (z 2).val → x0 z = X k)
    (y : S16x780x64.Idx) (k : S2048x780x64.Idx) (hk0 : (k 0).val = 16 * T + (y 0).val) (hk1 : (k 1).val = (y 1).val)
    (hk2 : (k 2).val = (y 2).val) :
    Block.blockProd x0 y = pairProd X k := by
  unfold Block.blockProd pairProd
  rw [hk1]
  congr 1
  · exact hx0 _ _ hk0 rfl hk2
  · exact hx0 _ _ hk0 rfl hk2

/-- WHAT POINT t WRITES BACK is its block of the whole array of products of the argument as launched. -/
theorem flushed_eq (c : Dev nD) (t : Fin cfg0.N) :
    (GenP.dats m 0 c).flushed 1 t
      = ((cfg0.win 1).blk t).view.read (Elt Ideal) (pairProd (m ((c : Thread nD τ).loc main_arg0))) := by
  obtain ⟨-, -, -, e0, e1, e2⟩ := idx_facts t
  rw [flushed1_A, out_eq]
  funext y
  show Block.blockProd (iblk m c 0 t) ((cfg0.win 1).xinj (grid0.coords t) y)
    = pairProd (m ((c : Thread nD τ).loc main_arg0)) (((cfg0.win 1).blk t).view.emb y)
  refine blockProd_eq_pairProd (m ((c : Thread nD τ).loc main_arg0)) (iblk m c 0 t) t.val
    (fun z k h0 h1 h2 => iblk_apply m c t z k h0 h1 h2) _ _ ?_ ?_ ?_
  · show win0_1.index t (0 : Fin 3) * 16 + 1 * (y 0).val = 16 * t.val + (y 0).val; rw [e0]; omega
  · show win0_1.index t (1 : Fin 3) * 780 + 1 * (y 1).val = (y 1).val; rw [e1]; omega
  · show win0_1.index t (2 : Fin 3) * 64 + 1 * (y 2).val = (y 2).val; rw [e2]; omega

/-- An index of the result array is in point t's block iff each coordinate is in the block's range on its axis. -/
theorem mem_blk (t : Fin cfg0.N) (i : S2048x780x64.Idx) :
    i ∈ ((cfg0.win 1).blk t).view.set ↔ ∀ a : Fin 3, win0_1.index t a * S16x780x64.size a ≤ (i a).val
      ∧ (i a).val < win0_1.index t a * S16x780x64.size a + S16x780x64.size a := by
  show i ∈ ((View.whole main_v0).slice (win0_1.rect t)).set ↔ _
  rw [View.set_slice_whole, Rect.mem_set_unit]
  exact Iff.rfl

/-- Every index of the result array is in some point's block: batch row r is in the block of point r / 16
    (128 points of 16 rows each). -/
theorem covered (i : S2048x780x64.Idx) :
    ∃ t : Fin cfg0.N, (cfg0.win 1).flush t = true ∧ i ∈ ((cfg0.win 1).blk t).view.set := by
  have hN : cfg0.N = 128 := N_0
  have hi0 : (i 0).val < 2048 := (i 0).isLt
  have hi1 : (i 1).val < 780 := (i 1).isLt
  have hi2 : (i 2).val < 64 := (i 2).isLt
  refine ⟨⟨(i 0).val / 16, by rw [hN]; omega⟩, flush0_1 _, ?_⟩
  obtain ⟨-, -, -, e0, e1, e2⟩ := idx_facts ⟨(i 0).val / 16, by rw [hN]; omega⟩
  rw [mem_blk]
  intro a
  match a with
  | ⟨0, _⟩ =>
    show win0_1.index _ (0 : Fin 3) * 16 ≤ (i 0).val ∧ (i 0).val < win0_1.index _ (0 : Fin 3) * 16 + 16
    rw [e0]; show (i 0).val / 16 * 16 ≤ (i 0).val ∧ (i 0).val < (i 0).val / 16 * 16 + 16; omega
  | ⟨1, _⟩ =>
    show win0_1.index _ (1 : Fin 3) * 780 ≤ (i 1).val ∧ (i 1).val < win0_1.index _ (1 : Fin 3) * 780 + 780
    rw [e1]; omega
  | ⟨2, _⟩ =>
    show win0_1.index _ (2 : Fin 3) * 64 ≤ (i 2).val ∧ (i 2).val < win0_1.index _ (2 : Fin 3) * 64 + 64
    rw [e2]; omega

/-- THE RESULT ARRAY after the run: the products of the mirrored field pairs of the argument as launched. -/
theorem final (c : Dev nD) :
    (GenP.dats m 0 c).arrAt 1 cfg0.N = pairProd (m ((c : Thread nD τ).loc main_arg0)) :=
  (GenP.dats m 0 c).arrAt_eq_of_cover 1 (pairProd (m ((c : Thread nD τ).loc main_arg0)))
    (fun t _ => flushed_eq m c t) covered

/-! ## The run, read -/

/-- Every execution of the kernel program from any memory ends with the result array at the products of the mirrored
    field pairs of the argument, and the argument unchanged. -/
theorem run : θ_run defs (onTc (τ := τ) (main (F := Ideal))) ⟨m, fun _ => 0, ρ⟩ fun r => ∀ c : Dev nD,
      r.2.mem ((c.tc : Thread nD τ).loc main_v0) = pairProd (m ((c.tc : Thread nD τ).loc main_arg0))
      ∧ r.2.mem ((c.tc : Thread nD τ).loc main_arg0) = m ((c.tc : Thread nD τ).loc main_arg0) :=
  (θ_run defs _ _).mono (fun r h c => ⟨(post1 m r h c).trans (final m c), kept_main_arg0 m r h c⟩)
    (GenP.run_main m ρ)

end Cert.KernelIdeal.KValue

end
-- ==== Proof.Stages.lean ====
/-
  The reference program's result as a pure function of its argument, read at the exact instance: its
  operations composed in the program's order, the functions it calls (triu, cumsum, clip, floor_divide,
  remainder) as functions. The field-pair indices are computed, not tabulated: the strict upper triangle's
  mask, its running count along the flattened grid, the count's histogram (a scatter-add of ones), the
  histogram's running sum — the flat position of the p-th pair —, that position's quotient and remainder
  by 40, and two gathers of the input at (row, column) and (column, row), multiplied.
-/
import proofs.«154658_j69715909148812_2_alg».proof.ReferenceIdeal
import Idealize.ShloMosaic.PureOps.Ideal

noncomputable section

namespace Cert.ReferenceIdeal.Stages

open Cert.ReferenceIdeal Idealize.ShloMosaic
open Facts₀

variable [Facts]

/-- The scalar integer constant n. -/
abbrev lit (n : BitVec 32) : IVec S_ 32 := constantI S_ 32 n

/-- jnp.triu(·, k = 1) of a 40 × 40 float array: zero where row + 0 ≥ column. -/
def triu (a : FVec Ideal S40x40 .f32) : FVec Ideal S40x40 .f32 :=
  select (cmpi .sge (addi (iotaInDim S40x40 32 0) (broadcastInDim S40x40 ![] bcast_S_S40x40 (lit 0#32))) (iotaInDim S40x40 32 1))
    (broadcastInDim S40x40 ![] bcast_S_S40x40 (constant (F := Ideal) S_ .f32 0x00000000#32)) a

/-- The mask of the strict upper triangle: triu of all ones, compared with zero. -/
def mask : IVec S40x40 1 :=
  cmpf (F := Ideal) .une (triu (broadcastInDim S40x40 ![] bcast_S_S40x40 (constant (F := Ideal) S_ .f32 0x3F800000#32)))
    (broadcastInDim S40x40 ![] bcast_S_S40x40 (constant (F := Ideal) S_ .f32 0x00000000#32))

/-- The mask flattened, as 32-bit integers. -/
def maskFlat : IVec S1600 32 := extui 32 (shapeCast S1600 mask shapeCasts_S40x40_S1600) natLt_1_32

/-- jnp.cumsum over 1600 entries: a window of 1600, padded 1599 low. -/
def cumsum1600 (a : IVec S1600 32) : IVec S1600 32 :=
  Host.reduceWindow IntOp.addi ![1600] ![1] ![1599] ![0] a (broadcastInDim S_ ![] bcast_S_S_ (lit 0#32))
    reduceWindows_S1600_S1600_w1600s1p1599_0 h_S_

/-- jnp.cumsum over 780 entries. -/
def cumsum780 (a : IVec S780 32) : IVec S780 32 :=
  Host.reduceWindow IntOp.addi ![780] ![1] ![779] ![0] a (broadcastInDim S_ ![] bcast_S_S_ (lit 0#32))
    reduceWindows_S780_S780_w780s1p779_0 h_S_

/-- jnp.clip(a, lo): the larger of lo and a. -/
def clip (a : IVec S1600 32) (lo : IVec S_ 32) : IVec S1600 32 :=
  maxsi (broadcastInDim S1600 ![] bcast_S_S1600 (id lo)) a

/-- A negative index counted from the end: a + n where a < 0. -/
def wrap1600 (a : IVec S1600 32) : IVec S1600 32 :=
  select (cmpi .slt a (broadcastInDim S1600 ![] bcast_S_S1600 (lit 0#32)))
    (addi a (broadcastInDim S1600 ![] bcast_S_S1600 (lit 780#32))) a

def wrap40 (a : IVec S780 32) : IVec S780 32 :=
  select (cmpi .slt a (broadcastInDim S780 ![] bcast_S_S780 (lit 0#32)))
    (addi a (broadcastInDim S780 ![] bcast_S_S780 (lit 40#32))) a

/-- The running count of the mask along the flattened grid, clipped at zero and wrapped as an index. -/
def counts : IVec S1600 32 := wrap1600 (clip (cumsum1600 maskFlat) (lit 0#32))

/-- The histogram of the running counts: ones scatter-added at them into 780 zeros. -/
def histogram : IVec S780 32 :=
  Host.scatter scatter_S780_S1600x1_S1600_n_0_0_1 IntOp.addi (broadcastInDim S780 ![] bcast_S_S780 (lit 0#32))
    (broadcastInDim S1600x1 ![0] bcast_S1600_S1600x1_0 counts) (broadcastInDim S1600 ![] bcast_S_S1600 (lit 1#32))

/-- The flat grid position of each of the 780 pairs. -/
def flatPos : IVec S780 32 := cumsum780 histogram

/-- jnp.floor_divide(a, b): the truncated quotient, less one where the signs differ and the division is inexact. -/
def floorDivide (a : IVec S780 32) (b : IVec S_ 32) : IVec S780 32 :=
  select (andi (cmpi .ne (signi a) (broadcastInDim S780 ![] bcast_S_S780 (signi b)))
      (cmpi .ne (Host.remsi a (broadcastInDim S780 ![] bcast_S_S780 b)) (broadcastInDim S780 ![] bcast_S_S780 (lit 0#32))))
    (subi (Host.divsi a (broadcastInDim S780 ![] bcast_S_S780 b)) (broadcastInDim S780 ![] bcast_S_S780 (lit 1#32)))
    (Host.divsi a (broadcastInDim S780 ![] bcast_S_S780 b))

/-- The divisor jnp.remainder really divides by: 1 in place of 0. -/
def safeDivisor (b : IVec S_ 32) : IVec S_ 32 := select (cmpi .eq (id b) (lit 0#32)) (lit 1#32) (id b)

/-- jnp.remainder(a, b): the truncated remainder, plus the divisor where its sign differs from the divisor's and it is not zero. -/
def remainder (a : IVec S780 32) (b : IVec S_ 32) : IVec S780 32 :=
  select (andi (cmpi .ne (cmpi .slt (Host.remsi a (broadcastInDim S780 ![] bcast_S_S780 (safeDivisor b))) (broadcastInDim S780 ![] bcast_S_S780 (lit 0#32)))
        (broadcastInDim S780 ![] bcast_S_S780 (cmpi .slt (safeDivisor b) (lit 0#32))))
      (cmpi .ne (Host.remsi a (broadcastInDim S780 ![] bcast_S_S780 (safeDivisor b))) (broadcastInDim S780 ![] bcast_S_S780 (lit 0#32))))
    (addi (Host.remsi a (broadcastInDim S780 ![] bcast_S_S780 (safeDivisor b))) (broadcastInDim S780 ![] bcast_S_S780 (safeDivisor b)))
    (Host.remsi a (broadcastInDim S780 ![] bcast_S_S780 (safeDivisor b)))

/-- Each pair's row and column in the grid: (position // 40) % 40 and (position // 1) % 40. -/
def rows : IVec S780 32 := remainder (floorDivide flatPos (lit 40#32)) (lit 40#32)
def cols : IVec S780 32 := remainder (floorDivide flatPos (lit 1#32)) (lit 40#32)

/-- Two index columns side by side: the start indices of a gather. -/
def indexPairs (a b : IVec S780 32) : IVec S780x2 32 :=
  concatenate S780x2 1 [⟨S780x1, broadcastInDim S780x1 ![0] bcast_S780_S780x1_0 (wrap40 a)⟩,
    ⟨S780x1, broadcastInDim S780x1 ![0] bcast_S780_S780x1_0 (wrap40 b)⟩] concatenates_S780x1_S780x1_S780x2_d1

/-- The input as a [2048, 40, 40, 64] array. -/
def grid (x : FVec Ideal S2048x1600x64 .f32) : FVec Ideal S2048x40x40x64 .f32 :=
  shapeCast S2048x40x40x64 x shapeCasts_S2048x1600x64_S2048x40x40x64

/-- The reference's result: x[:, rows, cols, :] · x[:, cols, rows, :]. -/
def out (x : FVec Ideal S2048x1600x64 .f32) : FVec Ideal S2048x780x64 .f32 :=
  mulf (Host.gather gather_S2048x40x40x64_S780x2_S2048x780x64_02_12_n_n_12_1_20481164 (grid x) (indexPairs rows cols))
    (Host.gather gather_S2048x40x40x64_S780x2_S2048x780x64_02_12_n_n_12_1_20481164 (grid x) (indexPairs cols rows))

end Cert.ReferenceIdeal.Stages

end
-- ==== Proof.RefRun.lean ====
/-
  The reference program's run, read back. Its entry function is a straight line of host operations once every
  call is replaced by the callee's body over the call's own buffers (a call executes the body on the operands, each
  value of the body in a buffer of its own). `ops` is that line, 155 operations; `main_eq` says the printed
  program is the line; a straight line terminates on every fair execution with each buffer at the fold of the
  operations over the launch contents, and the fold at the result buffer is the composition `Stages.out` of the
  argument's contents. -/
import proofs.«154658_j69715909148812_2_alg».proof.ReferenceIdeal
import proofs.«154658_j69715909148812_2_alg».proof.Proof.Stages
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]
variable [Facts]

/-- The entry function's 155 operations in order, every call unfolded at its site: the callee's lines over the
    call's record of buffers, its parameters the call's operands (an operand of the caller taken at the parameter's
    tensor type). The upper-triangle mask is nine lines, each running sum two or three, the clip three, each floor
    division sixteen (the last the selection it calls), each remainder twenty-one (the fifth the scalar selection
    it calls). -/
abbrev ops : List (HloOp τ sig (Elt F)) :=
  [ StableHlo.reshape main_arg0 main_v0 rfl shapeCasts_S2048x1600x64_S2048x40x40x64,
    StableHlo.nullary main_cst (constant S_ .f32 0x3F800000#32),
    StableHlo.unary main_cst main_v1 (broadcastInDim S40x40 ![] bcast_S_S40x40 : (⟨S_, .f32⟩ : BufTy).Contents (Elt F) → (⟨S40x40, .f32⟩ : BufTy).Contents (Elt F)),
    StableHlo.TRef.nullary main_call0.v0 (iotaInDim S40x40 32 0),
    StableHlo.TRef.nullary main_call0.c (constantI S_ 32 0#32),
    StableHlo.TRef.unary main_call0.c main_call0.v1 (broadcastInDim S40x40 ![] bcast_S_S40x40),
    StableHlo.TRef.binary main_call0.v0 main_call0.v1 main_call0.v2 addi,
    StableHlo.TRef.nullary main_call0.v3 (iotaInDim S40x40 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S40x40 ![] bcast_S_S40x40),
    StableHlo.TRef.ternary main_call0.v4 main_call0.v5 (.of main_v1 : StableHlo.TRef sig ⟨S40x40, .f32⟩) main_call0.v6 select,
    StableHlo.nullary main_cst_0 (constant S_ .f32 0x00000000#32),
    StableHlo.unary main_cst_0 main_v3 (broadcastInDim S40x40 ![] bcast_S_S40x40 : (⟨S_, .f32⟩ : BufTy).Contents (Elt F) → (⟨S40x40, .f32⟩ : BufTy).Contents (Elt F)),
    StableHlo.binary main_v2 main_v3 main_v4 (cmpf .une : (⟨S40x40, .f32⟩ : BufTy).Contents (Elt F) → (⟨S40x40, .f32⟩ : BufTy).Contents (Elt F) → (⟨S40x40, .i1⟩ : BufTy).Contents (Elt F)),
    StableHlo.TRef.reshape (.of main_v4 : StableHlo.TRef sig ⟨S40x40, .i1⟩) main_call1.v0 rfl shapeCasts_S40x40_S1600,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1600] ![1] ![1599] ![0] x v reduceWindows_S1600_S1600_w1600s1p1599_0 h_S_),
    StableHlo.nullary main_c (constantI S_ 32 0#32),
    StableHlo.unary main_c main_v6 (broadcastInDim S780 ![] bcast_S_S780 : (⟨S_, .i32⟩ : BufTy).Contents (Elt F) → (⟨S780, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1600 ![] bcast_S_S1600),
    StableHlo.TRef.binary main_call2.v1 (.of main_v5 : StableHlo.TRef sig ⟨S1600, .i32⟩) main_call2.v2 maxsi,
    StableHlo.nullary main_c_2 (constantI S_ 32 0#32),
    StableHlo.unary main_c_2 main_v8 (broadcastInDim S1600 ![] bcast_S_S1600 : (⟨S_, .i32⟩ : BufTy).Contents (Elt F) → (⟨S1600, .i32⟩ : BufTy).Contents (Elt F)),
    StableHlo.binary main_v7 main_v8 main_v9 (cmpi .slt : (⟨S1600, .i32⟩ : BufTy).Contents (Elt F) → (⟨S1600, .i32⟩ : BufTy).Contents (Elt F) → (⟨S1600, .i1⟩ : BufTy).Contents (Elt F)),
    StableHlo.nullary main_c_3 (constantI S_ 32 780#32),
    StableHlo.unary main_c_3 main_v10 (broadcastInDim S1600 ![] bcast_S_S1600 : (⟨S_, .i32⟩ : BufTy).Contents (Elt F) → (⟨S1600, .i32⟩ : BufTy).Contents (Elt F)),
    StableHlo.binary main_v7 main_v10 main_v11 (addi : (⟨S1600, .i32⟩ : BufTy).Contents (Elt F) → (⟨S1600, .i32⟩ : BufTy).Contents (Elt F) → (⟨S1600, .i32⟩ : BufTy).Contents (Elt F)),
    StableHlo.ternary main_v9 main_v11 main_v7 main_v12 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    StableHlo.unary main_v12 main_v13 (broadcastInDim S1600x1 ![0] bcast_S1600_S1600x1_0 : (⟨S1600, .i32⟩ : BufTy).Contents (Elt F) → (⟨S1600x1, .i32⟩ : BufTy).Contents (Elt F)),
    StableHlo.nullary main_c_4 (constantI S_ 32 1#32),
    StableHlo.unary main_c_4 main_v14 (broadcastInDim S1600 ![] bcast_S_S1600 : (⟨S_, .i32⟩ : BufTy).Contents (Elt F) → (⟨S1600, .i32⟩ : BufTy).Contents (Elt F)),
    StableHlo.ternary main_v6 main_v13 main_v14 main_v15 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S780, .i32⟩) main_call3.call0.v0 main_call3.call0.v1 (fun x v => Host.reduceWindow IntOp.addi ![780] ![1] ![779] ![0] x v reduceWindows_S780_S780_w780s1p779_0 h_S_),
    StableHlo.nullary main_c_5 (constantI S_ 32 40#32),
    StableHlo.TRef.unary (.of main_c_5 : StableHlo.TRef sig ⟨S_, .i32⟩) main_call4.v0 (broadcastInDim S780 ![] bcast_S_S780),
    StableHlo.TRef.binary (.of main_v16 : StableHlo.TRef sig ⟨S780, .i32⟩) main_call4.v0 main_call4.v1 Host.divsi,
    StableHlo.TRef.unary (.of main_v16 : StableHlo.TRef sig ⟨S780, .i32⟩) main_call4.v2 signi,
    StableHlo.TRef.unary (.of main_c_5 : StableHlo.TRef sig ⟨S_, .i32⟩) main_call4.v3 signi,
    StableHlo.TRef.unary main_call4.v3 main_call4.v4 (broadcastInDim S780 ![] bcast_S_S780),
    StableHlo.TRef.binary main_call4.v2 main_call4.v4 main_call4.v5 (cmpi .ne),
    StableHlo.TRef.unary (.of main_c_5 : StableHlo.TRef sig ⟨S_, .i32⟩) main_call4.v6 (broadcastInDim S780 ![] bcast_S_S780),
    StableHlo.TRef.binary (.of main_v16 : StableHlo.TRef sig ⟨S780, .i32⟩) main_call4.v6 main_call4.v7 Host.remsi,
    StableHlo.TRef.nullary main_call4.c (constantI S_ 32 0#32),
    StableHlo.TRef.unary main_call4.c main_call4.v8 (broadcastInDim S780 ![] bcast_S_S780),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S780 ![] bcast_S_S780),
    StableHlo.TRef.binary main_call4.v1 main_call4.v11 main_call4.v12 subi,
    StableHlo.TRef.ternary main_call4.v10 main_call4.v12 main_call4.v1 main_call4.call0.v0 select,
    StableHlo.nullary main_c_6 (constantI S_ 32 40#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S780 ![] bcast_S_S780),
    StableHlo.TRef.binary (.of main_v17 : StableHlo.TRef sig ⟨S780, .i32⟩) main_call5.v3 main_call5.v4 Host.remsi,
    StableHlo.TRef.nullary main_call5.c_1 (constantI S_ 32 0#32),
    StableHlo.TRef.unary main_call5.c_1 main_call5.v5 (broadcastInDim S780 ![] bcast_S_S780),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S780 ![] bcast_S_S780),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S780 ![] bcast_S_S780),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S780 ![] bcast_S_S780),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S780 ![] bcast_S_S780),
    StableHlo.TRef.binary (.of main_v16 : StableHlo.TRef sig ⟨S780, .i32⟩) main_call6.v0 main_call6.v1 Host.divsi,
    StableHlo.TRef.unary (.of main_v16 : StableHlo.TRef sig ⟨S780, .i32⟩) main_call6.v2 signi,
    StableHlo.TRef.unary (.of main_c_7 : StableHlo.TRef sig ⟨S_, .i32⟩) main_call6.v3 signi,
    StableHlo.TRef.unary main_call6.v3 main_call6.v4 (broadcastInDim S780 ![] bcast_S_S780),
    StableHlo.TRef.binary main_call6.v2 main_call6.v4 main_call6.v5 (cmpi .ne),
    StableHlo.TRef.unary (.of main_c_7 : StableHlo.TRef sig ⟨S_, .i32⟩) main_call6.v6 (broadcastInDim S780 ![] bcast_S_S780),
    StableHlo.TRef.binary (.of main_v16 : StableHlo.TRef sig ⟨S780, .i32⟩) main_call6.v6 main_call6.v7 Host.remsi,
    StableHlo.TRef.nullary main_call6.c (constantI S_ 32 0#32),
    StableHlo.TRef.unary main_call6.c main_call6.v8 (broadcastInDim S780 ![] bcast_S_S780),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S780 ![] bcast_S_S780),
    StableHlo.TRef.binary main_call6.v1 main_call6.v11 main_call6.v12 subi,
    StableHlo.TRef.ternary main_call6.v10 main_call6.v12 main_call6.v1 main_call6.call0.v0 select,
    StableHlo.nullary main_c_8 (constantI S_ 32 40#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S780 ![] bcast_S_S780),
    StableHlo.TRef.binary (.of main_v19 : StableHlo.TRef sig ⟨S780, .i32⟩) main_call7.v3 main_call7.v4 Host.remsi,
    StableHlo.TRef.nullary main_call7.c_1 (constantI S_ 32 0#32),
    StableHlo.TRef.unary main_call7.c_1 main_call7.v5 (broadcastInDim S780 ![] bcast_S_S780),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S780 ![] bcast_S_S780),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S780 ![] bcast_S_S780),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S780 ![] bcast_S_S780),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S780 ![] bcast_S_S780 : (⟨S_, .i32⟩ : BufTy).Contents (Elt F) → (⟨S780, .i32⟩ : BufTy).Contents (Elt F)),
    StableHlo.binary main_v18 main_v21 main_v22 (cmpi .slt : (⟨S780, .i32⟩ : BufTy).Contents (Elt F) → (⟨S780, .i32⟩ : BufTy).Contents (Elt F) → (⟨S780, .i1⟩ : BufTy).Contents (Elt F)),
    StableHlo.nullary main_c_10 (constantI S_ 32 40#32),
    StableHlo.unary main_c_10 main_v23 (broadcastInDim S780 ![] bcast_S_S780 : (⟨S_, .i32⟩ : BufTy).Contents (Elt F) → (⟨S780, .i32⟩ : BufTy).Contents (Elt F)),
    StableHlo.binary main_v18 main_v23 main_v24 (addi : (⟨S780, .i32⟩ : BufTy).Contents (Elt F) → (⟨S780, .i32⟩ : BufTy).Contents (Elt F) → (⟨S780, .i32⟩ : BufTy).Contents (Elt F)),
    StableHlo.ternary main_v22 main_v24 main_v18 main_v25 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    StableHlo.nullary main_c_11 (constantI S_ 32 0#32),
    StableHlo.unary main_c_11 main_v26 (broadcastInDim S780 ![] bcast_S_S780 : (⟨S_, .i32⟩ : BufTy).Contents (Elt F) → (⟨S780, .i32⟩ : BufTy).Contents (Elt F)),
    StableHlo.binary main_v20 main_v26 main_v27 (cmpi .slt : (⟨S780, .i32⟩ : BufTy).Contents (Elt F) → (⟨S780, .i32⟩ : BufTy).Contents (Elt F) → (⟨S780, .i1⟩ : BufTy).Contents (Elt F)),
    StableHlo.nullary main_c_12 (constantI S_ 32 40#32),
    StableHlo.unary main_c_12 main_v28 (broadcastInDim S780 ![] bcast_S_S780 : (⟨S_, .i32⟩ : BufTy).Contents (Elt F) → (⟨S780, .i32⟩ : BufTy).Contents (Elt F)),
    StableHlo.binary main_v20 main_v28 main_v29 (addi : (⟨S780, .i32⟩ : BufTy).Contents (Elt F) → (⟨S780, .i32⟩ : BufTy).Contents (Elt F) → (⟨S780, .i32⟩ : BufTy).Contents (Elt F)),
    StableHlo.ternary main_v27 main_v29 main_v20 main_v30 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    StableHlo.unary main_v25 main_v31 (broadcastInDim S780x1 ![0] bcast_S780_S780x1_0 : (⟨S780, .i32⟩ : BufTy).Contents (Elt F) → (⟨S780x1, .i32⟩ : BufTy).Contents (Elt F)),
    StableHlo.unary main_v30 main_v32 (broadcastInDim S780x1 ![0] bcast_S780_S780x1_0 : (⟨S780, .i32⟩ : BufTy).Contents (Elt F) → (⟨S780x1, .i32⟩ : BufTy).Contents (Elt F)),
    StableHlo.binary main_v31 main_v32 main_v33 ((fun a b => concatenate S780x2 1 [⟨S780x1, a⟩, ⟨S780x1, b⟩] concatenates_S780x1_S780x1_S780x2_d1) : (⟨S780x1, .i32⟩ : BufTy).Contents (Elt F) → (⟨S780x1, .i32⟩ : BufTy).Contents (Elt F) → (⟨S780x2, .i32⟩ : BufTy).Contents (Elt F)),
    StableHlo.binary main_v0 main_v33 main_v34 ((fun x i => Host.gather gather_S2048x40x40x64_S780x2_S2048x780x64_02_12_n_n_12_1_20481164 x i) : (⟨S2048x40x40x64, .f32⟩ : BufTy).Contents (Elt F) → (⟨S780x2, .i32⟩ : BufTy).Contents (Elt F) → (⟨S2048x780x64, .f32⟩ : BufTy).Contents (Elt F)),
    StableHlo.nullary main_c_13 (constantI S_ 32 0#32),
    StableHlo.unary main_c_13 main_v35 (broadcastInDim S780 ![] bcast_S_S780 : (⟨S_, .i32⟩ : BufTy).Contents (Elt F) → (⟨S780, .i32⟩ : BufTy).Contents (Elt F)),
    StableHlo.binary main_v20 main_v35 main_v36 (cmpi .slt : (⟨S780, .i32⟩ : BufTy).Contents (Elt F) → (⟨S780, .i32⟩ : BufTy).Contents (Elt F) → (⟨S780, .i1⟩ : BufTy).Contents (Elt F)),
    StableHlo.nullary main_c_14 (constantI S_ 32 40#32),
    StableHlo.unary main_c_14 main_v37 (broadcastInDim S780 ![] bcast_S_S780 : (⟨S_, .i32⟩ : BufTy).Contents (Elt F) → (⟨S780, .i32⟩ : BufTy).Contents (Elt F)),
    StableHlo.binary main_v20 main_v37 main_v38 (addi : (⟨S780, .i32⟩ : BufTy).Contents (Elt F) → (⟨S780, .i32⟩ : BufTy).Contents (Elt F) → (⟨S780, .i32⟩ : BufTy).Contents (Elt F)),
    StableHlo.ternary main_v36 main_v38 main_v20 main_v39 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    StableHlo.nullary main_c_15 (constantI S_ 32 0#32),
    StableHlo.unary main_c_15 main_v40 (broadcastInDim S780 ![] bcast_S_S780 : (⟨S_, .i32⟩ : BufTy).Contents (Elt F) → (⟨S780, .i32⟩ : BufTy).Contents (Elt F)),
    StableHlo.binary main_v18 main_v40 main_v41 (cmpi .slt : (⟨S780, .i32⟩ : BufTy).Contents (Elt F) → (⟨S780, .i32⟩ : BufTy).Contents (Elt F) → (⟨S780, .i1⟩ : BufTy).Contents (Elt F)),
    StableHlo.nullary main_c_16 (constantI S_ 32 40#32),
    StableHlo.unary main_c_16 main_v42 (broadcastInDim S780 ![] bcast_S_S780 : (⟨S_, .i32⟩ : BufTy).Contents (Elt F) → (⟨S780, .i32⟩ : BufTy).Contents (Elt F)),
    StableHlo.binary main_v18 main_v42 main_v43 (addi : (⟨S780, .i32⟩ : BufTy).Contents (Elt F) → (⟨S780, .i32⟩ : BufTy).Contents (Elt F) → (⟨S780, .i32⟩ : BufTy).Contents (Elt F)),
    StableHlo.ternary main_v41 main_v43 main_v18 main_v44 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    StableHlo.unary main_v39 main_v45 (broadcastInDim S780x1 ![0] bcast_S780_S780x1_0 : (⟨S780, .i32⟩ : BufTy).Contents (Elt F) → (⟨S780x1, .i32⟩ : BufTy).Contents (Elt F)),
    StableHlo.unary main_v44 main_v46 (broadcastInDim S780x1 ![0] bcast_S780_S780x1_0 : (⟨S780, .i32⟩ : BufTy).Contents (Elt F) → (⟨S780x1, .i32⟩ : BufTy).Contents (Elt F)),
    StableHlo.binary main_v45 main_v46 main_v47 ((fun a b => concatenate S780x2 1 [⟨S780x1, a⟩, ⟨S780x1, b⟩] concatenates_S780x1_S780x1_S780x2_d1) : (⟨S780x1, .i32⟩ : BufTy).Contents (Elt F) → (⟨S780x1, .i32⟩ : BufTy).Contents (Elt F) → (⟨S780x2, .i32⟩ : BufTy).Contents (Elt F)),
    StableHlo.binary main_v0 main_v47 main_v48 ((fun x i => Host.gather gather_S2048x40x40x64_S780x2_S2048x780x64_02_12_n_n_12_1_20481164 x i) : (⟨S2048x40x40x64, .f32⟩ : BufTy).Contents (Elt F) → (⟨S780x2, .i32⟩ : BufTy).Contents (Elt F) → (⟨S2048x780x64, .f32⟩ : BufTy).Contents (Elt F)),
    StableHlo.binary main_v34 main_v48 main_v49 (mulf : (⟨S2048x780x64, .f32⟩ : BufTy).Contents (Elt F) → (⟨S2048x780x64, .f32⟩ : BufTy).Contents (Elt F) → (⟨S2048x780x64, .f32⟩ : BufTy).Contents (Elt F)) ]

/-- The printed program is that straight line: its two windows, the functions' bodies at their calls and the
    records at their fields unfolded, both sides are one chain of single steps once sequencing is reassociated. -/
theorem main_eq (c : Dev nD) : main (F := F) c = seq ops := by
  simp only [main, main_part0, main_part1, fn_triu.body, fn_cumsum_0.body, fn_cumsum.body, fn_clip.body, fn_cumsum_2.body,
    fn_cumsum_1.body, fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨reshape_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., binary_bufs_sub ..⟩

/-- A transport along an equation of a type with itself is the identity (stated with a proof term that is not a
    reflexivity, so that rewriting with it is a rewriting step and not a change of the goal up to unfolding). -/
theorem cast_id {α : Sort _} (h : α = α) (a : α) : cast h a = a := eq_of_heq (cast_heq h a)

/-- Two columns of 780 indices side by side: the concatenation the program makes of them, as a function of the two
    columns (so that a rewriting pass sees the columns as plain arguments and not inside a list of shaped pairs). -/
def pairCat (a b : IVec S780x1 32) : IVec S780x2 32 :=
  concatenate S780x2 1 [⟨S780x1, a⟩, ⟨S780x1, b⟩] concatenates_S780x1_S780x1_S780x2_d1

theorem pairCat_eq (a b : IVec S780x1 32) :
    concatenate S780x2 1 [⟨S780x1, a⟩, ⟨S780x1, b⟩] concatenates_S780x1_S780x1_S780x2_d1 = pairCat a b := by
  rw [pairCat]

/-- One pass over the fold: each operation's result at its own buffer is its function of its operands' contents,
    at any other buffer what was there (the two references told apart by computation). -/
local macro "read_back" : tactic =>
  `(tactic| (simp (disch := decide) only [after_cons, after_nil,
      nullary_result', unary_result', binary_result', ternary_result', reshape_result',
      nullary_result_ne', unary_result_ne', binary_result_ne', ternary_result_ne', reshape_result_ne', pairCat_eq]))

attribute [local irreducible] Host.reduceWindow Host.scatter Host.gather concatenate in
set_option maxHeartbeats 400000 in
/-- The fold at the result buffer is the composition of the stages. One pass rewrites each operation's result at
    its own buffer to its function of its operands' contents and at any other buffer to what was there; the
    transports between a buffer's contents and a tensor value's type, each along an equation of a type with itself,
    drop out; what is left is `Stages.out` with its definitions unfolded, term for term (the window sums, the
    scatter, the gathers and the concatenation are compared by their arguments and never opened). -/
theorem out_eq (V : Valuation τ sig (Elt Ideal)) :
    after (ops (F := Ideal)) V (main_v49 : DevRef τ sig) = Stages.out (V (main_arg0 : DevRef τ sig)) := by
  read_back
  simp only [cast_cast, cast_id]
  rfl

set_option maxHeartbeats 400000 in
/-- No operation writes the argument's buffer: it ends as it began. -/
theorem arg0_eq (V : Valuation τ sig (Elt Ideal)) :
    after (ops (F := Ideal)) V (main_arg0 : DevRef τ sig) = V (main_arg0 : DevRef τ sig) := by
  read_back

/-- On every device, from any memory with zero counters: every weakly fair execution of the program terminates,
    with the result buffer at `Stages.out` of the argument's launch contents and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = Stages.out (m ((c.tc : Thread nD τ).loc main_arg0))
      ∧ r.2.mem ((c.tc : Thread nD τ).loc main_arg0) = m ((c.tc : Thread nD τ).loc main_arg0) :=
  (θ_run defs _ _).mono (fun _ h c => ⟨(h c main_v49).trans (out_eq _), (h c main_arg0).trans (arg0_eq _)⟩)
    (run_seq scopedRefs_eq scopedSems_eq defs main (fun _ => ops) main_eq (fun _ => ops_sub) m ρ)

end Cert.ReferenceIdeal.RefRun

end
-- ==== Proof.LibTriCount.lean ====
/-
  A counting fact about the strict upper triangle of a 40 × 40 grid.

  Flatten the grid row by row, so that position k < 1600 is the cell (k / 40, k % 40), and mark the
  cells whose row index is smaller than their column index. Let cs k be the number of marked
  positions among 0, …, k (a running count, the position k itself included), let cnt b be the number
  of positions k < 1600 with cs k = b, and let flat p = cnt 0 + … + cnt p.

  Claim: for p < 780, flat p is the flat position 40 i + j of the p-th marked cell (i, j), in the
  row-by-row listing of the pairs i < j < 40.

  Why. The running count never decreases, so cnt 0 + … + cnt p is the number of positions k < 1600
  with cs k ≤ p. Let K = 40 i + j be the position of the p-th marked cell (counting from 0). Exactly
  p marked positions come before K, and K itself is marked: cs (K - 1) = p and cs K = p + 1. Because
  cs is monotone, cs k ≤ p holds exactly for k ≤ K - 1, that is for the K positions 0, …, K - 1.

  To evaluate cs we use a closed form: the rows before row r contribute off r marked cells, and
  inside row r the marked cells among the columns 0, …, c are the columns r + 1, …, c, of which
  there are c - r (zero when c ≤ r). So cs k = off (k / 40) + (k % 40 - k / 40) for k < 1600; this
  follows by induction on k from the one-step law of the running count, the matching one-step law
  of the closed form being a finite check over the 1599 steps.
-/
import Mathlib.Algebra.BigOperators.Group.Finset.Basic
import Mathlib.Data.Finset.Card
import Mathlib.Order.Monotone.Basic
import Mathlib.Tactic
import proofs.«154658_j69715909148812_2_alg».proof.Proof.PairOrder

namespace Cert.TriCount

open Cert.PairOrder

/-- Row below column at flat position k. -/
def mask (k : Nat) : Bool := decide (k / 40 < k % 40)

/-- How many of the positions 0, …, k lie strictly above the diagonal. -/
def cs (k : Nat) : Nat := ((Finset.range (k + 1)).filter fun k' => mask k' = true).card

/-- How many of the 1600 positions have running count b. -/
def cnt (b : Nat) : Nat := ((Finset.range 1600).filter fun k => cs k = b).card

/-- The running sum of cnt. -/
def flat (p : Nat) : Nat := ∑ b ∈ Finset.range (p + 1), cnt b

/-- The closed form of the running count: the off (k / 40) marked cells of the earlier rows, plus the
    marked cells of the current row up to the current column. -/
def csF (k : Nat) : Nat := off (k / 40) + (k % 40 - k / 40)

/-- The flat position of the pair at position p of the listing. -/
def posOf (p : Nat) : Nat := 40 * rowOf p + colOf p

/-- Position 0 is the diagonal cell (0, 0), which is not marked. -/
theorem cs_zero : cs 0 = 0 := by
  simp [cs, mask]

/-- One step of the running count: position k + 1 adds one exactly when it is marked. -/
theorem cs_succ (k : Nat) : cs (k + 1) = cs k + (if mask (k + 1) = true then 1 else 0) := by
  have hr : Finset.range (k + 1 + 1) = insert (k + 1) (Finset.range (k + 1)) := Finset.range_add_one
  unfold cs
  rw [hr, Finset.filter_insert]
  split_ifs with h
  · rw [Finset.card_insert_of_notMem]
    simp
  · rfl

/-- The closed form obeys the same one-step law (a finite check, one case per step). -/
theorem csF_succ : ∀ k : Fin 1599,
    csF (k.val + 1) = csF k.val + (if mask (k.val + 1) = true then 1 else 0) := by
  decide +kernel

/-- Below 1600 the running count is given by the closed form. -/
theorem cs_eq (k : Nat) (hk : k < 1600) : cs k = csF k := by
  induction k with
  | zero => rw [cs_zero]; decide
  | succ k ih =>
    have h := csF_succ ⟨k, by omega⟩
    simp only at h
    rw [cs_succ, ih (by omega), h]

/-- The running count never decreases. -/
theorem cs_mono : Monotone cs :=
  monotone_nat_of_le_succ fun k => by rw [cs_succ]; exact Nat.le_add_right _ _

/-- A marked position lies inside the grid: its row index is below its column index, which is below 40. -/
theorem lt_of_mask {k : Nat} (h : mask k = true) : k < 1600 := by
  simp only [mask, decide_eq_true_eq] at h
  omega

/-- There are 780 marked cells in all, so no running count exceeds 780: every marked position is
    below 1600, so the marked positions up to k are among those up to 1599, and the closed form
    gives the count of the latter. -/
theorem cs_le (k : Nat) : cs k ≤ 780 := by
  have h1 : cs k ≤ cs 1599 := by
    unfold cs
    apply Finset.card_le_card
    intro x hx
    simp only [Finset.mem_filter, Finset.mem_range] at hx ⊢
    have := lt_of_mask hx.2
    exact ⟨by omega, hx.2⟩
  have h2 : cs 1599 = csF 1599 := cs_eq 1599 (by norm_num)
  have h3 : csF 1599 ≤ 780 := by decide +kernel
  omega

/-- Summing the sizes of the level sets {cs = b} over b ≤ p counts the positions with cs ≤ p. -/
theorem flat_card (p : Nat) :
    flat p = ((Finset.range 1600).filter fun k => cs k ≤ p).card := by
  have hmaps : (((Finset.range 1600).filter fun k => cs k ≤ p : Finset Nat) : Set Nat).MapsTo cs
      (Finset.range (p + 1) : Finset Nat) := by
    intro k hk
    simp only [Finset.coe_filter, Finset.mem_range, Set.mem_setOf_eq] at hk
    simp only [Finset.coe_range, Set.mem_Iio]
    omega
  rw [Finset.card_eq_sum_card_fiberwise hmaps]
  unfold flat cnt
  apply Finset.sum_congr rfl
  intro b hb
  have hb' : b < p + 1 := Finset.mem_range.mp hb
  rw [Finset.filter_filter]
  congr 1
  apply Finset.filter_congr
  intro k _
  constructor
  · intro h; exact ⟨by omega, h⟩
  · intro h; exact h.2

/-- At the flat position of the p-th pair the closed form is p + 1, just before it it is p, and that
    position is at least 1 and inside the grid (a finite check over the 780 pairs). -/
theorem posOf_facts : ∀ p : Fin 780,
    csF (posOf p.val) = p.val + 1 ∧ csF (posOf p.val - 1) = p.val
      ∧ 1 ≤ posOf p.val ∧ posOf p.val < 1600 := by
  decide +kernel

/-- The positions with running count at most p are exactly those before the p-th marked cell. -/
theorem flat_eq (p : Nat) (hp : p < 780) : flat p = 40 * rowOf p + colOf p := by
  obtain ⟨h1, h2, h3, h4⟩ := posOf_facts ⟨p, hp⟩
  simp only at h1 h2 h3 h4
  have e1 : cs (posOf p) = p + 1 := by rw [cs_eq _ h4, h1]
  have e2 : cs (posOf p - 1) = p := by rw [cs_eq _ (by omega), h2]
  have hset : ((Finset.range 1600).filter fun k => cs k ≤ p) = Finset.range (posOf p) := by
    ext k
    simp only [Finset.mem_filter, Finset.mem_range]
    constructor
    · rintro ⟨_, hk⟩
      by_contra hlt
      have := cs_mono (Nat.le_of_not_lt hlt)
      omega
    · intro hk
      have := cs_mono (show k ≤ posOf p - 1 by omega)
      exact ⟨by omega, by omega⟩
  rw [flat_card, hset, Finset.card_range]
  rfl

theorem flat_lt (p : Nat) (hp : p < 780) : flat p < 1600 := by
  rw [flat_eq p hp]
  exact (posOf_facts ⟨p, hp⟩).2.2.2

end Cert.TriCount
-- ==== Proof.LibHostFolds.lean ====
/-
  Three of the host program's index-moving operations, each read at one index of its result:
  a padded sliding-window sum whose window is as long as the axis (inclusive prefix sums), a scatter
  that adds ones (a histogram), and a gather whose start indices come from a two-column table.
  The statements are about the operations' definitions only; no program is mentioned.
-/
import Idealize.ShloMosaic.Lib.ValueIdx
import Mathlib.Data.BitVec

open scoped BigOperators

namespace Cert.HostFolds

open Idealize.ShloMosaic Idealize.ShloMosaic.ValueIdx

/-! ## Left folds that add -/

/-- A left fold that adds one term per list member ends at the start value plus the sum of the terms. -/
theorem foldl_addi_eq_sum {ι : Type} (g : ι → BitVec 32) (l : List ι) (v : BitVec 32) :
    l.foldl (fun r m => IntOp.addi r (g m)) v = v + (l.map g).sum := by
  induction l generalizing v with
  | nil => simp
  | cons a l ih =>
    rw [List.foldl_cons, ih, List.map_cons, List.sum_cons]
    show v + g a + _ = _
    rw [add_assoc]

/-- The indices of a one-axis shape are the positions of the axis. -/
def idxEquiv1 {n : Nat} : (⟨1, ![n]⟩ : Shape).Idx ≃ Fin n where
  toFun i := i 0
  invFun k := ix1 k
  left_inv i := (eq_ix1 i).symm
  right_inv _ := rfl

/-- A sum over the indices of a one-axis shape is the sum over the axis. -/
theorem sum_idx1 {n : Nat} (F : (⟨1, ![n]⟩ : Shape).Idx → BitVec 32) : ∑ i, F i = ∑ k : Fin n, F (ix1 k) :=
  (Equiv.sum_comp (idxEquiv1 (n := n)).symm F).symm

/-- The 32-bit word of a sum of naturals is the sum of the words. -/
theorem ofNat_sum (s : Finset Nat) (f : Nat → Nat) :
    BitVec.ofNat 32 (∑ k ∈ s, f k) = ∑ k ∈ s, BitVec.ofNat 32 (f k) := by
  rw [← BitVec.natCast_eq_ofNat, Nat.cast_sum]
  simp only [BitVec.natCast_eq_ofNat]

/-! ## Inclusive prefix sums -/

/-- Window position w of the window at j reads position j + w - lo when lo ≤ j + w, and padding (zero)
    otherwise. When lo is the last position of the axis, those are exactly the positions 0 … j,
    each once: w ↦ j + w - lo is a bijection from the window positions that read the operand onto them. -/
theorem sum_window {n lo j0 : Nat} (hlo : lo + 1 = n) (hj : j0 < n) (F : Nat → BitVec 32) :
    ∑ w ∈ Finset.range n, (if lo ≤ j0 + w then F (j0 + w - lo) else 0#32) = ∑ k ∈ Finset.range (j0 + 1), F k := by
  change ∑ w ∈ Finset.range n, (if lo ≤ j0 + w then F (j0 + w - lo) else 0) = _
  rw [← Finset.sum_filter]
  refine Finset.sum_nbij' (fun w => j0 + w - lo) (fun k => k + lo - j0) ?_ ?_ ?_ ?_ ?_
  · intro w hw
    simp only [Finset.mem_filter, Finset.mem_range] at hw ⊢
    omega
  · intro k hk
    simp only [Finset.mem_filter, Finset.mem_range] at hk ⊢
    omega
  · intro w hw
    simp only [Finset.mem_filter, Finset.mem_range] at hw ⊢
    omega
  · intro k hk
    simp only [Finset.mem_filter, Finset.mem_range] at hk ⊢
    omega
  · intro w hw
    rfl

/-- INCLUSIVE PREFIX SUMS. A sliding-window sum over one axis of n positions, the window n long, the
    operand padded with lo = n - 1 zeros in front and none behind, of an operand whose words are those of the
    naturals f 0, f 1, …: the result's word at j is that of f 0 + … + f j. The fold over the window's
    positions is a sum in the ring of 32-bit words (addition there is commutative and starts from zero);
    re-indexed by the operand position each window position reads, it runs over 0 … j. -/
theorem reduceWindow_cumsum {n lo : Nat} (hlo : lo + 1 = n) (f : Nat → Nat)
    (x : (⟨1, ![n]⟩ : Shape).Idx → BitVec 32) (hx : ∀ k, x k = BitVec.ofNat 32 (f (k 0).val))
    (init : (⟨0, ![]⟩ : Shape).Idx → BitVec 32) (hinit : ∀ u, init u = 0#32)
    (h : (⟨1, ![n]⟩ : Shape).ReduceWindows (![n] : Fin 1 → Nat) ![1] ![lo] ![0] ⟨1, ![n]⟩)
    (hu : 0 < (⟨0, ![]⟩ : Shape).numel) (j : (⟨1, ![n]⟩ : Shape).Idx) :
    Host.reduceWindow IntOp.addi (![n] : Fin 1 → Nat) ![1] ![lo] ![0] x init h hu j
      = BitVec.ofNat 32 (∑ k ∈ Finset.range ((j 0).val + 1), f k) := by
  obtain ⟨j0, rfl⟩ : ∃ j0 : Fin n, j = ix1 j0 := ⟨j 0, eq_ix1 j⟩
  -- the term the window adds at window position wi
  have term : ∀ wi : (⟨1, ![n]⟩ : Shape).Idx,
      (if hin : ∀ a : Fin 1, (![lo] : Fin 1 → Nat) a ≤ ((ix1 j0) (a.cast h.1.symm)).val * (![1] : Fin 1 → Nat) a + (wi a).val ∧
          ((ix1 j0) (a.cast h.1.symm)).val * (![1] : Fin 1 → Nat) a + (wi a).val - (![lo] : Fin 1 → Nat) a < (![n] : Fin 1 → Nat) a then
        x (fun a => ⟨((ix1 j0) (a.cast h.1.symm)).val * (![1] : Fin 1 → Nat) a + (wi a).val - (![lo] : Fin 1 → Nat) a, (hin a).2⟩)
       else init (Shape.Idx.first hu))
      = if lo ≤ j0.val + (wi 0).val then BitVec.ofNat 32 (f (j0.val + (wi 0).val - lo)) else 0#32 := by
    intro wi
    have hw : (wi 0).val < n := (wi 0).isLt
    by_cases hc : lo ≤ j0.val + (wi 0).val
    · rw [if_pos hc, dif_pos, hx]
      · show BitVec.ofNat 32 (f (j0.val * 1 + (wi 0).val - lo)) = _
        rw [Nat.mul_one]
      · intro a
        obtain rfl : a = 0 := Subsingleton.elim _ _
        show lo ≤ j0.val * 1 + (wi 0).val ∧ j0.val * 1 + (wi 0).val - lo < n
        have := j0.isLt
        omega
    · rw [if_neg hc, dif_neg, hinit]
      intro hin
      have h2 : lo ≤ j0.val * 1 + (wi 0).val := (hin 0).1
      omega
  unfold Host.reduceWindow
  dsimp only
  rw [foldl_addi_eq_sum, ← Fin.sum_univ_def]
  simp only [term]
  rw [hinit, BitVec.zero_add,
    Equiv.sum_comp (Shape.rowMajor ⟨1, ![n]⟩).symm
      (fun wi => if lo ≤ j0.val + (wi 0).val then BitVec.ofNat 32 (f (j0.val + (wi 0).val - lo)) else 0#32),
    sum_idx1]
  show (∑ k : Fin n, if lo ≤ j0.val + k.val then BitVec.ofNat 32 (f (j0.val + k.val - lo)) else 0#32) = _
  rw [Fin.sum_univ_eq_sum_range (fun w => if lo ≤ j0.val + w then BitVec.ofNat 32 (f (j0.val + w - lo)) else 0#32) n,
    sum_window hlo j0.isLt (fun k => BitVec.ofNat 32 (f k)), ofNat_sum]
  rfl

/-! ## A scatter-add of ones is a histogram -/

/-- The left fold of scatter steps over a list of update positions, read at one index of the operand:
    the accumulator's entry there plus the updates of the list members whose result index is that index.
    (Each step changes only the entry at its own result index, by adding its update; a step whose
    result index falls outside the operand changes nothing.) -/
theorem scatter_fold_apply {s si u : Shape} {w : Nat} (d : ScatterDims s si u) (idx : IVec si w)
    (upd : u.Idx → BitVec 32) (l : List (Fin u.numel)) (r : s.Idx → BitVec 32) (b : s.Idx) :
    (l.foldl (fun r n =>
        match d.resultIdx? (u.rowMajor.symm n) idx with
        | some i => fun i' => if i' = i then IntOp.addi (r i) (upd (u.rowMajor.symm n)) else r i'
        | none => r) r) b
      = r b + (l.map fun n =>
          if d.resultIdx? (u.rowMajor.symm n) idx = some b then upd (u.rowMajor.symm n) else 0).sum := by
  induction l generalizing r with
  | nil => simp
  | cons n l ih =>
    rw [List.foldl_cons, ih, List.map_cons, List.sum_cons, ← add_assoc]
    congr 1
    generalize d.resultIdx? (u.rowMajor.symm n) idx = o
    cases o with
    | none => simp
    | some i =>
      show (if b = i then IntOp.addi (r i) (upd (u.rowMajor.symm n)) else r b) = _
      by_cases hb : b = i
      · subst hb
        rw [if_pos rfl, if_pos rfl]
        rfl
      · rw [if_neg hb, if_neg (fun h => hb (Option.some.inj h).symm), add_zero]

/-- The dimension numbers of a scatter of N scalar updates into one axis of M positions, the scatter
    indices an N × 1 table: one index per update, the index vector along the table's second axis. -/
abbrev histDims (M N : Nat) (wf : ScatterDims.WF ⟨1, ![M]⟩ ⟨2, ![N, 1]⟩ ⟨1, ![N]⟩ [] [0] [0] 1) :
    ScatterDims ⟨1, ![M]⟩ ⟨2, ![N, 1]⟩ ⟨1, ![N]⟩ where
  updateWindowDims := []
  insertedWindowDims := [0]
  scatterDimsToOperandDims := [0]
  indexVectorDim := 1
  wf := wf

/-- The word of a natural below 2^31 reads, as a signed integer, as that natural. -/
theorem toInt_ofNat_of_lt {m : Nat} (hm : m < 2 ^ 31) : (BitVec.ofNat 32 m).toInt = (m : Int) := by
  rw [BitVec.toInt_eq_toNat_cond, BitVec.toNat_ofNat, Nat.mod_eq_of_lt (by omega)]
  split <;> omega

section Hist
variable {M N : Nat} (wf : ScatterDims.WF ⟨1, ![M]⟩ ⟨2, ![N, 1]⟩ ⟨1, ![N]⟩ [] [0] [0] 1)
  (g : Nat → Nat) (idx : (⟨2, ![N, 1]⟩ : Shape).Idx → BitVec 32)
  (hidx : ∀ k, idx k = BitVec.ofNat 32 (g (k 0).val)) (hg : ∀ k, k < N → g k < 2 ^ 31)
include hidx hg

/-- Update k starts at the signed reading of the table's entry (k, 0), which is g k, and has no window
    coordinate (the operand's one axis is an inserted one): its position on the axis is g k. -/
theorem hist_start_add_window (k : Fin N) (a : Fin 1) :
    (histDims M N wf).start (ix1 k) idx a + (histDims M N wf).window (ix1 k) a = (g k.val : Int) := by
  obtain rfl : a = 0 := Subsingleton.elim _ _
  have hsi : (histDims M N wf).siIdx (ix1 k) ⟨List.idxOf (0 : Fin 1) (histDims M N wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  have hst : (histDims M N wf).start (ix1 k) idx 0 = (g k.val : Int) := by
    unfold ScatterDims.start
    rw [dif_pos (show (0 : Fin 1) ∈ (histDims M N wf).scatterDimsToOperandDims from List.mem_singleton.mpr rfl),
      hsi, hidx]
    exact toInt_ofNat_of_lt (hg _ k.isLt)
  have hwin : (histDims M N wf).window (ix1 k) 0 = 0 := by
    unfold ScatterDims.window
    rw [dif_neg]
    intro h
    exact (of_decide_eq_true (List.mem_filter.1 h).2) (List.mem_singleton.mpr rfl)
  rw [hst, hwin]
  simp

/-- Update k lands at index b exactly when g k is b's position: inside the axis the result index is
    position g k, and an update with g k outside the axis is dropped, while b is inside. -/
theorem hist_resultIdx_eq_some_iff (k : Fin N) (b : (⟨1, ![M]⟩ : Shape).Idx) :
    (histDims M N wf).resultIdx? (ix1 k) idx = some b ↔ g k.val = (b 0).val := by
  have hsw := hist_start_add_window wf g idx hidx hg k
  have hb : (b 0).val < M := (b 0).isLt
  unfold ScatterDims.resultIdx?
  split
  · rename_i h
    rw [Option.some.injEq]
    constructor
    · intro e
      have h0 : ((histDims M N wf).start (ix1 k) idx 0 + (histDims M N wf).window (ix1 k) 0).toNat = (b 0).val :=
        congrArg (fun i => (i 0).val) e
      rw [hsw] at h0
      omega
    · intro e
      funext a
      obtain rfl : a = 0 := Subsingleton.elim _ _
      refine Fin.ext ?_
      show ((histDims M N wf).start (ix1 k) idx 0 + (histDims M N wf).window (ix1 k) 0).toNat = (b 0).val
      rw [hsw]
      omega
  · rename_i h
    constructor
    · intro e
      exact absurd e (by simp)
    · intro e
      exfalso
      apply h
      intro a
      rw [hsw]
      obtain rfl : a = 0 := Subsingleton.elim _ _
      show 0 ≤ (g k.val : Int) ∧ (g k.val : Int) < (M : Int)
      omega

/-- A SCATTER-ADD OF ONES IS A HISTOGRAM, at the dimension numbers written out: entry b of the result is
    the number of updates k < N with g k = b. The fold over the updates, read at b, is the sum over the
    updates landing at b of their value 1, starting from the operand's 0. -/
theorem scatter_histogram_lit (x : (⟨1, ![M]⟩ : Shape).Idx → BitVec 32) (hx : ∀ b, x b = 0#32)
    (upd : (⟨1, ![N]⟩ : Shape).Idx → BitVec 32) (hupd : ∀ k, upd k = 1#32) (b : (⟨1, ![M]⟩ : Shape).Idx) :
    Host.scatter (histDims M N wf) IntOp.addi x idx upd b
      = BitVec.ofNat 32 ((Finset.range N).filter fun k => g k = (b 0).val).card := by
  unfold Host.scatter
  refine (scatter_fold_apply (histDims M N wf) idx upd _ x b).trans ?_
  rw [hx, BitVec.zero_add, ← Fin.sum_univ_def,
    Equiv.sum_comp (Shape.rowMajor ⟨1, ![N]⟩).symm
      (fun j => if (histDims M N wf).resultIdx? j idx = some b then upd j else 0), sum_idx1]
  simp only [hist_resultIdx_eq_some_iff wf g idx hidx hg, hupd]
  rw [Fin.sum_univ_eq_sum_range (fun k => if g k = (b 0).val then (1#32 : BitVec 32) else 0) N]
  change (∑ k ∈ Finset.range N, if g k = (b 0).val then (1 : BitVec 32) else 0) = _
  rw [Finset.sum_boole, BitVec.natCast_eq_ofNat]

end Hist

/-- A SCATTER-ADD OF ONES IS A HISTOGRAM, for any record of those dimension numbers: N updates, each the
    word 1, update k sent to position g k (read off an N × 1 table of words of naturals below 2^31) of a
    zero operand of M positions; entry b of the result is the word of the number of k < N with g k = b. -/
theorem scatter_histogram {N M : Nat} (d : ScatterDims (⟨1, ![M]⟩) (⟨2, ![N, 1]⟩) (⟨1, ![N]⟩))
    (hd1 : d.updateWindowDims = []) (hd2 : d.insertedWindowDims = [0]) (hd3 : d.scatterDimsToOperandDims = [0])
    (hd4 : d.indexVectorDim = 1)
    (g : Nat → Nat) (idx : (⟨2, ![N, 1]⟩ : Shape).Idx → BitVec 32) (hidx : ∀ k, idx k = BitVec.ofNat 32 (g (k 0).val))
    (hg : ∀ k, k < N → g k < 2 ^ 31)
    (x : (⟨1, ![M]⟩ : Shape).Idx → BitVec 32) (hx : ∀ b, x b = 0#32)
    (upd : (⟨1, ![N]⟩ : Shape).Idx → BitVec 32) (hupd : ∀ k, upd k = 1#32) (b : (⟨1, ![M]⟩ : Shape).Idx) :
    Host.scatter d IntOp.addi x idx upd b
      = BitVec.ofNat 32 ((Finset.range N).filter fun k => g k = (b 0).val).card := by
  obtain ⟨uw, iw, sd, iv, wf⟩ := d
  dsimp only at hd1 hd2 hd3 hd4
  subst hd1 hd2 hd3 hd4
  exact scatter_histogram_lit wf g idx hidx hg x hx upd hupd b

/-! ## A gather with a two-column index table -/

/-- The dimension numbers of `x[:, r, c, :]` for a 780 × 2 table of (r, c) pairs: the operand's axes 1 and 2
    are indexed by the table's two columns and collapsed, its axes 0 and 3 are taken whole and become the
    result's axes 0 and 2, and the result's axis 1 runs over the table's rows. -/
abbrev pairDims (wf : GatherDims.WF ⟨4, ![2048, 40, 40, 64]⟩ ⟨2, ![780, 2]⟩ ⟨3, ![2048, 780, 64]⟩
    [0, 2] [1, 2] [] [1, 2] [] 1 ![2048, 1, 1, 64]) :
    GatherDims ⟨4, ![2048, 40, 40, 64]⟩ ⟨2, ![780, 2]⟩ ⟨3, ![2048, 780, 64]⟩ where
  offsetDims := [0, 2]
  collapsedSliceDims := [1, 2]
  operandBatchingDims := []
  startIndicesBatchingDims := []
  startIndexMap := [1, 2]
  indexVectorDim := 1
  sliceSizes := ![2048, 1, 1, 64]
  wf := wf

/-- THE GATHER READ AT (b, p, e), at the dimension numbers written out: the operand at (b, r, c, e), where
    (r, c) is row p of the table. On axes 1 and 2 the start is the table's entry, read signed and clamped
    to [0, 39], which fixes r, c < 40, and nothing is added to it; on axes 0 and 3 the start is 0 and the
    offset is the result's coordinate 0, respectively 2. -/
theorem gather_pair_lit {α : Type} (wf : GatherDims.WF ⟨4, ![2048, 40, 40, 64]⟩ ⟨2, ![780, 2]⟩ ⟨3, ![2048, 780, 64]⟩
    [0, 2] [1, 2] [] [1, 2] [] 1 ![2048, 1, 1, 64])
    (x : (⟨4, ![2048, 40, 40, 64]⟩ : Shape).Idx → α) (idx : (⟨2, ![780, 2]⟩ : Shape).Idx → BitVec 32)
    (b : Fin 2048) (p : Fin 780) (e : Fin 64) (r c : Fin 40)
    (hr : idx (ix2 p 0) = BitVec.ofNat 32 r.val) (hc : idx (ix2 p 1) = BitVec.ofNat 32 c.val) :
    Host.gather (pairDims wf) x idx (ix3 b p e) = x (ix4 b r c e) := by
  have hrl := r.isLt
  have hcl := c.isLt
  have m1 : (1 : Fin 4) ∈ (pairDims wf).startIndexMap := show (1 : Fin 4) ∈ ([1, 2] : List (Fin 4)) by decide
  have m2 : (2 : Fin 4) ∈ (pairDims wf).startIndexMap := show (2 : Fin 4) ∈ ([1, 2] : List (Fin 4)) by decide
  -- the table entries the two indexed axes read
  have hsi1 : (pairDims wf).siIdx (ix3 b p e) ⟨List.idxOf (1 : Fin 4) (pairDims wf).startIndexMap,
      List.idxOf_lt_length_iff.2 m1⟩ = ix2 p 0 := by
    funext k; refine Fin.ext ?_
    match k with
    | ⟨0, _⟩ => rfl
    | ⟨1, _⟩ => rfl
  have hsi2 : (pairDims wf).siIdx (ix3 b p e) ⟨List.idxOf (2 : Fin 4) (pairDims wf).startIndexMap,
      List.idxOf_lt_length_iff.2 m2⟩ = ix2 p 1 := by
    funext k; refine Fin.ext ?_
    match k with
    | ⟨0, _⟩ => rfl
    | ⟨1, _⟩ => rfl
  -- the starts
  have hs0 : (pairDims wf).start (ix3 b p e) idx 0 = 0 := by
    unfold GatherDims.start
    exact dif_neg (show (0 : Fin 4) ∉ ([1, 2] : List (Fin 4)) by decide)
  have hs3 : (pairDims wf).start (ix3 b p e) idx 3 = 0 := by
    unfold GatherDims.start
    exact dif_neg (show (3 : Fin 4) ∉ ([1, 2] : List (Fin 4)) by decide)
  have hs1 : (pairDims wf).start (ix3 b p e) idx 1 = r.val := by
    unfold GatherDims.start
    rw [dif_pos m1, hsi1, hr,
      toInt_ofNat_of_lt (by omega), Int.toNat_natCast]
    show min r.val (40 - 1) = r.val
    omega
  have hs2 : (pairDims wf).start (ix3 b p e) idx 2 = c.val := by
    unfold GatherDims.start
    rw [dif_pos m2, hsi2, hc,
      toInt_ofNat_of_lt (by omega), Int.toNat_natCast]
    show min c.val (40 - 1) = c.val
    omega
  -- the offsets
  have ho0 : (pairDims wf).offCoord (ix3 b p e) 0 = b.val := by
    unfold GatherDims.offCoord
    rw [dif_pos ((GatherDims.mem_sKept (pairDims wf) 0).2
      ⟨show (0 : Fin 4) ∉ ([1, 2] : List (Fin 4)) by decide, List.not_mem_nil⟩)]
    rfl
  have ho3 : (pairDims wf).offCoord (ix3 b p e) 3 = e.val := by
    unfold GatherDims.offCoord
    rw [dif_pos ((GatherDims.mem_sKept (pairDims wf) 3).2
      ⟨show (3 : Fin 4) ∉ ([1, 2] : List (Fin 4)) by decide, List.not_mem_nil⟩)]
    rfl
  have ho1 : (pairDims wf).offCoord (ix3 b p e) 1 = 0 :=
    GatherDims.offCoord_eq_zero _ _ _ fun h =>
      ((GatherDims.mem_sKept _ _).1 h).1 (show (1 : Fin 4) ∈ ([1, 2] : List (Fin 4)) by decide)
  have ho2 : (pairDims wf).offCoord (ix3 b p e) 2 = 0 :=
    GatherDims.offCoord_eq_zero _ _ _ fun h =>
      ((GatherDims.mem_sKept _ _).1 h).1 (show (2 : Fin 4) ∈ ([1, 2] : List (Fin 4)) by decide)
  have hb : ∀ a, (pairDims wf).batchCoord (ix3 b p e) a = 0 := fun a =>
    GatherDims.batchCoord_eq_zero _ _ _ List.not_mem_nil
  unfold Host.gather
  congr 1
  funext a
  refine Fin.ext ?_
  show (pairDims wf).start (ix3 b p e) idx a + (pairDims wf).batchCoord (ix3 b p e) a
    + (pairDims wf).offCoord (ix3 b p e) a = (ix4 b r c e a).val
  rw [hb, Nat.add_zero]
  match a with
  | ⟨0, _⟩ => exact (congrArg₂ (· + ·) hs0 ho0).trans (Nat.zero_add _)
  | ⟨1, _⟩ => exact (congrArg₂ (· + ·) hs1 ho1).trans (Nat.add_zero _)
  | ⟨2, _⟩ => exact (congrArg₂ (· + ·) hs2 ho2).trans (Nat.add_zero _)
  | ⟨3, _⟩ => exact (congrArg₂ (· + ·) hs3 ho3).trans (Nat.zero_add _)

/-- THE GATHER READ AT (b, p, e), for any record of those dimension numbers. -/
theorem gather_pair {α : Type} (d : GatherDims (⟨4, ![2048, 40, 40, 64]⟩) (⟨2, ![780, 2]⟩) (⟨3, ![2048, 780, 64]⟩))
    (h1 : d.offsetDims = [0, 2]) (h2 : d.collapsedSliceDims = [1, 2]) (h3 : d.operandBatchingDims = [])
    (h4 : d.startIndicesBatchingDims = []) (h5 : d.startIndexMap = [1, 2]) (h6 : d.indexVectorDim = 1)
    (h7 : d.sliceSizes = ![2048, 1, 1, 64])
    (x : (⟨4, ![2048, 40, 40, 64]⟩ : Shape).Idx → α) (idx : (⟨2, ![780, 2]⟩ : Shape).Idx → BitVec 32)
    (b : Fin 2048) (p : Fin 780) (e : Fin 64) (r c : Fin 40)
    (hr : idx (ix2 p 0) = BitVec.ofNat 32 r.val) (hc : idx (ix2 p 1) = BitVec.ofNat 32 c.val) :
    Host.gather d x idx (ix3 b p e) = x (ix4 b r c e) := by
  obtain ⟨od, cd, ob, sb, sm, iv, ss, wf⟩ := d
  dsimp only at h1 h2 h3 h4 h5 h6 h7
  subst h1 h2 h3 h4 h5 h6 h7
  exact gather_pair_lit wf x idx b p e r c hr hc

end Cert.HostFolds
-- ==== Proof.RefValue.lean ====
/-
  The reference program's result, read entry by entry.

  The program never tabulates the pairs (i, j), i < j < 40: it computes them. It marks the strict upper triangle
  of the 40 × 40 grid (row index below column index), flattens the marks row by row and takes their running
  count; it then scatter-adds a one at every running count, which yields, for each b, the number of flat positions
  whose running count is b; the running sum of that histogram is, at p, the number of positions whose running
  count is at most p — and since the running count is monotone and steps from p to p + 1 exactly at the p-th
  marked cell, that number is the flat position 40 i + j of the p-th marked cell (i, j). Quotient and remainder
  by 40 recover i and j, and the result gathers the input at (i, j) and at (j, i) and multiplies the two.

  Each stage below is matched with its mirror on the natural numbers: the mask with mask, the running count with
  cs, the histogram with cnt, its running sum with flat, whose value 40 · rowOf p + colOf p is the counting fact
  proved on the natural numbers alone. The three folds of the host program (the windowed sum, the scatter-add of
  ones, the two-coordinate gather) are used through their read-at-an-index lemmas. The 32-bit word arithmetic
  (signed comparisons, floor division, the sign-corrected remainder, index wrap-around) only ever meets words
  below 1600, so each word fact is one finite check over the words that occur.
-/
import proofs.«154658_j69715909148812_2_alg».proof.Proof.Stages
import proofs.«154658_j69715909148812_2_alg».proof.Proof.PairOrder
import proofs.«154658_j69715909148812_2_alg».proof.Proof.LibTriCount
import proofs.«154658_j69715909148812_2_alg».proof.Proof.LibHostFolds
import Idealize.ShloMosaic.Lib.ValueIdx
import Idealize.ShloMosaic.Lib.IdealHost
import Idealize.ShloMosaic.Lib.Pipeline.Value
import Idealize.ShloMosaic.PureOps.Ideal

noncomputable section

namespace Cert.ReferenceIdeal.RefValue

open Cert.ReferenceIdeal Idealize.ShloMosaic Idealize.ShloMosaic.ValueIdx
open Cert.PairOrder
open Facts₀

variable [Facts]

/-! ## The mask of the strict upper triangle -/

/-- For row and column indices below 40, the signed word comparison "row + 0 ≥ column" is the comparison of the
    indices. -/
theorem sge_word : ∀ r c : Fin 40,
    IntOp.cmpi .sge (IntOp.addi (BitVec.ofNat 32 r.val) 0#32) (BitVec.ofNat 32 c.val)
      = if c.val ≤ r.val then 1#1 else 0#1 := by
  decide +kernel

/-- The mask at (r, c): the all-ones array keeps its one where r < c and is zeroed elsewhere, and the mask asks
    whether the entry differs from zero; one differs from zero and zero does not. -/
theorem mask_apply (r c : Fin 40) : Stages.mask (ix2 r c) = if r.val < c.val then 1#1 else 0#1 := by
  show Ideal.cmp .une (Scalar.select
      (IntOp.cmpi .sge (IntOp.addi (BitVec.ofNat 32 r.val) 0#32) (BitVec.ofNat 32 c.val))
      (Ideal.ofBits .f32 0x00000000#32) (Ideal.ofBits .f32 0x3F800000#32)) (Ideal.ofBits .f32 0x00000000#32) = _
  rw [sge_word, Ideal.ofBits_zero_f32, Ideal.ofBits_one_f32]
  by_cases h : c.val ≤ r.val
  · rw [if_pos h, select_one, if_neg (by omega)]; simp [Ideal.cmp]
  · rw [if_neg h, select_zero, if_pos (by omega)]; simp [Ideal.cmp]

/-- The flattened mask at position k is the mark of the cell (k / 40, k % 40), as a 32-bit 0 or 1: the cell whose
    row-major position in the 40 × 40 grid is k. -/
theorem maskFlat_apply (k : Fin 1600) :
    Stages.maskFlat (ix1 k) = BitVec.ofNat 32 (if Cert.TriCount.mask k.val = true then 1 else 0) := by
  have hr : k.val / 40 < 40 := by have := k.isLt; omega
  have hc : k.val % 40 < 40 := Nat.mod_lt _ (by decide)
  have e := shapeCast_apply Stages.mask shapeCasts_S40x40_S1600 (ix1 k)
    (ix2 (⟨k.val / 40, hr⟩ : Fin 40) (⟨k.val % 40, hc⟩ : Fin 40)) (by
      rw [Shape.rowMajor_val_two, Shape.rowMajor_val_one]
      show k.val / 40 * 40 + k.val % 40 = k.val
      omega)
  show (shapeCast S1600 Stages.mask shapeCasts_S40x40_S1600 (ix1 k)).setWidth 32 = _
  rw [e, mask_apply]
  simp only [Cert.TriCount.mask, decide_eq_true_eq]
  by_cases h : k.val / 40 < k.val % 40
  · rw [if_pos h, if_pos h]; rfl
  · rw [if_neg h, if_neg h]; rfl

/-! ## The running count, its histogram, and the histogram's running sum -/

/-- The windowed sum of the flattened mask at k adds the marks of the positions 0, …, k: the running count. -/
theorem cumsum_mask_apply (k : Fin 1600) :
    Stages.cumsum1600 Stages.maskFlat (ix1 k) = BitVec.ofNat 32 (Cert.TriCount.cs k.val) := by
  refine (Cert.HostFolds.reduceWindow_cumsum (n := 1600) (lo := 1599) rfl
    (fun k => if Cert.TriCount.mask k = true then 1 else 0) Stages.maskFlat
    (fun j => (congrArg Stages.maskFlat (eq_ix1 j)).trans (maskFlat_apply (j 0)))
    (broadcastInDim S_ ![] bcast_S_S_ (Stages.lit 0#32)) (fun _ => rfl)
    reduceWindows_S1600_S1600_w1600s1p1599_0 h_S_ (ix1 k)).trans ?_
  rw [Cert.TriCount.cs, Finset.card_filter]

/-- A count n ≤ 780 is not negative as a signed word: the larger of 0 and n is n, and the wrap-around of a
    negative index leaves it alone. -/
theorem clip_wrap_word : ∀ n : Fin 781,
    Scalar.select (IntOp.cmpi .slt (IntOp.maxsi 0#32 (BitVec.ofNat 32 n.val)) 0#32)
      (IntOp.addi (IntOp.maxsi 0#32 (BitVec.ofNat 32 n.val)) 780#32) (IntOp.maxsi 0#32 (BitVec.ofNat 32 n.val))
      = BitVec.ofNat 32 n.val := by
  decide +kernel

/-- Clipping at zero and index wrap-around do nothing to the running count, which is at most 780. -/
theorem counts_apply (k : Fin 1600) : Stages.counts (ix1 k) = BitVec.ofNat 32 (Cert.TriCount.cs k.val) := by
  show Scalar.select (IntOp.cmpi .slt (IntOp.maxsi 0#32 (Stages.cumsum1600 Stages.maskFlat (ix1 k))) 0#32)
      (IntOp.addi (IntOp.maxsi 0#32 (Stages.cumsum1600 Stages.maskFlat (ix1 k))) 780#32)
      (IntOp.maxsi 0#32 (Stages.cumsum1600 Stages.maskFlat (ix1 k))) = _
  rw [cumsum_mask_apply]
  exact clip_wrap_word ⟨Cert.TriCount.cs k.val, by have := Cert.TriCount.cs_le k.val; omega⟩

/-- Ones scatter-added into zeros at the indices c: entry b counts the positions k with c k = b. Stated for any
    index array c that reads cs, so that nothing about how c is computed is looked into. -/
theorem histogram_of (c : IVec S1600 32) (hc : ∀ k : Fin 1600, c (ix1 k) = BitVec.ofNat 32 (Cert.TriCount.cs k.val))
    (b : Fin 780) :
    Host.scatter scatter_S780_S1600x1_S1600_n_0_0_1 IntOp.addi (broadcastInDim S780 ![] bcast_S_S780 (Stages.lit 0#32))
      (broadcastInDim S1600x1 ![0] bcast_S1600_S1600x1_0 c) (broadcastInDim S1600 ![] bcast_S_S1600 (Stages.lit 1#32)) (ix1 b)
      = BitVec.ofNat 32 (Cert.TriCount.cnt b.val) := by
  have hidx : ∀ k, (broadcastInDim S1600x1 ![0] bcast_S1600_S1600x1_0 c) k
      = BitVec.ofNat 32 (Cert.TriCount.cs (k 0).val) := by
    intro k
    refine (broadcastInDim_apply ![0] bcast_S1600_S1600x1_0 c k (ix1 (k 0)) fun a => ?_).trans (hc (k 0))
    match a with
    | ⟨0, _⟩ => exact (if_neg (by decide : ¬ (1600 : Nat) = 1)).symm
  have hg : ∀ k, k < 1600 → Cert.TriCount.cs k < 2 ^ 31 := by
    intro k _
    have := Cert.TriCount.cs_le k; omega
  have h := Cert.HostFolds.scatter_histogram (N := 1600) (M := 780) scatter_S780_S1600x1_S1600_n_0_0_1 rfl rfl rfl rfl
    Cert.TriCount.cs (broadcastInDim S1600x1 ![0] bcast_S1600_S1600x1_0 c) hidx hg
    (broadcastInDim S780 ![] bcast_S_S780 (Stages.lit 0#32)) (fun _ => rfl)
    (broadcastInDim S1600 ![] bcast_S_S1600 (Stages.lit 1#32)) (fun _ => rfl) (ix1 b)
  exact h

/-- The histogram at b: how many of the 1600 positions have running count b. -/
theorem histogram_apply (b : Fin 780) : Stages.histogram (ix1 b) = BitVec.ofNat 32 (Cert.TriCount.cnt b.val) := by
  unfold Stages.histogram
  exact histogram_of Stages.counts counts_apply b

/-- The running sum of the histogram at p is the flat position 40 i + j of the p-th pair (i, j). -/
theorem flatPos_apply (p : Fin 780) :
    Stages.flatPos (ix1 p) = BitVec.ofNat 32 (40 * rowOf p.val + colOf p.val) := by
  unfold Stages.flatPos Stages.cumsum780
  refine (Cert.HostFolds.reduceWindow_cumsum (n := 780) (lo := 779) rfl Cert.TriCount.cnt Stages.histogram
    (fun j => (congrArg Stages.histogram (eq_ix1 j)).trans (histogram_apply (j 0)))
    (broadcastInDim S_ ![] bcast_S_S_ (Stages.lit 0#32)) (fun _ => rfl)
    reduceWindows_S780_S780_w780s1p779_0 h_S_ (ix1 p)).trans ?_
  show BitVec.ofNat 32 (Cert.TriCount.flat p.val) = _
  rw [Cert.TriCount.flat_eq p.val p.isLt]

/-! ## Row and column: quotient and remainder by 40, on words -/
/-- Floor division of 32-bit words as the program spells it: the truncated quotient, less one where the signs of
    the operands differ and the division is inexact. -/
def fdivW (a b : BitVec 32) : BitVec 32 :=
  Scalar.select
    (IntOp.andi
      (IntOp.cmpi .ne (if a = 0 then 0 else if a.msb then -1 else 1 : BitVec 32)
        (if b = 0 then 0 else if b.msb then -1 else 1 : BitVec 32))
      (IntOp.cmpi .ne (IntOp.remsi .host a b) 0#32))
    (IntOp.subi (IntOp.divsi .host a b) 1#32) (IntOp.divsi .host a b)

/-- The divisor of the remainder: one in place of zero. -/
def safeW (b : BitVec 32) : BitVec 32 := Scalar.select (IntOp.cmpi .eq b 0#32) 1#32 b

/-- The remainder with the divisor's sign, as the program spells it. -/
def remW (a b : BitVec 32) : BitVec 32 :=
  Scalar.select
    (IntOp.andi
      (IntOp.cmpi .ne (IntOp.cmpi .slt (IntOp.remsi .host a (safeW b)) 0#32) (IntOp.cmpi .slt (safeW b) 0#32))
      (IntOp.cmpi .ne (IntOp.remsi .host a (safeW b)) 0#32))
    (IntOp.addi (IntOp.remsi .host a (safeW b)) (safeW b)) (IntOp.remsi .host a (safeW b))

/-- An index counted from the end of an axis of 40 where it is negative. -/
def wrapW (a : BitVec 32) : BitVec 32 := Scalar.select (IntOp.cmpi .slt a 0#32) (IntOp.addi a 40#32) a

/-- Floor division, the remainder and the wrap-around act entry by entry; against a constant divisor each is the word
    function above at the entry. -/
theorem floorDivide_apply (a : IVec S780 32) (n : BitVec 32) (i : S780.Idx) :
    Stages.floorDivide a (Stages.lit n) i = fdivW (a i) n := rfl

theorem remainder_apply (a : IVec S780 32) (n : BitVec 32) (i : S780.Idx) :
    Stages.remainder a (Stages.lit n) i = remW (a i) n := rfl

theorem wrap40_apply (a : IVec S780 32) (i : S780.Idx) : Stages.wrap40 a i = wrapW (a i) := rfl

/-- On words below 1600: floor division by 40 followed by the remainder by 40 is (n / 40) % 40 — no sign correction
    applies to operands that are not negative. -/
theorem row_word : ∀ n : Fin 1600,
    remW (fdivW (BitVec.ofNat 32 n.val) 40#32) 40#32 = BitVec.ofNat 32 (n.val / 40 % 40) := by
  decide +kernel

/-- On words below 1600: floor division by 1 followed by the remainder by 40 is n % 40. -/
theorem col_word : ∀ n : Fin 1600,
    remW (fdivW (BitVec.ofNat 32 n.val) 1#32) 40#32 = BitVec.ofNat 32 (n.val % 40) := by
  decide +kernel

/-- An index below 40 is not negative, so the wrap-around leaves it alone. -/
theorem wrap_word : ∀ n : Fin 40, wrapW (BitVec.ofNat 32 n.val) = BitVec.ofNat 32 n.val := by
  decide +kernel

/-- The row of the p-th pair: with n = 40 i + j and i, j < 40, (n / 40) % 40 = i. -/
theorem rows_apply (p : Fin 780) : Stages.rows (ix1 p) = BitVec.ofNat 32 (rowOf p.val) := by
  have hr := rowOf_lt p.val p.isLt
  have hc := colOf_lt p.val p.isLt
  unfold Stages.rows
  rw [remainder_apply, floorDivide_apply, flatPos_apply]
  rw [row_word ⟨40 * rowOf p.val + colOf p.val, by omega⟩]
  congr 1
  show (40 * rowOf p.val + colOf p.val) / 40 % 40 = rowOf p.val
  omega

/-- The column of the p-th pair: with n = 40 i + j and j < 40, n % 40 = j. -/
theorem cols_apply (p : Fin 780) : Stages.cols (ix1 p) = BitVec.ofNat 32 (colOf p.val) := by
  have hr := rowOf_lt p.val p.isLt
  have hc := colOf_lt p.val p.isLt
  unfold Stages.cols
  rw [remainder_apply, floorDivide_apply, flatPos_apply]
  rw [col_word ⟨40 * rowOf p.val + colOf p.val, by omega⟩]
  congr 1
  show (40 * rowOf p.val + colOf p.val) % 40 = colOf p.val
  omega

/-! ## The index pairs, the grid, and the result -/
/-- A vector of 780 entries made a column: entry (p, 0) is entry p. -/
theorem bcastCol_apply (a : IVec S780 32) (p : Fin 780) :
    broadcastInDim S780x1 ![0] bcast_S780_S780x1_0 a (ix2 p (0 : Fin 1)) = a (ix1 p) := by
  refine broadcastInDim_apply ![0] bcast_S780_S780x1_0 a (ix2 p (0 : Fin 1)) (ix1 p) fun c => ?_
  match c with
  | ⟨0, _⟩ => exact (if_neg (by decide : ¬ (780 : Nat) = 1)).symm

/-- Two columns side by side: column 0 of the pair array is the first vector, wrapped as an index … -/
theorem indexPairs_left (a b : IVec S780 32) (p : Fin 780) :
    Stages.indexPairs a b (ix2 p (0 : Fin 2)) = wrapW (a (ix1 p)) := by
  have h := concatenate_pair_apply_left (t := S780x2) (s₁ := S780x1) (s₂ := S780x1) (1 : Fin 2)
    (broadcastInDim S780x1 ![0] bcast_S780_S780x1_0 (Stages.wrap40 a))
    (broadcastInDim S780x1 ![0] bcast_S780_S780x1_0 (Stages.wrap40 b))
    concatenates_S780x1_S780x1_S780x2_d1 (ix2 p (0 : Fin 2)) rfl (ix2 p (0 : Fin 1))
    (fun c => match c with | ⟨0, _⟩ => rfl | ⟨1, _⟩ => rfl)
  unfold Stages.indexPairs
  rw [h, bcastCol_apply, wrap40_apply]

/-- … and column 1 is the second. -/
theorem indexPairs_right (a b : IVec S780 32) (p : Fin 780) :
    Stages.indexPairs a b (ix2 p (1 : Fin 2)) = wrapW (b (ix1 p)) := by
  have h := concatenate_pair_apply_right (t := S780x2) (s₁ := S780x1) (s₂ := S780x1) (1 : Fin 2)
    (broadcastInDim S780x1 ![0] bcast_S780_S780x1_0 (Stages.wrap40 a))
    (broadcastInDim S780x1 ![0] bcast_S780_S780x1_0 (Stages.wrap40 b))
    concatenates_S780x1_S780x1_S780x2_d1 (ix2 p (1 : Fin 2)) rfl rfl (ix2 p (0 : Fin 1))
    (fun c hc => match c, hc with | ⟨0, _⟩, _ => rfl | ⟨1, _⟩, hc => absurd rfl hc) rfl
  unfold Stages.indexPairs
  rw [h, bcastCol_apply, wrap40_apply]

/-- The input as a [2048, 40, 40, 64] array: entry (n, r, c, e) is the input's entry (n, 40 r + c, e), the entry with the
    same row-major position. -/
theorem grid_apply (x : FVec Ideal S2048x1600x64 .f32) (b : Fin 2048) (r c : Fin 40) (e : Fin 64) :
    Stages.grid x (ix4 b r c e)
      = x (ix3 b (⟨40 * r.val + c.val, by have := r.isLt; have := c.isLt; omega⟩ : Fin 1600) e) := by
  unfold Stages.grid
  refine shapeCast_apply x shapeCasts_S2048x1600x64_S2048x40x40x64 _ _ ?_
  rw [Shape.rowMajor_val_three, Shape.rowMajor_val_four]
  show (b.val * 1600 + (40 * r.val + c.val)) * 64 + e.val = ((b.val * 40 + r.val) * 40 + c.val) * 64 + e.val
  omega

/-- A gather of the grid at index vectors that read r and c at p picks the input's field 40 r + c. -/
theorem gather_apply (x : FVec Ideal S2048x1600x64 .f32) (a b : IVec S780 32) (n : Fin 2048) (p : Fin 780) (e : Fin 64)
    (r c : Fin 40) (ha : a (ix1 p) = BitVec.ofNat 32 r.val) (hb : b (ix1 p) = BitVec.ofNat 32 c.val) :
    Host.gather gather_S2048x40x40x64_S780x2_S2048x780x64_02_12_n_n_12_1_20481164 (Stages.grid x) (Stages.indexPairs a b)
        (ix3 n p e)
      = x (ix3 n (cell r.val c.val) e) := by
  rw [Cert.HostFolds.gather_pair _ rfl rfl rfl rfl rfl rfl rfl (Stages.grid x) (Stages.indexPairs a b) n p e r c
    (by rw [indexPairs_left, ha, wrap_word]) (by rw [indexPairs_right, hb, wrap_word]), grid_apply]
  congr 2
  refine Fin.ext ?_
  show 40 * r.val + c.val = (40 * r.val + c.val) % 1600
  have := r.isLt; have := c.isLt
  omega

/-- The reference's result is the product of the mirrored field pairs: at (n, p, e) the two gathers read the input at
    the fields (i, j) and (j, i) of the p-th pair, and the result is their product. -/
theorem out_eq (x : FVec Ideal S2048x1600x64 .f32) : Stages.out x = pairProd x := by
  funext j
  obtain ⟨n, p, e, rfl⟩ : ∃ n p e, j = ix3 n p e := ⟨j 0, j 1, j 2, eq_ix3 j⟩
  have hr := rowOf_lt p.val p.isLt
  have hc := colOf_lt p.val p.isLt
  unfold Stages.out
  rw [mulf_apply,
    gather_apply x Stages.rows Stages.cols n p e ⟨rowOf p.val, hr⟩ ⟨colOf p.val, hc⟩ (rows_apply p) (cols_apply p),
    gather_apply x Stages.cols Stages.rows n p e ⟨colOf p.val, hc⟩ ⟨rowOf p.val, hr⟩ (cols_apply p) (rows_apply p)]
  rfl

end Cert.ReferenceIdeal.RefValue

end
-- ==== Proof.lean ====
/-
  The kernel computes, for every batch entry b and embedding coordinate e, the products of mirrored field embeddings
  x[b, 40 i + j, e] · x[b, 40 j + i, e] over the pairs i < j < 40, listed row by row (pair (i, j) at position
  off i + (j - i - 1), off i = i (79 - i) / 2: module PairOrder). Its body handles a tile of 16 batch entries: for each
  row i one contiguous slice of the tile times a stack of 39 - i single rows, stored at rows off i … of the output tile
  (KernelBlock, KernelPieces); the tiles of the 128 grid points are restrictions of one function of the whole input,
  `pairProd` (KernelValue). The reference computes the same pairs' rows and columns on the fly — the mask of the strict
  upper triangle, its running count along the flattened grid, the count's histogram, the histogram's running sum (the
  flat position 40 i + j of the p-th pair: LibTriCount), quotient and remainder by 40 — and gathers x at (i, j) and at
  (j, i) (Stages, RefRun, LibHostFolds, RefValue); read index by index its result is `pairProd` of its input too. The two
  products have the same factors in the same order, so no law of the extended reals is needed and the finiteness of the
  input is not used. No operation of the kernel is rewritten by the idealization, so there is nothing to preserve.
-/
import proofs.«154658_j69715909148812_2_alg».proof.Defs
import proofs.«154658_j69715909148812_2_alg».proof.Proof.Gen.Kernel
import proofs.«154658_j69715909148812_2_alg».proof.Proof.Gen.KernelIdeal
import proofs.«154658_j69715909148812_2_alg».proof.Proof.Gen.ReferenceIdeal
import proofs.«154658_j69715909148812_2_alg».proof.Proof.Gen.Pre_finite_inputs
import proofs.«154658_j69715909148812_2_alg».proof.Proof.FrameKernel
import proofs.«154658_j69715909148812_2_alg».proof.Proof.FrameKernelIdeal
import proofs.«154658_j69715909148812_2_alg».proof.Proof.KernelValue
import proofs.«154658_j69715909148812_2_alg».proof.Proof.RefRun
import proofs.«154658_j69715909148812_2_alg».proof.Proof.RefValue

noncomputable section

namespace Cert.Proof

open Idealize.ShloMosaic Idealize.SL.Sem

/-- The word-level kernel runs and leaves its argument as it found it. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference runs and leaves its argument as it found it: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- From memories that agree on the argument both programs end with the array of mirrored-pair products of it. -/
theorem algebraic : Cert.algebraic_KernelIdeal_ReferenceIdeal := by
  intro m ρ m' ρ' _ hagree
  refine ⟨fun c => Cert.PairOrder.pairProd
      (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.out_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
